-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S256x40 .f32) (main_v50 : FVec F S256x40 .f32) : IVec S_ 1 :=
  let main_v51 : IVec S256x40 1 := cmpf .olt main_v49 main_v50
  let main_c_19 : IVec S_ 1 := constantI S_ 1 1#1
  let main_v52 : IVec S_ 1 := (fun x v => Host.reduce IntOp.andi x v reducesTo_S256x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S256 .f32) (main_arg10 : FVec F S256 .f32) (main_arg11 : FVec F S256 .f32) (main_arg12 : FVec F S256x40 .f32) (main_arg13 : FVec F S40 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x40 .f32 := Host.absf main_arg12
  let main_cst_18 : FVec F S_ .f32 := constant S_ .f32 0x7F800000#32
  let main_v50 : FVec F S256x40 .f32 := broadcastInDim S256x40 ![] bcast_S_S256x40 main_cst_18
  fn_part3 (F := F) main_arg13 main_v48 main_v49 main_v50

def fn_part1 {F : FTy → Type} [FloatOps F] (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256x40 .f32) (main_arg13 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S20000x256 .f32) (main_arg1 : IVec S320000 32) (main_arg2 : IVec S320000 32) (main_arg3 : FVec F S320000 .f32) (main_arg4 : FVec F S256x256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256x40 .f32) (main_arg13 : FVec F S40 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S2000x256 : Shape := ⟨2, ![2000, 256]⟩
abbrev S320000x1 : Shape := ⟨2, ![320000, 1]⟩
abbrev S_ : Shape := ⟨0, ![]⟩
abbrev S320000x256 : Shape := ⟨2, ![320000, 256]⟩
abbrev S1x256 : Shape := ⟨2, ![1, 256]⟩
abbrev S20000x40 : Shape := ⟨2, ![20000, 40]⟩
abbrev S2000x40 : Shape := ⟨2, ![2000, 40]⟩
abbrev S320000x40 : Shape := ⟨2, ![320000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 97
  | .vmem => 48
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x40, .f32⟩
  | .hbm, ⟨13, _⟩ => ⟨S40, .f32⟩
  | .hbm, ⟨14, _⟩ => ⟨S20000x256, .f32⟩
  | .hbm, ⟨15, _⟩ => ⟨S320000x1, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x256, .f32⟩
  | .hbm, ⟨25, _⟩ => ⟨S320000x256, .f32⟩
  | .hbm, ⟨26, _⟩ => ⟨S320000x256, .f32⟩
  | .hbm, ⟨27, _⟩ => ⟨S_, .f32⟩
  | .hbm, ⟨28, _⟩ => ⟨S20000x256, .f32⟩
  | .hbm, ⟨29, _⟩ => ⟨S320000x1, .i32⟩
  | .hbm, ⟨30, _⟩ => ⟨S20000x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S20000x256, .f32⟩
  | .hbm, ⟨46, _⟩ => ⟨S20000x256, .f32⟩
  | .hbm, ⟨47, _⟩ => ⟨S320000x1, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x256, .f32⟩
  | .hbm, ⟨57, _⟩ => ⟨S320000x256, .f32⟩
  | .hbm, ⟨58, _⟩ => ⟨S320000x256, .f32⟩
  | .hbm, ⟨59, _⟩ => ⟨S_, .f32⟩
  | .hbm, ⟨60, _⟩ => ⟨S20000x256, .f32⟩
  | .hbm, ⟨61, _⟩ => ⟨S320000x1, .i32⟩
  | .hbm, ⟨62, _⟩ => ⟨S20000x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S_, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S20000x256, .f32⟩
  | .hbm, ⟨78, _⟩ => ⟨S20000x40, .f32⟩
  | .hbm, ⟨79, _⟩ => ⟨S320000x1, .f32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x40, .f32⟩
  | .hbm, ⟨89, _⟩ => ⟨S320000x40, .f32⟩
  | .hbm, ⟨90, _⟩ => ⟨S320000x40, .f32⟩
  | .hbm, ⟨91, _⟩ => ⟨S_, .f32⟩
  | .hbm, ⟨92, _⟩ => ⟨S20000x40, .f32⟩
  | .hbm, ⟨93, _⟩ => ⟨S320000x1, .i32⟩
  | .hbm, ⟨94, _⟩ => ⟨S20000x40, .f32⟩
  | .hbm, ⟨95, _⟩ => ⟨S1x40, .f32⟩
  | .hbm, ⟨96, _⟩ => ⟨S20000x40, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S2000x256, .f32⟩
  | .local _ .vmem, ⟨30, _⟩ => ⟨S2000x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x40, .f32⟩
  | .local _ .vmem, ⟨41, _⟩ => ⟨S2000x40, .f32⟩
  | .local _ .vmem, ⟨42, _⟩ => ⟨S2000x40, .f32⟩
  | .local _ .vmem, ⟨43, _⟩ => ⟨S2000x40, .f32⟩
  | .local _ .vmem, ⟨44, _⟩ => ⟨S2000x40, .f32⟩
  | .local _ .vmem, ⟨45, _⟩ => ⟨S1x40, .f32⟩
  | .local _ .vmem, ⟨46, _⟩ => ⟨S2000x40, .f32⟩
  | .local _ .vmem, ⟨47, _⟩ => ⟨S2000x40, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  bcast_S320000x1_S320000x40_0_1 : S320000x1.BroadcastsInDim S320000x40 (![0, 1] : Fin 2 → Fin S320000x40.rank)
  bcast_S_S20000x40 : S_.BroadcastsInDim S20000x40 (![] : Fin 0 → Fin S20000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x40_S2000x40_1_0_0_1_n_n_wf : DotDims.WF S2000x256 S256x40 S2000x40 [1] [0] [0] [1] [] []
  gather_S20000x40_S320000x1_S320000x40_1_0_n_n_0_1_140_wf : GatherDims.WF S20000x40 S320000x1 S320000x40 [1] [0] [] [0] [] 1 ![1, 40]
  scatter_S20000x40_S320000x1_S320000x40_1_0_0_1_wf : ScatterDims.WF S20000x40 S320000x1 S320000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S20000x256.size a
  hwx2_6 : ∀ i : grid2.Coords, EltTy.bits .f32 = 32 ∨ (Rect.block (s := S20000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S20000x256.size a
  hwx5_6 : ∀ i : grid5.Coords, EltTy.bits .f32 = 32 ∨ (Rect.block (s := S20000x256) S2000x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x40.size a ≤ S256x40.size a
  hwx6_1 : ∀ i : grid6.Coords, EltTy.bits .f32 = 32 ∨ (Rect.block (s := S256x40) S256x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S20000x40.size a
  hwx6_2 : ∀ i : grid6.Coords, EltTy.bits .f32 = 32 ∨ (Rect.block (s := S20000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S20000x40.size a
  hwx7_0 : ∀ i : grid7.Coords, EltTy.bits .f32 = 32 ∨ (Rect.block (s := S20000x40) S2000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S20000x40.size a
  hwx7_2 : ∀ i : grid7.Coords, EltTy.bits .f32 = 32 ∨ (Rect.block (s := S20000x40) S2000x40.size (cc7_transform_2 i) (hinb7_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S20000x40_S320000x1_S320000x40_1_0_n_n_0_1_140 : GatherDims S20000x40 S320000x1 S320000x40 where
  offsetDims := [1]
  collapsedSliceDims := [0]
  operandBatchingDims := []
  startIndicesBatchingDims := []
  startIndexMap := [0]
  indexVectorDim := 1
  sliceSizes := ![1, 40]
  wf := gather_S20000x40_S320000x1_S320000x40_1_0_n_n_0_1_140_wf
def scatter_S20000x40_S320000x1_S320000x40_1_0_0_1 : ScatterDims S20000x40 S320000x1 S320000x40 where
  updateWindowDims := [1]
  insertedWindowDims := [0]
  scatterDimsToOperandDims := [0]
  indexVectorDim := 1
  wf := scatter_S20000x40_S320000x1_S320000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15_0) S1x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15_1) S1x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v25) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v39) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41_0) S1x256.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41_1) S1x256.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v39) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v43) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v51) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v51) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S256x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v65) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v66) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v67) S2000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S320000x1 : Shape := ⟨2, ![320000, 1]⟩
abbrev S_ : Shape := ⟨0, ![]⟩
abbrev S320000x256 : Shape := ⟨2, ![320000, 256]⟩
abbrev S1x256 : Shape := ⟨2, ![1, 256]⟩
abbrev S20000x40 : Shape := ⟨2, ![20000, 40]⟩
abbrev S320000x40 : Shape := ⟨2, ![320000, 40]⟩
abbrev S1x40 : Shape := ⟨2, ![1, 40]⟩
abbrev S20000 : Shape := ⟨1, ![20000]⟩
abbrev S20000x1 : Shape := ⟨2, ![20000, 1]⟩

abbrev nBuf : Space → Nat
  | .hbm => 155
  | .vmem => 0
  | .smem => 0
  | _ => 0

abbrev hbmTy0_0 (i : Nat) : BufTy := match i % 128 with
  | 0 => ⟨S20000x256, .f32⟩
  | 1 => ⟨S320000, .i32⟩
  | 2 => ⟨S320000, .i32⟩
  | 3 => ⟨S320000, .f32⟩
  | 4 => ⟨S256x256, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S256x40, .f32⟩
  | 13 => ⟨S40, .f32⟩
  | 14 => ⟨S20000x256, .f32⟩
  | 15 => ⟨S320000x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x256, .f32⟩
  | 25 => ⟨S320000x256, .f32⟩
  | 26 => ⟨S320000x256, .f32⟩
  | 27 => ⟨S_, .f32⟩
  | 28 => ⟨S20000x256, .f32⟩
  | 29 => ⟨S320000x1, .i32⟩
  | 30 => ⟨S20000x256, .f32⟩
  | 31 => ⟨S1x256, .f32⟩
  | 32 => ⟨S20000x256, .f32⟩
  | 33 => ⟨S20000x256, .f32⟩
  | 34 => ⟨S_, .f32⟩
  | 35 => ⟨S256, .f32⟩
  | 36 => ⟨S_, .f32⟩
  | 37 => ⟨S256, .f32⟩
  | 38 => ⟨S256, .f32⟩
  | 39 => ⟨S1x256, .f32⟩
  | 40 => ⟨S20000x256, .f32⟩
  | 41 => ⟨S20000x256, .f32⟩
  | 42 => ⟨S20000x256, .f32⟩
  | 43 => ⟨S_, .f32⟩
  | 44 => ⟨S256, .f32⟩
  | 45 => ⟨S_, .f32⟩
  | 46 => ⟨S256, .f32⟩
  | 47 => ⟨S256, .f32⟩
  | 48 => ⟨S1x256, .f32⟩
  | 49 => ⟨S20000x256, .f32⟩
  | 50 => ⟨S20000x256, .f32⟩
  | 51 => ⟨S1x256, .f32⟩
  | 52 => ⟨S20000x256, .f32⟩
  | 53 => ⟨S20000x256, .f32⟩
  | 54 => ⟨S_, .f32⟩
  | 55 => ⟨S256, .f32⟩
  | 56 => ⟨S256, .f32⟩
  | 57 => ⟨S256, .f32⟩
  | 58 => ⟨S1x256, .f32⟩
  | 59 => ⟨S20000x256, .f32⟩
  | 60 => ⟨S20000x256, .f32⟩
  | 61 => ⟨S1x256, .f32⟩
  | 62 => ⟨S20000x256, .f32⟩
  | 63 => ⟨S20000x256, .f32⟩
  | 64 => ⟨S_, .f32⟩
  | 65 => ⟨S20000x256, .f32⟩
  | 66 => ⟨S20000x256, .f32⟩
  | 67 => ⟨S20000x256, .f32⟩
  | 68 => ⟨S320000x1, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x256, .f32⟩
  | 78 => ⟨S320000x256, .f32⟩
  | 79 => ⟨S320000x256, .f32⟩
  | 80 => ⟨S_, .f32⟩
  | 81 => ⟨S20000x256, .f32⟩
  | 82 => ⟨S320000x1, .i32⟩
  | 83 => ⟨S20000x256, .f32⟩
  | 84 => ⟨S1x256, .f32⟩
  | 85 => ⟨S20000x256, .f32⟩
  | 86 => ⟨S20000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S20000x256, .f32⟩
  | 94 => ⟨S20000x256, .f32⟩
  | 95 => ⟨S20000x256, .f32⟩
  | 96 => ⟨S_, .f32⟩
  | 97 => ⟨S256, .f32⟩
  | 98 => ⟨S_, .f32⟩
  | 99 => ⟨S256, .f32⟩
  | 100 => ⟨S256, .f32⟩
  | 101 => ⟨S1x256, .f32⟩
  | 102 => ⟨S20000x256, .f32⟩
  | 103 => ⟨S20000x256, .f32⟩
  | 104 => ⟨S1x256, .f32⟩
  | 105 => ⟨S20000x256, .f32⟩
  | 106 => ⟨S20000x256, .f32⟩
  | 107 => ⟨S_, .f32⟩
  | 108 => ⟨S256, .f32⟩
  | 109 => ⟨S256, .f32⟩
  | 110 => ⟨S256, .f32⟩
  | 111 => ⟨S1x256, .f32⟩
  | 112 => ⟨S20000x256, .f32⟩
  | 113 => ⟨S20000x256, .f32⟩
  | 114 => ⟨S1x256, .f32⟩
  | 115 => ⟨S20000x256, .f32⟩
  | 116 => ⟨S20000x256, .f32⟩
  | 117 => ⟨S_, .f32⟩
  | 118 => ⟨S20000x256, .f32⟩
  | 119 => ⟨S20000x256, .f32⟩
  | 120 => ⟨S20000x40, .f32⟩
  | 121 => ⟨S320000x1, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S20000x256, .f32⟩

abbrev hbmTy0_1 (i : Nat) : BufTy := match i % 128 with
  | 0 => ⟨S320000, .i32⟩
  | 1 => ⟨S320000x1, .i32⟩
  | 2 => ⟨S320000x40, .f32⟩
  | 3 => ⟨S320000x40, .f32⟩
  | 4 => ⟨S320000x40, .f32⟩
  | 5 => ⟨S_, .f32⟩
  | 6 => ⟨S20000x40, .f32⟩
  | 7 => ⟨S320000x1, .i32⟩
  | 8 => ⟨S20000x40, .f32⟩
  | 9 => ⟨S1x40, .f32⟩
  | 10 => ⟨S20000x40, .f32⟩
  | 11 => ⟨S20000x40, .f32⟩
  | 12 => ⟨S_, .f32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x40, .f32⟩
  | 19 => ⟨S20000x40, .f32⟩
  | 20 => ⟨S20000x40, .f32⟩
  | 21 => ⟨S_, .f32⟩
  | 22 => ⟨S20000, .f32⟩
  | 23 => ⟨S20000x1, .f32⟩
  | 24 => ⟨S20000x1, .f32⟩
  | 25 => ⟨S20000x40, .f32⟩
  | 26 => ⟨S20000x40, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_6 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call1_cst : Ref sig .tc := ⟨.hbm, 117, rfl⟩
abbrev main_call1_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_14 : Ref sig .tc := ⟨.hbm, 122, rfl⟩
abbrev main_v88 : Ref sig .tc := ⟨.hbm, 123, rfl⟩
abbrev main_v89 : Ref sig .tc := ⟨.hbm, 124, rfl⟩
abbrev main_c_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_16 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call2_cst : Ref sig .tc := ⟨.hbm, 140, rfl⟩
abbrev main_call2_v0 : Ref sig .tc := ⟨.hbm, 141, rfl⟩
abbrev main_call2_cst_0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_cst_1 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_v103 : Ref sig .tc := ⟨.hbm, 154, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  bcast_S320000x1_S320000x40_0_1 : S320000x1.BroadcastsInDim S320000x40 (![0, 1] : Fin 2 → Fin S320000x40.rank)
  bcast_S_S20000x40 : S_.BroadcastsInDim S20000x40 (![] : Fin 0 → Fin S20000x40.rank)
  bcast_S40_S1x40_1 : S40.BroadcastsInDim S1x40 (![1] : Fin 1 → Fin S1x40.rank)
  bcast_S1x40_S20000x40_0_1 : S1x40.BroadcastsInDim S20000x40 (![0, 1] : Fin 2 → Fin S20000x40.rank)
  reducesTo_S20000x40_S20000_d1 : S20000x40.ReducesTo [1] S20000
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x40_0_1 : S20000x1.BroadcastsInDim S20000x40 (![0, 1] : Fin 2 → Fin S20000x40.rank)
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x40_S20000x40_1_0_0_1_n_n_wf : DotDims.WF S20000x256 S256x40 S20000x40 [1] [0] [0] [1] [] []
  gather_S20000x40_S320000x1_S320000x40_1_0_n_n_0_1_140_wf : GatherDims.WF S20000x40 S320000x1 S320000x40 [1] [0] [] [0] [] 1 ![1, 40]
  scatter_S20000x40_S320000x1_S320000x40_1_0_0_1_wf : ScatterDims.WF S20000x40 S320000x1 S320000x40 [1] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x40_S20000x40_1_0_0_1_n_n : DotDims S20000x256 S256x40 S20000x40 where
  lhsContracting := [1]
  rhsContracting := [0]
  lhsNonContracting := [0]
  rhsNonContracting := [1]
  lhsBatch := []
  rhsBatch := []
  wf := dot_S20000x256_S256x40_S20000x40_1_0_0_1_n_n_wf
def gather_S20000x40_S320000x1_S320000x40_1_0_n_n_0_1_140 : GatherDims S20000x40 S320000x1 S320000x40 where
  offsetDims := [1]
  collapsedSliceDims := [0]
  operandBatchingDims := []
  startIndicesBatchingDims := []
  startIndexMap := [0]
  indexVectorDim := 1
  sliceSizes := ![1, 40]
  wf := gather_S20000x40_S320000x1_S320000x40_1_0_n_n_0_1_140_wf
def scatter_S20000x40_S320000x1_S320000x40_1_0_0_1 : ScatterDims S20000x40 S320000x1 S320000x40 where
  updateWindowDims := [1]
  insertedWindowDims := [0]
  scatterDimsToOperandDims := [0]
  indexVectorDim := 1
  wf := scatter_S20000x40_S320000x1_S320000x40_1_0_0_1_wf

class Facts : Prop extends Facts₀ where

variable [Facts]
-- ==== Proof.KernelRun.lean ====
/-
  The kernel's run with its result named. The generated frame certificate runs @main segment by segment and ends with
  every unscoped buffer at the contents the last segment boundary computes (the fold `W13` of the launch memory through
  the host stretches and the eight regions), and then keeps only the argument arrays. Here the same run keeps one more
  buffer: the result array, at the fold's value, read out of the final contents beside the arguments.
-/
import proofs.«165878_j21122649162596_1_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the value the fold of the
    segment boundaries gives it and the argument arrays as launched. -/
theorem run_result : θ_run defs (onTc (τ := τ) (main (F := F))) ⟨m, fun _ => 0, ρ⟩ (fun r => ∀ c : Dev nD,
      r.2.mem ((c.tc : Thread nD τ).loc main_v67) = W13 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v67 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.Value

end
-- ==== Proof.Spec.lean ====
/-
  The mathematics of one graph-convolution network, as functions of whole arrays at exact arithmetic.

  A layer multiplies the node features by a weight matrix (`mm`), aggregates the products over the edges of the graph,
  adds a bias and normalises each feature column over the nodes: with h = z + b, μ the column's mean and v its variance,
  the layer's output is max(γ · (h − μ) · (v + ε)^(−1/2) + β, 0) (`bnRelu`). The column statistics are taken from the
  column's sum (`colSum`) and the sum of its squares (`colSumSq`). The last layer ends in a row-wise logarithm of the
  softmax (`logSoftmax`): with m the row's maximum, h − m − log Σ exp(h − m).
  Every entry is an extended real; the definitions are stated index by index over matrices of literal extents.
-/
import Idealize.ShloMosaic.Lib.ValueIdx
import Idealize.ShloMosaic.PureOps.Ideal.Laws

noncomputable section

namespace GcnSpec

open Idealize.ShloMosaic Idealize.ShloMosaic.ValueIdx

/-- An a × b matrix of extended reals, indexed as the programs index a two-axis array. -/
abbrev Mat (a b : ℕ) : Type := (⟨2, ![a, b]⟩ : Shape).Idx → EReal

/-- The matrix product: entry (r, c) is Σ_k x(r, k) · w(k, c). -/
def mm {M K N : ℕ} (x : Mat M K) (w : Mat K N) : Mat M N :=
  fun i => ∑ k : Fin K, x (ix2 (i 0) k) * w (ix2 k (i 1))

/-- The column sums of z + b, the row b repeated over the rows: entry (0, q) is Σ_r (z(r, q) + b(0, q)). -/
def colSum {M D : ℕ} (z : Mat M D) (b : Mat 1 D) : Mat 1 D :=
  fun i => ∑ r : Fin M, (z (ix2 r (i 1)) + b (ix2 (0 : Fin 1) (i 1)))

/-- The column sums of the squares of z + b. -/
def colSumSq {M D : ℕ} (z : Mat M D) (b : Mat 1 D) : Mat 1 D :=
  fun i => ∑ r : Fin M, (z (ix2 r (i 1)) + b (ix2 (0 : Fin 1) (i 1))) * (z (ix2 r (i 1)) + b (ix2 (0 : Fin 1) (i 1)))

/-- The small constant added to a variance: the single-precision number nearest to 10⁻⁵. -/
def eps : EReal := Ideal.ofBits .f32 0x3727C5AC#32

/-- Normalise and rectify: entry (r, q) is max(γ(q) · ((z(r, q) + b(q)) − μ(q)) · rsqrt(v(q) + ε) + β(q), 0). -/
def bnRelu {M D : ℕ} (z : Mat M D) (b g be mu var : Mat 1 D) : Mat M D :=
  fun i => max (g (ix2 (0 : Fin 1) (i 1)) * ((z i + b (ix2 (0 : Fin 1) (i 1))) - mu (ix2 (0 : Fin 1) (i 1)))
      * Ideal.rsqrt (var (ix2 (0 : Fin 1) (i 1)) + eps) + be (ix2 (0 : Fin 1) (i 1))) (Ideal.ofBits .f32 0x00000000#32)

/-- Row r of z + b, as a function of the column. -/
def biasedRow {M C : ℕ} (z : Mat M C) (b : Mat 1 C) (r : Fin M) : Fin C → EReal :=
  fun k => z (ix2 r k) + b (ix2 (0 : Fin 1) k)

/-- The maximum of a row, taken from −∞. -/
def rowMax {C : ℕ} (h : Fin C → EReal) : EReal := (Finset.univ : Finset (Fin C)).fold max ⊥ h

/-- The logarithm of the softmax of each row of z + b: h(c) − m − log Σ_k exp(h(k) − m), m the row's maximum. -/
def logSoftmax {M C : ℕ} (z : Mat M C) (b : Mat 1 C) : Mat M C :=
  fun i => (biasedRow z b (i 0) (i 1) - rowMax (biasedRow z b (i 0)))
    - Ideal.log (∑ k : Fin C, Ideal.exp (biasedRow z b (i 0) k - rowMax (biasedRow z b (i 0))))

end GcnSpec

end
-- ==== Proof.KNet.lean ====
/-
  The kernel's whole computation as one function of its argument arrays.

  Between the regions the program's host operations aggregate a node matrix over the edges of the graph (`spmm256`,
  `spmm40`: each edge e takes row col(e) of the matrix, a negative index counted from the end, scales it by the edge's
  weight and adds it into row row(e) of a zero matrix), turn a bias, scale or shift vector into a one-row matrix
  (`row256`, `row40`), and take the column mean s / 20000 and the column variance q / 20000 − mean² from the column sums
  s and the column sums of squares q (`meanOf`, `varOf`). A layer (`layer`) is: multiply by the weights, aggregate,
  normalise each column of the biased result with these statistics and rectify. The network is two layers followed by a
  product, an aggregation and the row-wise logarithm of the softmax of the biased result.
-/
import proofs.«165878_j21122649162596_1_alg».proof.Proof.Gen.KernelIdeal
import proofs.«165878_j21122649162596_1_alg».proof.Proof.Spec

noncomputable section

namespace Cert.KernelIdeal.Net

open Cert.KernelIdeal Cert.KernelIdeal.Facts₀ Cert.KernelIdeal.Facts Idealize.ShloMosaic Idealize.ShloMosaic.TcCoe

abbrev EdgeIdx : Type := IVec S320000 32
abbrev EdgeVal : Type := FVec Ideal S320000 .f32
abbrev Nodes256 : Type := FVec Ideal S20000x256 .f32
abbrev Nodes40 : Type := FVec Ideal S20000x40 .f32
abbrev Vec256 : Type := FVec Ideal S256 .f32
abbrev Vec40 : Type := FVec Ideal S40 .f32
abbrev Row256 : Type := FVec Ideal S1x256 .f32
abbrev Row40 : Type := FVec Ideal S1x40 .f32

/-- The column of source rows, one per edge: a negative index has the number of nodes added to it. -/
def srcRows (ac : EdgeIdx) : IVec S320000x1 32 :=
  broadcastInDim S320000x1 ![0] bcast_S320000_S320000x1_0
    (select (cmpi .slt ac (broadcastInDim S320000 ![] bcast_S_S320000 (constantI S_ 32 0#32)))
      (addi ac (broadcastInDim S320000 ![] bcast_S_S320000 (constantI S_ 32 20000#32))) ac)

/-- The aggregation of a [20000, 256] matrix over the edges. -/
def spmm256 (y : Nodes256) (ar ac : EdgeIdx) (av : EdgeVal) : Nodes256 :=
  Host.scatterAdd scatter_S20000x256_S320000x1_S320000x256_1_0_0_1
    (broadcastInDim S20000x256 ![] bcast_S_S20000x256 (constant (F := Ideal) S_ .f32 0x00000000#32))
    (broadcastInDim S320000x1 ![0] bcast_S320000_S320000x1_0 ar)
    (mulf (broadcastInDim S320000x256 ![0, 1] bcast_S320000x1_S320000x256_0_1 (broadcastInDim S320000x1 ![0] bcast_S320000_S320000x1_0 av))
      (Host.gather gather_S20000x256_S320000x1_S320000x256_1_0_n_n_0_1_1256 y (srcRows ac)))

/-- The aggregation of a [20000, 40] matrix over the edges. -/
def spmm40 (y : Nodes40) (ar ac : EdgeIdx) (av : EdgeVal) : Nodes40 :=
  Host.scatterAdd scatter_S20000x40_S320000x1_S320000x40_1_0_0_1
    (broadcastInDim S20000x40 ![] bcast_S_S20000x40 (constant (F := Ideal) S_ .f32 0x00000000#32))
    (broadcastInDim S320000x1 ![0] bcast_S320000_S320000x1_0 ar)
    (mulf (broadcastInDim S320000x40 ![0, 1] bcast_S320000x1_S320000x40_0_1 (broadcastInDim S320000x1 ![0] bcast_S320000_S320000x1_0 av))
      (Host.gather gather_S20000x40_S320000x1_S320000x40_1_0_n_n_0_1_140 y (srcRows ac)))

/-- A vector of length 256 as a one-row matrix. -/
def row256 (b : Vec256) : Row256 := shapeCast S1x256 b shapeCasts_S256_S1x256
/-- A vector of length 40 as a one-row matrix. -/
def row40 (b : Vec40) : Row40 := shapeCast S1x40 b shapeCasts_S40_S1x40

/-- The number of nodes, 20000, repeated along a row. -/
def nodesRow : Row256 := broadcastInDim S1x256 ![] bcast_S_S1x256 (constant (F := Ideal) S_ .f32 0x469C4000#32)

/-- The column means from the column sums. -/
def meanOf (s : Row256) : Row256 := Host.divf s nodesRow
/-- The column variances from the column sums of squares and the means. -/
def varOf (q mean : Row256) : Row256 := subf (Host.divf q nodesRow) (mulf mean mean)

/-- One layer: product with the weights, aggregation, column normalisation of the biased result, rectification. -/
def layer (x : Nodes256) (w : FVec Ideal S256x256 .f32) (b g be : Vec256) (ar ac : EdgeIdx) (av : EdgeVal) : Nodes256 :=
  GcnSpec.bnRelu (spmm256 (GcnSpec.mm x w) ar ac av) (row256 b) (row256 g) (row256 be)
    (meanOf (GcnSpec.colSum (spmm256 (GcnSpec.mm x w) ar ac av) (row256 b)))
    (varOf (GcnSpec.colSumSq (spmm256 (GcnSpec.mm x w) ar ac av) (row256 b)) (meanOf (GcnSpec.colSum (spmm256 (GcnSpec.mm x w) ar ac av) (row256 b))))

/-- The network: two layers, then a product, an aggregation and the row-wise logarithm of the softmax. -/
def net (x : Nodes256) (ar ac : EdgeIdx) (av : EdgeVal) (w1 : FVec Ideal S256x256 .f32) (b1 g1 be1 : Vec256)
    (w2 : FVec Ideal S256x256 .f32) (b2 g2 be2 : Vec256) (w3 : FVec Ideal S256x40 .f32) (b3 : Vec40) : Nodes40 :=
  GcnSpec.logSoftmax (spmm40 (GcnSpec.mm (layer (layer x w1 b1 g1 be1 ar ac av) w2 b2 g2 be2 ar ac av) w3) ar ac av) (row40 b3)

end Cert.KernelIdeal.Net

end
-- ==== Proof.Walk.lean ====
/-
  The argument arrays at every segment boundary of the kernel's run. No host operation and no region writes an argument
  array (a region reads one through an input window or does not touch it), so at each boundary before the region that
  consumes it an argument's buffer still holds what it was launched with: one step back per segment, down to the launch.
-/
import proofs.«165878_j21122649162596_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem keep1_arg1 (c : Dev nD) : W1 m ρ c (Proc.devRef .tc main_arg1) = m ((c : Thread nD τ).loc main_arg1) :=
  (W1_of_ne m ρ c main_arg1 (by decide)).trans rfl
theorem keep2_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg1 m ρ c)
theorem keep3_arg1 (c : Dev nD) : W3 m ρ c (Proc.devRef .tc main_arg1) = m ((c : Thread nD τ).loc main_arg1) :=
  (W3_of_ne m ρ c main_arg1 (by decide)).trans (keep2_arg1 m ρ c)
theorem keep4_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg1 m ρ c)
theorem keep5_arg1 (c : Dev nD) : W5 m ρ c (Proc.devRef .tc main_arg1) = m ((c : Thread nD τ).loc main_arg1) :=
  (W5_of_ne m ρ c main_arg1 (by decide)).trans (keep4_arg1 m ρ c)
theorem keep6_arg1 (c : Dev nD) : W6 m ρ c (Proc.devRef .tc main_arg1) = m ((c : Thread nD τ).loc main_arg1) :=
  (W6_of_ne m ρ c main_arg1 (by decide)).trans (keep5_arg1 m ρ c)
theorem keep7_arg1 (c : Dev nD) : W7 m ρ c (Proc.devRef .tc main_arg1) = m ((c : Thread nD τ).loc main_arg1) :=
  (StableHlo.after_of_forall_not_mem (b := Proc.devRef .tc main_arg1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg1 m ρ c)
theorem keep8_arg1 (c : Dev nD) : W8 m ρ c (Proc.devRef .tc main_arg1) = m ((c : Thread nD τ).loc main_arg1) :=
  (W8_of_ne m ρ c main_arg1 (by decide)).trans (keep7_arg1 m ρ c)
theorem keep9_arg1 (c : Dev nD) : W9 m ρ c (Proc.devRef .tc main_arg1) = m ((c : Thread nD τ).loc main_arg1) :=
  (StableHlo.after_of_forall_not_mem (b := Proc.devRef .tc main_arg1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_arg1 m ρ c)
theorem keep10_arg1 (c : Dev nD) : W10 m ρ c (Proc.devRef .tc main_arg1) = m ((c : Thread nD τ).loc main_arg1) :=
  (W10_of_ne m ρ c main_arg1 (by decide)).trans (keep9_arg1 m ρ c)
theorem keep11_arg1 (c : Dev nD) : W11 m ρ c (Proc.devRef .tc main_arg1) = m ((c : Thread nD τ).loc main_arg1) :=
  (W11_of_ne m ρ c main_arg1 (by decide)).trans (keep10_arg1 m ρ c)

theorem keep1_arg2 (c : Dev nD) : W1 m ρ c (Proc.devRef .tc main_arg2) = m ((c : Thread nD τ).loc main_arg2) :=
  (W1_of_ne m ρ c main_arg2 (by decide)).trans rfl
theorem keep2_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg2 m ρ c)
theorem keep3_arg2 (c : Dev nD) : W3 m ρ c (Proc.devRef .tc main_arg2) = m ((c : Thread nD τ).loc main_arg2) :=
  (W3_of_ne m ρ c main_arg2 (by decide)).trans (keep2_arg2 m ρ c)
theorem keep4_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg2 m ρ c)
theorem keep5_arg2 (c : Dev nD) : W5 m ρ c (Proc.devRef .tc main_arg2) = m ((c : Thread nD τ).loc main_arg2) :=
  (W5_of_ne m ρ c main_arg2 (by decide)).trans (keep4_arg2 m ρ c)
theorem keep6_arg2 (c : Dev nD) : W6 m ρ c (Proc.devRef .tc main_arg2) = m ((c : Thread nD τ).loc main_arg2) :=
  (W6_of_ne m ρ c main_arg2 (by decide)).trans (keep5_arg2 m ρ c)
theorem keep7_arg2 (c : Dev nD) : W7 m ρ c (Proc.devRef .tc main_arg2) = m ((c : Thread nD τ).loc main_arg2) :=
  (StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg2 m ρ c)
theorem keep8_arg2 (c : Dev nD) : W8 m ρ c (Proc.devRef .tc main_arg2) = m ((c : Thread nD τ).loc main_arg2) :=
  (W8_of_ne m ρ c main_arg2 (by decide)).trans (keep7_arg2 m ρ c)
theorem keep9_arg2 (c : Dev nD) : W9 m ρ c (Proc.devRef .tc main_arg2) = m ((c : Thread nD τ).loc main_arg2) :=
  (StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_arg2 m ρ c)
theorem keep10_arg2 (c : Dev nD) : W10 m ρ c (Proc.devRef .tc main_arg2) = m ((c : Thread nD τ).loc main_arg2) :=
  (W10_of_ne m ρ c main_arg2 (by decide)).trans (keep9_arg2 m ρ c)
theorem keep11_arg2 (c : Dev nD) : W11 m ρ c (Proc.devRef .tc main_arg2) = m ((c : Thread nD τ).loc main_arg2) :=
  (W11_of_ne m ρ c main_arg2 (by decide)).trans (keep10_arg2 m ρ c)

theorem keep1_arg3 (c : Dev nD) : W1 m ρ c (Proc.devRef .tc main_arg3) = m ((c : Thread nD τ).loc main_arg3) :=
  (W1_of_ne m ρ c main_arg3 (by decide)).trans rfl
theorem keep2_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg3 m ρ c)
theorem keep3_arg3 (c : Dev nD) : W3 m ρ c (Proc.devRef .tc main_arg3) = m ((c : Thread nD τ).loc main_arg3) :=
  (W3_of_ne m ρ c main_arg3 (by decide)).trans (keep2_arg3 m ρ c)
theorem keep4_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg3 m ρ c)
theorem keep5_arg3 (c : Dev nD) : W5 m ρ c (Proc.devRef .tc main_arg3) = m ((c : Thread nD τ).loc main_arg3) :=
  (W5_of_ne m ρ c main_arg3 (by decide)).trans (keep4_arg3 m ρ c)
theorem keep6_arg3 (c : Dev nD) : W6 m ρ c (Proc.devRef .tc main_arg3) = m ((c : Thread nD τ).loc main_arg3) :=
  (W6_of_ne m ρ c main_arg3 (by decide)).trans (keep5_arg3 m ρ c)
theorem keep7_arg3 (c : Dev nD) : W7 m ρ c (Proc.devRef .tc main_arg3) = m ((c : Thread nD τ).loc main_arg3) :=
  (StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg3 m ρ c)
theorem keep8_arg3 (c : Dev nD) : W8 m ρ c (Proc.devRef .tc main_arg3) = m ((c : Thread nD τ).loc main_arg3) :=
  (W8_of_ne m ρ c main_arg3 (by decide)).trans (keep7_arg3 m ρ c)
theorem keep9_arg3 (c : Dev nD) : W9 m ρ c (Proc.devRef .tc main_arg3) = m ((c : Thread nD τ).loc main_arg3) :=
  (StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_arg3 m ρ c)
theorem keep10_arg3 (c : Dev nD) : W10 m ρ c (Proc.devRef .tc main_arg3) = m ((c : Thread nD τ).loc main_arg3) :=
  (W10_of_ne m ρ c main_arg3 (by decide)).trans (keep9_arg3 m ρ c)
theorem keep11_arg3 (c : Dev nD) : W11 m ρ c (Proc.devRef .tc main_arg3) = m ((c : Thread nD τ).loc main_arg3) :=
  (W11_of_ne m ρ c main_arg3 (by decide)).trans (keep10_arg3 m ρ c)

theorem keep1_arg5 (c : Dev nD) : W1 m ρ c (Proc.devRef .tc main_arg5) = m ((c : Thread nD τ).loc main_arg5) :=
  (W1_of_ne m ρ c main_arg5 (by decide)).trans rfl
theorem keep2_arg5 (c : Dev nD) : W2 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg5 m ρ c)
theorem keep3_arg5 (c : Dev nD) : W3 m ρ c (Proc.devRef .tc main_arg5) = m ((c : Thread nD τ).loc main_arg5) :=
  (W3_of_ne m ρ c main_arg5 (by decide)).trans (keep2_arg5 m ρ c)

theorem keep1_arg6 (c : Dev nD) : W1 m ρ c (Proc.devRef .tc main_arg6) = m ((c : Thread nD τ).loc main_arg6) :=
  (W1_of_ne m ρ c main_arg6 (by decide)).trans rfl
theorem keep2_arg6 (c : Dev nD) : W2 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg6 m ρ c)
theorem keep3_arg6 (c : Dev nD) : W3 m ρ c (Proc.devRef .tc main_arg6) = m ((c : Thread nD τ).loc main_arg6) :=
  (W3_of_ne m ρ c main_arg6 (by decide)).trans (keep2_arg6 m ρ c)

theorem keep1_arg7 (c : Dev nD) : W1 m ρ c (Proc.devRef .tc main_arg7) = m ((c : Thread nD τ).loc main_arg7) :=
  (W1_of_ne m ρ c main_arg7 (by decide)).trans rfl
theorem keep2_arg7 (c : Dev nD) : W2 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg7 m ρ c)
theorem keep3_arg7 (c : Dev nD) : W3 m ρ c (Proc.devRef .tc main_arg7) = m ((c : Thread nD τ).loc main_arg7) :=
  (W3_of_ne m ρ c main_arg7 (by decide)).trans (keep2_arg7 m ρ c)

theorem keep1_arg8 (c : Dev nD) : W1 m ρ c (Proc.devRef .tc main_arg8) = m ((c : Thread nD τ).loc main_arg8) :=
  (W1_of_ne m ρ c main_arg8 (by decide)).trans rfl
theorem keep2_arg8 (c : Dev nD) : W2 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg8 m ρ c)
theorem keep3_arg8 (c : Dev nD) : W3 m ρ c (Proc.devRef .tc main_arg8) = m ((c : Thread nD τ).loc main_arg8) :=
  (W3_of_ne m ρ c main_arg8 (by decide)).trans (keep2_arg8 m ρ c)
theorem keep4_arg8 (c : Dev nD) : W4 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg8 m ρ c)
theorem keep5_arg8 (c : Dev nD) : W5 m ρ c (Proc.devRef .tc main_arg8) = m ((c : Thread nD τ).loc main_arg8) :=
  (W5_of_ne m ρ c main_arg8 (by decide)).trans (keep4_arg8 m ρ c)

theorem keep1_arg9 (c : Dev nD) : W1 m ρ c (Proc.devRef .tc main_arg9) = m ((c : Thread nD τ).loc main_arg9) :=
  (W1_of_ne m ρ c main_arg9 (by decide)).trans rfl
theorem keep2_arg9 (c : Dev nD) : W2 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg9 m ρ c)
theorem keep3_arg9 (c : Dev nD) : W3 m ρ c (Proc.devRef .tc main_arg9) = m ((c : Thread nD τ).loc main_arg9) :=
  (W3_of_ne m ρ c main_arg9 (by decide)).trans (keep2_arg9 m ρ c)
theorem keep4_arg9 (c : Dev nD) : W4 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg9 m ρ c)
theorem keep5_arg9 (c : Dev nD) : W5 m ρ c (Proc.devRef .tc main_arg9) = m ((c : Thread nD τ).loc main_arg9) :=
  (W5_of_ne m ρ c main_arg9 (by decide)).trans (keep4_arg9 m ρ c)
theorem keep6_arg9 (c : Dev nD) : W6 m ρ c (Proc.devRef .tc main_arg9) = m ((c : Thread nD τ).loc main_arg9) :=
  (W6_of_ne m ρ c main_arg9 (by decide)).trans (keep5_arg9 m ρ c)
theorem keep7_arg9 (c : Dev nD) : W7 m ρ c (Proc.devRef .tc main_arg9) = m ((c : Thread nD τ).loc main_arg9) :=
  (StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg9 m ρ c)
theorem keep8_arg9 (c : Dev nD) : W8 m ρ c (Proc.devRef .tc main_arg9) = m ((c : Thread nD τ).loc main_arg9) :=
  (W8_of_ne m ρ c main_arg9 (by decide)).trans (keep7_arg9 m ρ c)

theorem keep1_arg10 (c : Dev nD) : W1 m ρ c (Proc.devRef .tc main_arg10) = m ((c : Thread nD τ).loc main_arg10) :=
  (W1_of_ne m ρ c main_arg10 (by decide)).trans rfl
theorem keep2_arg10 (c : Dev nD) : W2 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg10 m ρ c)
theorem keep3_arg10 (c : Dev nD) : W3 m ρ c (Proc.devRef .tc main_arg10) = m ((c : Thread nD τ).loc main_arg10) :=
  (W3_of_ne m ρ c main_arg10 (by decide)).trans (keep2_arg10 m ρ c)
theorem keep4_arg10 (c : Dev nD) : W4 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg10 m ρ c)
theorem keep5_arg10 (c : Dev nD) : W5 m ρ c (Proc.devRef .tc main_arg10) = m ((c : Thread nD τ).loc main_arg10) :=
  (W5_of_ne m ρ c main_arg10 (by decide)).trans (keep4_arg10 m ρ c)
theorem keep6_arg10 (c : Dev nD) : W6 m ρ c (Proc.devRef .tc main_arg10) = m ((c : Thread nD τ).loc main_arg10) :=
  (W6_of_ne m ρ c main_arg10 (by decide)).trans (keep5_arg10 m ρ c)
theorem keep7_arg10 (c : Dev nD) : W7 m ρ c (Proc.devRef .tc main_arg10) = m ((c : Thread nD τ).loc main_arg10) :=
  (StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg10 m ρ c)
theorem keep8_arg10 (c : Dev nD) : W8 m ρ c (Proc.devRef .tc main_arg10) = m ((c : Thread nD τ).loc main_arg10) :=
  (W8_of_ne m ρ c main_arg10 (by decide)).trans (keep7_arg10 m ρ c)

theorem keep1_arg11 (c : Dev nD) : W1 m ρ c (Proc.devRef .tc main_arg11) = m ((c : Thread nD τ).loc main_arg11) :=
  (W1_of_ne m ρ c main_arg11 (by decide)).trans rfl
theorem keep2_arg11 (c : Dev nD) : W2 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg11 m ρ c)
theorem keep3_arg11 (c : Dev nD) : W3 m ρ c (Proc.devRef .tc main_arg11) = m ((c : Thread nD τ).loc main_arg11) :=
  (W3_of_ne m ρ c main_arg11 (by decide)).trans (keep2_arg11 m ρ c)
theorem keep4_arg11 (c : Dev nD) : W4 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg11 m ρ c)
theorem keep5_arg11 (c : Dev nD) : W5 m ρ c (Proc.devRef .tc main_arg11) = m ((c : Thread nD τ).loc main_arg11) :=
  (W5_of_ne m ρ c main_arg11 (by decide)).trans (keep4_arg11 m ρ c)
theorem keep6_arg11 (c : Dev nD) : W6 m ρ c (Proc.devRef .tc main_arg11) = m ((c : Thread nD τ).loc main_arg11) :=
  (W6_of_ne m ρ c main_arg11 (by decide)).trans (keep5_arg11 m ρ c)
theorem keep7_arg11 (c : Dev nD) : W7 m ρ c (Proc.devRef .tc main_arg11) = m ((c : Thread nD τ).loc main_arg11) :=
  (StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg11 m ρ c)
theorem keep8_arg11 (c : Dev nD) : W8 m ρ c (Proc.devRef .tc main_arg11) = m ((c : Thread nD τ).loc main_arg11) :=
  (W8_of_ne m ρ c main_arg11 (by decide)).trans (keep7_arg11 m ρ c)

theorem keep1_arg12 (c : Dev nD) : W1 m ρ c (Proc.devRef .tc main_arg12) = m ((c : Thread nD τ).loc main_arg12) :=
  (W1_of_ne m ρ c main_arg12 (by decide)).trans rfl
theorem keep2_arg12 (c : Dev nD) : W2 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg12 m ρ c)
theorem keep3_arg12 (c : Dev nD) : W3 m ρ c (Proc.devRef .tc main_arg12) = m ((c : Thread nD τ).loc main_arg12) :=
  (W3_of_ne m ρ c main_arg12 (by decide)).trans (keep2_arg12 m ρ c)
theorem keep4_arg12 (c : Dev nD) : W4 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg12 m ρ c)
theorem keep5_arg12 (c : Dev nD) : W5 m ρ c (Proc.devRef .tc main_arg12) = m ((c : Thread nD τ).loc main_arg12) :=
  (W5_of_ne m ρ c main_arg12 (by decide)).trans (keep4_arg12 m ρ c)
theorem keep6_arg12 (c : Dev nD) : W6 m ρ c (Proc.devRef .tc main_arg12) = m ((c : Thread nD τ).loc main_arg12) :=
  (W6_of_ne m ρ c main_arg12 (by decide)).trans (keep5_arg12 m ρ c)
theorem keep7_arg12 (c : Dev nD) : W7 m ρ c (Proc.devRef .tc main_arg12) = m ((c : Thread nD τ).loc main_arg12) :=
  (StableHlo.after_of_forall_not_mem (b := Proc.devRef .tc main_arg12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg12 m ρ c)
theorem keep8_arg12 (c : Dev nD) : W8 m ρ c (Proc.devRef .tc main_arg12) = m ((c : Thread nD τ).loc main_arg12) :=
  (W8_of_ne m ρ c main_arg12 (by decide)).trans (keep7_arg12 m ρ c)
theorem keep9_arg12 (c : Dev nD) : W9 m ρ c (Proc.devRef .tc main_arg12) = m ((c : Thread nD τ).loc main_arg12) :=
  (StableHlo.after_of_forall_not_mem (b := Proc.devRef .tc main_arg12) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_arg12 m ρ c)
theorem keep10_arg12 (c : Dev nD) : W10 m ρ c (Proc.devRef .tc main_arg12) = m ((c : Thread nD τ).loc main_arg12) :=
  (W10_of_ne m ρ c main_arg12 (by decide)).trans (keep9_arg12 m ρ c)

theorem keep1_arg13 (c : Dev nD) : W1 m ρ c (Proc.devRef .tc main_arg13) = m ((c : Thread nD τ).loc main_arg13) :=
  (W1_of_ne m ρ c main_arg13 (by decide)).trans rfl
theorem keep2_arg13 (c : Dev nD) : W2 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep1_arg13 m ρ c)
theorem keep3_arg13 (c : Dev nD) : W3 m ρ c (Proc.devRef .tc main_arg13) = m ((c : Thread nD τ).loc main_arg13) :=
  (W3_of_ne m ρ c main_arg13 (by decide)).trans (keep2_arg13 m ρ c)
theorem keep4_arg13 (c : Dev nD) : W4 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep3_arg13 m ρ c)
theorem keep5_arg13 (c : Dev nD) : W5 m ρ c (Proc.devRef .tc main_arg13) = m ((c : Thread nD τ).loc main_arg13) :=
  (W5_of_ne m ρ c main_arg13 (by decide)).trans (keep4_arg13 m ρ c)
theorem keep6_arg13 (c : Dev nD) : W6 m ρ c (Proc.devRef .tc main_arg13) = m ((c : Thread nD τ).loc main_arg13) :=
  (W6_of_ne m ρ c main_arg13 (by decide)).trans (keep5_arg13 m ρ c)
theorem keep7_arg13 (c : Dev nD) : W7 m ρ c (Proc.devRef .tc main_arg13) = m ((c : Thread nD τ).loc main_arg13) :=
  (StableHlo.after_of_forall_not_mem (b := Proc.devRef .tc main_arg13) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep6_arg13 m ρ c)
theorem keep8_arg13 (c : Dev nD) : W8 m ρ c (Proc.devRef .tc main_arg13) = m ((c : Thread nD τ).loc main_arg13) :=
  (W8_of_ne m ρ c main_arg13 (by decide)).trans (keep7_arg13 m ρ c)
theorem keep9_arg13 (c : Dev nD) : W9 m ρ c (Proc.devRef .tc main_arg13) = m ((c : Thread nD τ).loc main_arg13) :=
  (StableHlo.after_of_forall_not_mem (b := Proc.devRef .tc main_arg13) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (keep8_arg13 m ρ c)
theorem keep10_arg13 (c : Dev nD) : W10 m ρ c (Proc.devRef .tc main_arg13) = m ((c : Thread nD τ).loc main_arg13) :=
  (W10_of_ne m ρ c main_arg13 (by decide)).trans (keep9_arg13 m ρ c)
theorem keep11_arg13 (c : Dev nD) : W11 m ρ c (Proc.devRef .tc main_arg13) = m ((c : Thread nD τ).loc main_arg13) :=
  (W11_of_ne m ρ c main_arg13 (by decide)).trans (keep10_arg13 m ρ c)

end Cert.KernelIdeal.Walk

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Mm0.lean ====
/-
  Region 0 of the kernel, a matrix product taken row block by row block, as one function of the arrays it is entered
  with. The grid has ten points; point t multiplies rows 2000·t … 2000·t + 1999 of the left array by the whole right
  array and writes rows 2000·t … of the result. At exact arithmetic the rounding of the factors to a shorter format is
  the identity and the product into a zero accumulator is the plain sum over the contracted axis, so entry (r, c) of
  the result is Σ_k x(r, k) · w(k, c) whatever block r lies in: the result array is the matrix product of the two
  arrays. The ten row blocks tile the result, so every entry is written.
-/
import proofs.«165878_j21122649162596_1_alg».proof.Proof.Gen.KernelIdeal.Frame
import proofs.«165878_j21122649162596_1_alg».proof.Proof.Spec
import proofs.«165878_j21122649162596_1_alg».proof.Proof.LibMatmulIdx
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mm0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the sum over the contracted axis of the products of the left
    block's row p with the right block's column q. -/
theorem pay_apply (x0 : Vec Ideal S2000x256 .f32) (x1 : Vec Ideal S256x256 .f32) (y : S2000x256.Idx) :
    k0_pay1 x0 x1 y = ∑ k : Fin 256, x0 (ix2 (y 0) k) * x1 (ix2 k (y 1)) := by
  unfold k0_pay1
  exact LibMatmulIdx.matmul2_apply dot_S2000x256_S256x256_S2000x256_1_0_0_1_n_n rfl rfl (fun _ _ => rfl) (fun _ _ => rfl) (fun _ _ => rfl)
    (fun _ _ => rfl) none _ _ y

/-- The printed block indices, decided over the grid: the left and the result windows move down one row block per point,
    the right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The left window's block at point t is rows 2000·t … of the left array. -/
theorem iblk_left (c : Dev nD) (t : Fin cfg0.N) (y : S2000x256.Idx) (i : S20000x256.Idx)
    (h0 : (i 0).val = 2000 * t.val + (y 0).val) (h1 : (i 1).val = (y 1).val) :
    (iblk0 V c 0 t : Vec Ideal S2000x256 .f32) y = (V c main_arg0 : S20000x256.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The right window's block at any point is the whole right array. -/
theorem iblk_right (c : Dev nD) (t : Fin cfg0.N) (y : S256x256.Idx) (i : S256x256.Idx)
    (h0 : (i 0).val = (y 0).val) (h1 : (i 1).val = (y 1).val) :
    (iblk0 V c 1 t : Vec Ideal S256x256 .f32) y = (V c main_arg4 : S256x256.Idx → EReal) i := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t (0 : Fin 2) * 256 + 1 * (y 0).val = (i 0).val; rw [e2, h0]; omega
  | ⟨1, _⟩ => show win0_1.index t (1 : Fin 2) * 256 + 1 * (y 1).val = (i 1).val; rw [e3, h1]; omega

/-- What point t writes back is block t of the matrix product of the two arrays. -/
theorem flushed_eq (c : Dev nD) (t : Fin cfg0.N) :
    (dat0 (F := Ideal) V c).flushed 2 t
      = ((cfg0.win 2).blk t).view.read (Elt Ideal) (GcnSpec.mm (V c main_arg0 : S20000x256.Idx → EReal) (V c main_arg4 : S256x256.Idx → EReal)) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x256) hz]
  obtain ⟨-, -, -, -, e4, e5, -⟩ := idx_facts t
  funext j
  refine (pay_apply _ _ j).trans ?_
  rw [View.read_apply]
  unfold GcnSpec.mm
  refine Finset.sum_congr rfl fun k _ => ?_
  have hl := iblk_left V c t (ix2 (j 0) k) (ix2 ((((cfg0.win 2).blk t).view.emb j) 0) k)
    (by show win0_2.index t (0 : Fin 2) * 2000 + 1 * (j 0).val = 2000 * t.val + (j 0).val; rw [e4]; omega) rfl
  have hr := iblk_right V c t (ix2 k (j 1)) (ix2 k ((((cfg0.win 2).blk t).view.emb j) 1)) rfl
    (by show win0_2.index t (1 : Fin 2) * 256 + 1 * (j 1).val = (j 1).val; rw [e5]; omega)
  exact congrArg₂ (· * ·) hl hr

/-- An index of the result array is in point t's block iff each coordinate is in the block's range on its axis. -/
theorem mem_blk (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every block row is some point's. -/
theorem idx_onto : ∀ q : Fin 10, ∃ t : Fin cfg0.N, t.val = q.val :=
  (by decide +kernel : ∀ q : Fin 10, ∃ t : Fin grid0.N, t.val = q.val)

/-- Every entry of the result is in the block of the point its row falls in. -/
theorem cover (i : S20000x256.Idx) : ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ := idx_onto ⟨(i 0).val / 2000, by omega⟩
  obtain ⟨-, -, -, -, e4, e5, -⟩ := idx_facts t
  refine ⟨t, flush0_2 t, ?_⟩
  rw [mem_blk]
  intro a
  have ht' : t.val = (i 0).val / 2000 := ht
  match a with
  | ⟨0, _⟩ => show win0_2.index t (0 : Fin 2) * 2000 ≤ (i 0).val ∧ (i 0).val < win0_2.index t (0 : Fin 2) * 2000 + 2000; rw [e4]; omega
  | ⟨1, _⟩ => show win0_2.index t (1 : Fin 2) * 256 ≤ (i 1).val ∧ (i 1).val < win0_2.index t (1 : Fin 2) * 256 + 256; rw [e5]; omega

/-- The result array after the region: the matrix product of the two arrays the region was entered with. -/
theorem final_out (c : Dev nD) :
    (dat0 (F := Ideal) V c).arrAt 2 cfg0.N = GcnSpec.mm (V c main_arg0 : S20000x256.Idx → EReal) (V c main_arg4 : S256x256.Idx → EReal) :=
  (dat0 (F := Ideal) V c).arrAt_eq_of_cover 2 _ (fun t _ => flushed_eq V c t) cover

end Cert.KernelIdeal.Mm0

end
-- ==== Proof.Mm3.lean ====
/-
  Region 3 of the kernel, a matrix product taken row block by row block, as one function of the arrays it is entered
  with. The grid has ten points; point t multiplies rows 2000·t … 2000·t + 1999 of the left array by the whole right
  array and writes rows 2000·t … of the result. At exact arithmetic the rounding of the factors to a shorter format is
  the identity and the product into a zero accumulator is the plain sum over the contracted axis, so entry (r, c) of
  the result is Σ_k x(r, k) · w(k, c) whatever block r lies in: the result array is the matrix product of the two
  arrays. The ten row blocks tile the result, so every entry is written.
-/
import proofs.«165878_j21122649162596_1_alg».proof.Proof.Gen.KernelIdeal.Frame
import proofs.«165878_j21122649162596_1_alg».proof.Proof.Spec
import proofs.«165878_j21122649162596_1_alg».proof.Proof.LibMatmulIdx
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mm3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the sum over the contracted axis of the products of the left
    block's row p with the right block's column q. -/
theorem pay_apply (x0 : Vec Ideal S2000x256 .f32) (x1 : Vec Ideal S256x256 .f32) (y : S2000x256.Idx) :
    k3_pay1 x0 x1 y = ∑ k : Fin 256, x0 (ix2 (y 0) k) * x1 (ix2 k (y 1)) := by
  unfold k3_pay1
  simp only [shapeCast_self]
  exact LibMatmulIdx.matmul2_apply dot_S2000x256_S256x256_S2000x256_1_0_0_1_n_n rfl rfl (fun _ _ => rfl) (fun _ _ => rfl) (fun _ _ => rfl)
    (fun _ _ => rfl) none _ _ y

/-- The printed block indices, decided over the grid: the left and the result windows move down one row block per point,
    the right window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- The left window's block at point t is rows 2000·t … of the left array. -/
theorem iblk_left (c : Dev nD) (t : Fin cfg3.N) (y : S2000x256.Idx) (i : S20000x256.Idx)
    (h0 : (i 0).val = 2000 * t.val + (y 0).val) (h1 : (i 1).val = (y 1).val) :
    (iblk3 V c 0 t : Vec Ideal S2000x256 .f32) y = (V c main_v25 : S20000x256.Idx → EReal) i := by
  obtain ⟨e0, e1, -⟩ := idx_facts t
  unfold iblk3
  rw [View.read_apply]
  show V c main_v25 _ = V c main_v25 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 256 + 1 * (y 1).val = (i 1).val; rw [e1, h1]; omega

/-- The right window's block at any point is the whole right array. -/
theorem iblk_right (c : Dev nD) (t : Fin cfg3.N) (y : S256x256.Idx) (i : S256x256.Idx)
    (h0 : (i 0).val = (y 0).val) (h1 : (i 1).val = (y 1).val) :
    (iblk3 V c 1 t : Vec Ideal S256x256 .f32) y = (V c main_arg8 : S256x256.Idx → EReal) i := by
  obtain ⟨-, -, e2, e3, -⟩ := idx_facts t
  unfold iblk3
  rw [View.read_apply]
  show V c main_arg8 _ = V c main_arg8 _
  congr 1
  funext a
  apply Fin.ext
  match a with
  | ⟨0, _⟩ => show win3_1.index t (0 : Fin 2) * 256 + 1 * (y 0).val = (i 0).val; rw [e2, h0]; omega
  | ⟨1, _⟩ => show win3_1.index t (1 : Fin 2) * 256 + 1 * (y 1).val = (i 1).val; rw [e3, h1]; omega

/-- What point t writes back is block t of the matrix product of the two arrays. -/
theorem flushed_eq (c : Dev nD) (t : Fin cfg3.N) :
    (dat3 (F := Ideal) V c).flushed 2 t
      = ((cfg3.win 2).blk t).view.read (Elt Ideal) (GcnSpec.mm (V c main_v25 : S20000x256.Idx → EReal) (V c main_arg8 : S256x256.Idx → EReal)) := by
  show (cfg3.win 2).cut (grid3.coords t) ((dat3 (F := Ideal) V c).after 2 t) = _
  rw [after3_2]
  unfold out3_2
  rw [View.canon_unit_zero hz]
  simp only [View.ld_unit_zero (S := S2000x256) hz, View.ld_unit_zero (S := S256x256) hz]
  obtain ⟨-, -, -, -, e4, e5, -⟩ := idx_facts t
  funext j
  refine (pay_apply _ _ j).trans ?_
  rw [View.read_apply]
  unfold GcnSpec.mm
  refine Finset.sum_congr rfl fun k _ => ?_
  have hl := iblk_left V c t (ix2 (j 0) k) (ix2 ((((cfg3.win 2).blk t).view.emb j) 0) k)
    (by show win3_2.index t (0 : Fin 2) * 2000 + 1 * (j 0).val = 2000 * t.val + (j 0).val; rw [e4]; omega) rfl
  have hr := iblk_right V c t (ix2 k (j 1)) (ix2 k ((((cfg3.win 2).blk t).view.emb j) 1)) rfl
    (by show win3_2.index t (1 : Fin 2) * 256 + 1 * (j 1).val = (j 1).val; rw [e5]; omega)
  exact congrArg₂ (· * ·) hl hr

/-- An index of the result array is in point t's block iff each coordinate is in the block's range on its axis. -/
theorem mem_blk (t : Fin cfg3.N) (i : S20000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v26).slice (win3_2.rect t)).set ↔ _
  rw [View.set_slice_whole, Rect.mem_set_unit]
  exact Iff.rfl

/-- Every block row is some point's. -/
theorem idx_onto : ∀ q : Fin 10, ∃ t : Fin cfg3.N, t.val = q.val :=
  (by decide +kernel : ∀ q : Fin 10, ∃ t : Fin grid3.N, t.val = q.val)

/-- Every entry of the result is in the block of the point its row falls in. -/
theorem cover (i : S20000x256.Idx) : ∃ t : Fin cfg3.N, (cfg3.win 2).flush t = true ∧ i ∈ ((cfg3.win 2).blk t).view.set := by
  have hi0 : (i 0).val < 20000 := (i 0).isLt
  have hi1 : (i 1).val < 256 := (i 1).isLt
  obtain ⟨t, ht⟩ := idx_onto ⟨(i 0).val / 2000, by omega⟩
  obtain ⟨-, -, -, -, e4, e5, -⟩ := idx_facts t
  refine ⟨t, flush3_2 t, ?_⟩
  rw [mem_blk]
  intro a
  have ht' : t.val = (i 0).val / 2000 := ht
  match a with
  | ⟨0, _⟩ => show win3_2.index t (0 : Fin 2) * 2000 ≤ (i 0).val ∧ (i 0).val < win3_2.index t (0 : Fin 2) * 2000 + 2000; rw [e4]; omega
  | ⟨1, _⟩ => show win3_2.index t (1 : Fin 2) * 256 ≤ (i 1).val ∧ (i 1).val < win3_2.index t (1 : Fin 2) * 256 + 256; rw [e5]; omega

/-- The result array after the region: the matrix product of the two arrays the region was entered with. -/
theorem final_out (c : Dev nD) :
    (dat3 (F := Ideal) V c).arrAt 2 cfg3.N = GcnSpec.mm (V c main_v25 : S20000x256.Idx → EReal) (V c main_arg8 : S256x256.Idx → EReal) :=
  (dat3 (F := Ideal) V c).arrAt_eq_of_cover 2 _ (fun t _ => flushed_eq V c t) cover

end Cert.KernelIdeal.Mm3

end
-- ==== Proof.Mm6.lean ====
/-
  Region 6 of the kernel, a matrix product taken row block by row block, as one function of the arrays it is entered
  with. The grid has ten points; point t multiplies rows 2000·t … 2000·t + 1999 of the left array by the whole right
  array and writes rows 2000·t … of the result. At exact arithmetic the rounding of the factors to a shorter format is
  the identity and the product into a zero accumulator is the plain sum over the contracted axis, so entry (r, c) of
  the result is Σ_k x(r, k) · w(k, c) whatever block r lies in: the result array is the matrix product of the two
  arrays. The ten row blocks tile the result, so every entry is written.
-/
import proofs.«165878_j21122649162596_1_alg».proof.Proof.Gen.KernelIdeal.Frame
import proofs.«165878_j21122649162596_1_alg».proof.Proof.Spec
import proofs.«165878_j21122649162596_1_alg».proof.Proof.LibMatmulIdx
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mm6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: the sum over the contracted axis of the products of the left
    block's row p with the right block's column q. -/
theorem pay_apply (x0 : Vec Ideal S2000x256 .f32) (x1 : Vec Ideal S256x40 .f32) (y : S2000x40.Idx) :
    k6_pay1 x0 x1 y = ∑ k : Fin 256, x0 (ix2 (y 0) k) * x1 (ix2 k (y 1)) := by
  unfold k6_pay1
  simp only [shapeCast_self]
  exact LibMatmulIdx.matmul2_apply dot_S2000x256_S256x40_S2000x40_1_0_0_1_n_n rfl rfl (fun _ _ => rfl) (fun _ _ => rfl) (fun _ _ => rfl)
    (fun _ _ => rfl) none _ _ y

/-- The printed block indices, decided over the grid: the left and the result windows move down one row block per point,
    the right window stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 10 :=
  (by decide +kernel : ∀ t : Fin grid6.N, _)

/-- The left window's block at point t is rows 2000·t … of the left array. -/
theorem iblk_left (c : Dev nD) (t : Fin cfg6.N) (y : S2000x256.Idx) (i : S20000x256.Idx)
    (h0 : (i 0).val = 2000 * t.val + (y 0).val) (h1 : (i 1).val = (y 1).val) :
    (iblk6 V c 0 t : Vec Ideal S2000x256 .f32) y = (V c main_v51 : S20000x256.Idx → EReal) i := by
  obtain ⟨e0, e1, -⟩ := idx_facts t
  unfold iblk6
  rw [View.read_apply]
  show V c main_v51 _ = V c main_v51 _
  congr 1
  funext a
  apply Fin.ext
  match a with
  | ⟨0, _⟩ => show win6_0.index t (0 : Fin 2) * 2000 + 1 * (y 0).val = (i 0).val; rw [e0, h0]; omega
  | ⟨1, _⟩ => show win6_0.index t (1 : Fin 2) * 256 + 1 * (y 1).val = (i 1).val; rw [e1, h1]; omega

/-- The right window's block at any point is the whole right array. -/
theorem iblk_right (c : Dev nD) (t : Fin cfg6.N) (y : S256x40.Idx) (i : S256x40.Idx)
    (h0 : (i 0).val = (y 0).val) (h1 : (i 1).val = (y 1).val) :
    (iblk6 V c 1 t : Vec Ideal S256x40 .f32) y = (V c main_arg12 : S256x40.Idx → EReal) i := by
  obtain ⟨-, -, e2, e3, -⟩ := idx_facts t
  unfold iblk6
  rw [View.read_apply]
  show V c main_arg12 _ = V c main_arg12 _
  congr 1
  funext a
  apply Fin.ext
  match a with
  | ⟨0, _⟩ => show win6_1.index t (0 : Fin 2) * 256 + 1 * (y 0).val = (i 0).val; rw [e2, h0]; omega
  | ⟨1, _⟩ => show win6_1.index t (1 : Fin 2) * 40 + 1 * (y 1).val = (i 1).val; rw [e3, h1]; omega

/-- What point t writes back is block t of the matrix product of the two arrays. -/
theorem flushed_eq (c : Dev nD) (t : Fin cfg6.N) :
    (dat6 (F := Ideal) V c).flushed 2 t
      = ((cfg6.win 2).blk t).view.read (Elt Ideal) (GcnSpec.mm (V c main_v51 : S20000x256.Idx → EReal) (V c main_arg12 : S256x40.Idx → EReal)) := by
  show (cfg6.win 2).cut (grid6.coords t) ((dat6 (F := Ideal) V c).after 2 t) = _
  rw [after6_2]
  unfold out6_2
  rw [View.canon_unit_zero hz]
  simp only [View.ld_unit_zero (S := S2000x256) hz, View.ld_unit_zero (S := S256x40) hz]
  obtain ⟨-, -, -, -, e4, e5, -⟩ := idx_facts t
  funext j
  refine (pay_apply _ _ j).trans ?_
  rw [View.read_apply]
  unfold GcnSpec.mm
  refine Finset.sum_congr rfl fun k _ => ?_
  have hl := iblk_left V c t (ix2 (j 0) k) (ix2 ((((cfg6.win 2).blk t).view.emb j) 0) k)
    (by show win6_2.index t (0 : Fin 2) * 2000 + 1 * (j 0).val = 2000 * t.val + (j 0).val; rw [e4]; omega) rfl
  have hr := iblk_right V c t (ix2 k (j 1)) (ix2 k ((((cfg6.win 2).blk t).view.emb j) 1)) rfl
    (by show win6_2.index t (1 : Fin 2) * 40 + 1 * (j 1).val = (j 1).val; rw [e5]; omega)
  exact congrArg₂ (· * ·) hl hr

/-- An index of the result array is in point t's block iff each coordinate is in the block's range on its axis. -/
theorem mem_blk (t : Fin cfg6.N) (i : S20000x40.Idx) :
    i ∈ ((cfg6.win 2).blk t).view.set ↔ ∀ a : Fin 2, win6_2.index t a * S2000x40.size a ≤ (i a).val ∧ (i a).val < win6_2.index t a * S2000x40.size a + S2000x40.size a := by
  show i ∈ ((View.whole main_v52).slice (win6_2.rect t)).set ↔ _
  rw [View.set_slice_whole, Rect.mem_set_unit]
  exact Iff.rfl

/-- Every block row is some point's. -/
theorem idx_onto : ∀ q : Fin 10, ∃ t : Fin cfg6.N, t.val = q.val :=
  (by decide +kernel : ∀ q : Fin 10, ∃ t : Fin grid6.N, t.val = q.val)

/-- Every entry of the result is in the block of the point its row falls in. -/
theorem cover (i : S20000x40.Idx) : ∃ t : Fin cfg6.N, (cfg6.win 2).flush t = true ∧ i ∈ ((cfg6.win 2).blk t).view.set := by
  have hi0 : (i 0).val < 20000 := (i 0).isLt
  have hi1 : (i 1).val < 40 := (i 1).isLt
  obtain ⟨t, ht⟩ := idx_onto ⟨(i 0).val / 2000, by omega⟩
  obtain ⟨-, -, -, -, e4, e5, -⟩ := idx_facts t
  refine ⟨t, flush6_2 t, ?_⟩
  rw [mem_blk]
  intro a
  have ht' : t.val = (i 0).val / 2000 := ht
  match a with
  | ⟨0, _⟩ => show win6_2.index t (0 : Fin 2) * 2000 ≤ (i 0).val ∧ (i 0).val < win6_2.index t (0 : Fin 2) * 2000 + 2000; rw [e4]; omega
  | ⟨1, _⟩ => show win6_2.index t (1 : Fin 2) * 40 ≤ (i 1).val ∧ (i 1).val < win6_2.index t (1 : Fin 2) * 40 + 40; rw [e5]; omega

/-- The result array after the region: the matrix product of the two arrays the region was entered with. -/
theorem final_out (c : Dev nD) :
    (dat6 (F := Ideal) V c).arrAt 2 cfg6.N = GcnSpec.mm (V c main_v51 : S20000x256.Idx → EReal) (V c main_arg12 : S256x40.Idx → EReal) :=
  (dat6 (F := Ideal) V c).arrAt_eq_of_cover 2 _ (fun t _ => flushed_eq V c t) cover

end Cert.KernelIdeal.Mm6

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.Stats1.lean ====
/-
  The batch statistics of the first layer: the column sums of z + b and of its squares.

  z is a 20000 × 256 matrix, read in ten consecutive blocks of 2000 rows, and b a 1 × 256 row. Two 1 × 256 rows are
  carried from block to block. At the first block both are set to zero; at every block the first receives, column by
  column, the sum over the block's rows p of z(p, q) + b(0, q), and the second the sum of the squares of these terms.
  So after block t the first row holds, at column q, the sum of z(r, q) + b(0, q) over the rows r < 2000 (t + 1), by
  induction on t, the first step using 0 + x = x. After the tenth block that is the sum over all 20000 rows: a sum over
  10 · 2000 consecutive naturals taken in ten blocks of 2000, which needs only that the addition of extended reals is
  commutative and associative. The two rows are written to their arrays once, after the last block, and the block
  written is the whole array.
-/
import proofs.«165878_j21122649162596_1_alg».proof.Proof.Gen.KernelIdeal.Frame
import proofs.«165878_j21122649162596_1_alg».proof.Proof.Spec
import proofs.«165878_j21122649162596_1_alg».proof.Proof.LibKeepdims
import proofs.«165878_j21122649162596_1_alg».proof.Proof.LibRowOps
import proofs.«165878_j21122649162596_1_alg».proof.Proof.LibTileSums
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.Stats1

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

section Pieces
variable {F : FTy → Type} [FloatOps F]

/-- After a point other than the first, the running column sums hold what they held plus the block's column sums. -/
theorem out_B_2 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec F S2000x256 .f32) (x1 xo2 xo3 : Vec F S1x256 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread,
    View.ld_unit_zero (S := S2000x256) hz, View.ld_unit_zero (S := S1x256) hz]

/-- The same for the running column sums of the squares. -/
theorem out_B_3 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec F S2000x256 .f32) (x1 xo2 xo3 : Vec F S1x256 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread,
    View.ld_unit_zero (S := S2000x256) hz, View.ld_unit_zero (S := S1x256) hz]

/-- After the first point the running column sums hold the zero row plus the block's column sums. -/
theorem out_A_2 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec F S2000x256 .f32) (x1 : Vec F S1x256 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x256) hz, View.readCov_unit_zero (S := S1x256) _ hz]
  simp only [View.readAt_eq_ld, h1.read_unread, h2.read_unread,
    View.ld_unit_zero (S := S2000x256) hz, View.ld_unit_zero (S := S1x256) hz]

/-- The same for the running column sums of the squares. -/
theorem out_A_3 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec F S2000x256 .f32) (x1 : Vec F S1x256 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x256) hz, View.readCov_unit_zero (S := S1x256) _ hz]
  simp only [View.readAt_eq_ld, h1.read_unread, h2.read_unread,
    View.ld_unit_zero (S := S2000x256) hz, View.ld_unit_zero (S := S1x256) hz]

end Pieces

section Payload

/-- The zero row reads zero at every column. -/
theorem pay1_apply (q : Fin 256) : (k1_pay1 (F := Ideal)) (ix2 (0 : Fin 1) q) = 0 := by
  unfold k1_pay1
  show Ideal.ofBits .f32 0x00000000#32 = 0
  exact Ideal.ofBits_zero_f32

theorem pay2_apply (q : Fin 256) : (k1_pay2 (F := Ideal)) (ix2 (0 : Fin 1) q) = 0 := by
  unfold k1_pay2
  show Ideal.ofBits .f32 0x00000000#32 = 0
  exact Ideal.ofBits_zero_f32

/-- The block with the row added to each of its rows, at row p and column q: z(p, q) + b(0, q). -/
theorem pay3_apply (x0 : Vec Ideal S2000x256 .f32) (x1 : Vec Ideal S1x256 .f32) (p : Fin 2000) (q : Fin 256) :
    k1_pay3 x0 x1 (ix2 p q) = x0 (ix2 p q) + x1 (ix2 (0 : Fin 1) q) := by
  unfold k1_pay3
  have e1 : shapeCast S2000x256 x0 shapeCasts_S2000x256_S2000x256 = x0 := shapeCast_self _ _
  have e2 : shapeCast S1x256 x1 shapeCasts_S1x256_S1x256 = x1 := shapeCast_self _ _
  show shapeCast S2000x256 x0 shapeCasts_S2000x256_S2000x256 (ix2 p q)
      + broadcastTo S2000x256 (shapeCast S1x256 x1 shapeCasts_S1x256_S1x256) broadcasts_S1x256_S2000x256 (ix2 p q) = _
  rw [e1, e2]
  exact congrArg (x0 (ix2 p q) + ·) (LibRowOps.broadcastTo_row_apply x1 broadcasts_S1x256_S2000x256 p q)

/-- The running column sum after a block, at column q: what it held plus Σ_p (z(p, q) + b(0, q)) over the block's rows. -/
theorem pay4_apply (x0 : Vec Ideal S2000x256 .f32) (x1 acc : Vec Ideal S1x256 .f32) (q : Fin 256) :
    k1_pay4 x0 x1 acc (ix2 (0 : Fin 1) q)
      = acc (ix2 (0 : Fin 1) q) + ∑ p : Fin 2000, (x0 (ix2 p q) + x1 (ix2 (0 : Fin 1) q)) := by
  unfold k1_pay4
  have e1 : shapeCast S1x256 acc shapeCasts_S1x256_S1x256 = acc := shapeCast_self _ _
  show shapeCast S1x256 acc shapeCasts_S1x256_S1x256 (ix2 (0 : Fin 1) q)
      + shapeCast S1x256 (multiReduction .add [0] S256 (k1_pay3 x0 x1) 0x00000000#32 reduces_S2000x256_S256 (.inl rfl) rfl)
          shapeCasts_S256_S1x256 (ix2 (0 : Fin 1) q) = _
  rw [e1]
  refine congrArg (acc (ix2 (0 : Fin 1) q) + ·) ?_
  refine (LibRowOps.shapeCast_row_apply _ shapeCasts_S256_S1x256 (0 : Fin 1) q).trans ?_
  refine (LibKeepdims.sum_axis0_apply (A := 2000) (B := 256) (k1_pay3 x0 x1) 0x00000000#32 reduces_S2000x256_S256 (.inl rfl) rfl q).trans ?_
  exact Finset.sum_congr rfl fun p _ => pay3_apply x0 x1 p q

/-- The running column sum of squares after a block, at column q: what it held plus Σ_p (z(p, q) + b(0, q))². -/
theorem pay5_apply (x0 : Vec Ideal S2000x256 .f32) (x1 acc : Vec Ideal S1x256 .f32) (q : Fin 256) :
    k1_pay5 x0 x1 acc (ix2 (0 : Fin 1) q)
      = acc (ix2 (0 : Fin 1) q)
        + ∑ p : Fin 2000, (x0 (ix2 p q) + x1 (ix2 (0 : Fin 1) q)) * (x0 (ix2 p q) + x1 (ix2 (0 : Fin 1) q)) := by
  unfold k1_pay5
  have e1 : shapeCast S1x256 acc shapeCasts_S1x256_S1x256 = acc := shapeCast_self _ _
  show shapeCast S1x256 acc shapeCasts_S1x256_S1x256 (ix2 (0 : Fin 1) q)
      + shapeCast S1x256 (multiReduction .add [0] S256 (mulf (k1_pay3 x0 x1) (k1_pay3 x0 x1)) 0x00000000#32 reduces_S2000x256_S256 (.inl rfl) rfl)
          shapeCasts_S256_S1x256 (ix2 (0 : Fin 1) q) = _
  rw [e1]
  refine congrArg (acc (ix2 (0 : Fin 1) q) + ·) ?_
  refine (LibRowOps.shapeCast_row_apply _ shapeCasts_S256_S1x256 (0 : Fin 1) q).trans ?_
  refine (LibKeepdims.sum_axis0_apply (A := 2000) (B := 256) (mulf (k1_pay3 x0 x1) (k1_pay3 x0 x1)) 0x00000000#32 reduces_S2000x256_S256 (.inl rfl) rfl q).trans ?_
  refine Finset.sum_congr rfl fun p _ => ?_
  show k1_pay3 x0 x1 (ix2 p q) * k1_pay3 x0 x1 (ix2 p q) = _
  rw [pay3_apply x0 x1 p q]

end Payload

section Combined

/-- After the first point, at column q: the block's column sum of z + b. -/
theorem A2_apply (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec Ideal S2000x256 .f32) (x1 : Vec Ideal S1x256 .f32) (q : Fin 256) :
    out1_A_2 (F := Ideal) c i a1 h1 a2 h2 a3 h3 a4 h4 hc x0 x1 (ix2 (0 : Fin 1) q)
      = ∑ p : Fin 2000, (x0 (ix2 p q) + x1 (ix2 (0 : Fin 1) q)) := by
  rw [out_A_2 (F := Ideal) c i a1 h1 a2 h2 a3 h3 a4 h4 hc x0 x1, pay4_apply x0 x1 (k1_pay1 (F := Ideal)) q, pay1_apply q, zero_add]

theorem A3_apply (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond1_0 i)
    (x0 : Vec Ideal S2000x256 .f32) (x1 : Vec Ideal S1x256 .f32) (q : Fin 256) :
    out1_A_3 (F := Ideal) c i a1 h1 a2 h2 a3 h3 a4 h4 hc x0 x1 (ix2 (0 : Fin 1) q)
      = ∑ p : Fin 2000, (x0 (ix2 p q) + x1 (ix2 (0 : Fin 1) q)) * (x0 (ix2 p q) + x1 (ix2 (0 : Fin 1) q)) := by
  rw [out_A_3 (F := Ideal) c i a1 h1 a2 h2 a3 h3 a4 h4 hc x0 x1, pay5_apply x0 x1 (k1_pay2 (F := Ideal)) q, pay2_apply q, zero_add]

/-- After a later point, at column q: what was held plus the block's column sum. -/
theorem B2_apply (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec Ideal S2000x256 .f32) (x1 xo2 xo3 : Vec Ideal S1x256 .f32) (q : Fin 256) :
    out1_B_2 (F := Ideal) c i a1 h1 a2 h2 a3 h3 a4 h4 hc x0 x1 xo2 xo3 (ix2 (0 : Fin 1) q)
      = xo2 (ix2 (0 : Fin 1) q) + ∑ p : Fin 2000, (x0 (ix2 p q) + x1 (ix2 (0 : Fin 1) q)) := by
  rw [out_B_2 (F := Ideal) c i a1 h1 a2 h2 a3 h3 a4 h4 hc x0 x1 xo2 xo3, pay4_apply x0 x1 xo2 q]

theorem B3_apply (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond1_0 i)
    (x0 : Vec Ideal S2000x256 .f32) (x1 xo2 xo3 : Vec Ideal S1x256 .f32) (q : Fin 256) :
    out1_B_3 (F := Ideal) c i a1 h1 a2 h2 a3 h3 a4 h4 hc x0 x1 xo2 xo3 (ix2 (0 : Fin 1) q)
      = xo3 (ix2 (0 : Fin 1) q)
        + ∑ p : Fin 2000, (x0 (ix2 p q) + x1 (ix2 (0 : Fin 1) q)) * (x0 (ix2 p q) + x1 (ix2 (0 : Fin 1) q)) := by
  rw [out_B_3 (F := Ideal) c i a1 h1 a2 h2 a3 h3 a4 h4 hc x0 x1 xo2 xo3, pay5_apply x0 x1 xo3 q]

end Combined

section Run
variable (V : (c : Dev nD) → (b : Ref sig .tc) → Buf (Elt Ideal) ((c : Thread nD τ).loc b))

/-- The block index of the matrix window at point t is (t, 0); of the row window (0, 0): decided over the grid. -/
theorem idx0 : ∀ t : Fin cfg1.N, win1_0.index t 0 = t.val ∧ win1_0.index t 1 = 0 :=
  (by decide +kernel : ∀ t : Fin grid1.N, win1_0.index t 0 = t.val ∧ win1_0.index t 1 = 0)

theorem idx1 : ∀ t : Fin cfg1.N, win1_1.index t 0 = 0 ∧ win1_1.index t 1 = 0 :=
  (by decide +kernel : ∀ t : Fin grid1.N, win1_1.index t 0 = 0 ∧ win1_1.index t 1 = 0)

/-- The matrix window's block at point t is rows 2000 t … 2000 t + 1999 of the matrix. -/
theorem iblk0_apply (c : Dev nD) (t : Fin cfg1.N) (p : Fin 2000) (q : Fin 256) (k : Fin 20000)
    (hk : k.val = 2000 * t.val + p.val) :
    (iblk1 V c 0 t : Vec Ideal S2000x256 .f32) (ix2 p q) = (V c main_v13 : S20000x256.Idx → EReal) (ix2 k q) := by
  unfold iblk1
  rw [View.read_apply]
  show V c main_v13 _ = V c main_v13 _
  congr 1
  funext a
  apply Fin.ext
  match a with
  | ⟨0, _⟩ => show win1_0.index t 0 * 2000 + 1 * p.val = k.val; rw [(idx0 t).1, hk]; omega
  | ⟨1, _⟩ => show win1_0.index t 1 * 256 + 1 * q.val = q.val; rw [(idx0 t).2]; omega

/-- The row window's block at every point is the row. -/
theorem iblk1_apply (c : Dev nD) (t : Fin cfg1.N) (q : Fin 256) :
    (iblk1 V c 1 t : Vec Ideal S1x256 .f32) (ix2 (0 : Fin 1) q) = (V c main_v14 : S1x256.Idx → EReal) (ix2 (0 : Fin 1) q) := by
  unfold iblk1
  rw [View.read_apply]
  show V c main_v14 _ = V c main_v14 _
  congr 1
  funext a
  apply Fin.ext
  match a with
  | ⟨0, _⟩ => show win1_1.index t 0 * 1 + 1 * 0 = 0; rw [(idx1 t).1]
  | ⟨1, _⟩ => show win1_1.index t 1 * 256 + 1 * q.val = q.val; rw [(idx1 t).2]; omega

/-- The two input blocks at point t, at their literal shapes. -/
abbrev blk0 (c : Dev nD) (t : Fin cfg1.N) : Vec Ideal S2000x256 .f32 := iblk1 V c 0 t
abbrev blk1 (c : Dev nD) (t : Fin cfg1.N) : Vec Ideal S1x256 .f32 := iblk1 V c 1 t

/-- Row i of z + b at column q, for i below 20000 (and zero beyond, where no term is ever read). -/
def rowTerm (z : S20000x256.Idx → EReal) (b : S1x256.Idx → EReal) (q : Fin 256) (i : ℕ) : EReal :=
  if h : i < 20000 then z (ix2 (⟨i, h⟩ : Fin 20000) q) + b (ix2 (0 : Fin 1) q) else 0

/-- The terms the body sums at point t are rows 2000 t + p of z + b. -/
theorem term_eq (c : Dev nD) (t : Fin cfg1.N) (p : Fin 2000) (q : Fin 256) :
    blk0 V c t (ix2 p q) + blk1 V c t (ix2 (0 : Fin 1) q)
      = rowTerm (V c main_v13) (V c main_v14) q (2000 * t.val + p.val) := by
  have hN : cfg1.N = 10 := N_1
  have hlt : 2000 * t.val + p.val < 20000 := by have := t.isLt; have := p.isLt; omega
  unfold rowTerm
  rw [dif_pos hlt]
  exact congrArg₂ (· + ·) (iblk0_apply V c t p q ⟨2000 * t.val + p.val, hlt⟩ rfl) (iblk1_apply V c t q)

/-- After point n the two outputs hold, at column q, the sums of the rows below 2000 (n + 1) of z + b and of its
    square: by induction on the point, the first point starting from the zero row. -/
theorem outs_eq (c : Dev nD) : ∀ (n : ℕ) (h : n < cfg1.N) (q : Fin 256),
    (outsAt1 V c n h).1 (ix2 (0 : Fin 1) q)
        = ∑ k ∈ Finset.range (n + 1), ∑ p : Fin 2000, rowTerm (V c main_v13) (V c main_v14) q (2000 * k + p.val)
      ∧ (outsAt1 V c n h).2 (ix2 (0 : Fin 1) q)
        = ∑ k ∈ Finset.range (n + 1), ∑ p : Fin 2000,
            rowTerm (V c main_v13) (V c main_v14) q (2000 * k + p.val) * rowTerm (V c main_v13) (V c main_v14) q (2000 * k + p.val)
  | 0, h, q => by
    rw [Finset.sum_range_one, Finset.sum_range_one, outsAt1_A V c ⟨0, h⟩ rfl]
    dsimp only
    constructor
    · refine (A2_apply c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (blk0 V c ⟨0, h⟩) (blk1 V c ⟨0, h⟩) q).trans ?_
      exact Finset.sum_congr rfl fun p _ => term_eq V c ⟨0, h⟩ p q
    · refine (A3_apply c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (blk0 V c ⟨0, h⟩) (blk1 V c ⟨0, h⟩) q).trans ?_
      exact Finset.sum_congr rfl fun p _ => congrArg₂ (· * ·) (term_eq V c ⟨0, h⟩ p q) (term_eq V c ⟨0, h⟩ p q)
  | n + 1, h, q => by
    have hN : cfg1.N = 10 := N_1
    have hB : ¬(⟨n + 1, h⟩ : Fin cfg1.N).val % 10 = 0 := by dsimp only; omega
    have ih := outs_eq c n (Nat.lt_of_succ_lt h) q
    rw [Finset.sum_range_succ _ (n + 1), Finset.sum_range_succ _ (n + 1), outsAt1_B V c ⟨n + 1, h⟩ hB]
    dsimp only
    constructor
    · refine (B2_apply c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (blk0 V c ⟨n + 1, h⟩) (blk1 V c ⟨n + 1, h⟩)
        (outsAt1 V c n (Nat.lt_of_succ_lt h)).1 (outsAt1 V c n (Nat.lt_of_succ_lt h)).2 q).trans ?_
      exact congrArg₂ (· + ·) ih.1 (Finset.sum_congr rfl fun p _ => term_eq V c ⟨n + 1, h⟩ p q)
    · refine (B3_apply c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (blk0 V c ⟨n + 1, h⟩) (blk1 V c ⟨n + 1, h⟩)
        (outsAt1 V c n (Nat.lt_of_succ_lt h)).1 (outsAt1 V c n (Nat.lt_of_succ_lt h)).2 q).trans ?_
      exact congrArg₂ (· + ·) ih.2 (Finset.sum_congr rfl fun p _ =>
        congrArg₂ (· * ·) (term_eq V c ⟨n + 1, h⟩ p q) (term_eq V c ⟨n + 1, h⟩ p q))

end Run

section Final
variable (V : (c : Dev nD) → (b : Ref sig .tc) → Buf (Elt Ideal) ((c : Thread nD τ).loc b))

theorem nine_lt : 9 < cfg1.N := by rw [show cfg1.N = 10 from N_1]; decide

/-- The ten blocks of 2000 rows are the 20000 rows: the sums over the blocks add up to the sum over all rows. -/
theorem sum_rows (z : S20000x256.Idx → EReal) (b : S1x256.Idx → EReal) (q : Fin 256) :
    ∑ k ∈ Finset.range 10, ∑ p : Fin 2000, rowTerm z b q (2000 * k + p.val)
      = ∑ r : Fin 20000, (z (ix2 r q) + b (ix2 (0 : Fin 1) q)) := by
  rw [← LibTileSums.sum_tiles 10 2000 20000 (by norm_num) (rowTerm z b q)]
  exact Finset.sum_congr rfl fun r _ => dif_pos r.isLt

theorem sum_rows_sq (z : S20000x256.Idx → EReal) (b : S1x256.Idx → EReal) (q : Fin 256) :
    ∑ k ∈ Finset.range 10, ∑ p : Fin 2000, rowTerm z b q (2000 * k + p.val) * rowTerm z b q (2000 * k + p.val)
      = ∑ r : Fin 20000, (z (ix2 r q) + b (ix2 (0 : Fin 1) q)) * (z (ix2 r q) + b (ix2 (0 : Fin 1) q)) := by
  rw [← LibTileSums.sum_tiles 10 2000 20000 (by norm_num) (fun i => rowTerm z b q i * rowTerm z b q i)]
  refine Finset.sum_congr rfl fun r _ => ?_
  show rowTerm z b q r.val * rowTerm z b q r.val = _
  have e : rowTerm z b q r.val = z (ix2 r q) + b (ix2 (0 : Fin 1) q) := dif_pos r.isLt
  rw [e]

/-- The column sums and the column sums of squares of z + b, as contents of the two result arrays. -/
abbrev sumG (c : Dev nD) : Buf (Elt Ideal) ((c : Thread nD τ).loc main_v15_0) := GcnSpec.colSum (V c main_v13 : S20000x256.Idx → EReal) (V c main_v14 : S1x256.Idx → EReal)
abbrev sumsqG (c : Dev nD) : Buf (Elt Ideal) ((c : Thread nD τ).loc main_v15_1) := GcnSpec.colSumSq (V c main_v13 : S20000x256.Idx → EReal) (V c main_v14 : S1x256.Idx → EReal)

/-- After the last point the first output holds the column sums of z + b over all 20000 rows. -/
theorem last_sum (c : Dev nD) : (outsAt1 V c 9 nine_lt).1 = sumG V c := by
  funext j
  obtain ⟨z0, q, rfl⟩ : ∃ (z0 : Fin 1) (q : Fin 256), j = ix2 z0 q := ⟨j 0, j 1, eq_ix2 j⟩
  obtain rfl : z0 = 0 := Subsingleton.elim _ _
  refine (outs_eq V c 9 nine_lt q).1.trans ?_
  exact sum_rows (V c main_v13) (V c main_v14) q

/-- And the second the column sums of its squares. -/
theorem last_sumsq (c : Dev nD) : (outsAt1 V c 9 nine_lt).2 = sumsqG V c := by
  funext j
  obtain ⟨z0, q, rfl⟩ : ∃ (z0 : Fin 1) (q : Fin 256), j = ix2 z0 q := ⟨j 0, j 1, eq_ix2 j⟩
  obtain rfl : z0 = 0 := Subsingleton.elim _ _
  refine (outs_eq V c 9 nine_lt q).2.trans ?_
  exact sum_rows_sq (V c main_v13) (V c main_v14) q

/-- The one write-back of the first output, at the last point, writes the column sums: block (0, 0) of a [1, 256]
    array read through zero offsets is the array. -/
theorem flushed_sum (c : Dev nD) (t : Fin cfg1.N) (hf : (cfg1.win 2).flush t = true) :
    (dat1 V c).flushed 2 t = ((cfg1.win 2).blk t).view.read (Elt Ideal) (sumG V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hl : (outsAt1 V c t1_9.val t1_9.isLt).1 = sumG V c := last_sum V c
  rw [hl]
  have hz' : (fun a => win1_2.index t1_9 a * main_v15_0.ty.shape.size a) = fun _ => 0 := funext fun a => by fin_cases a <;> decide
  exact (Memref.read_access_unit_zero (Elt Ideal) main_v15_0 hz' (fun a => by rw [congrFun hz' a]; simp) (sumG V c)).symm

theorem flushed_sumsq (c : Dev nD) (t : Fin cfg1.N) (hf : (cfg1.win 3).flush t = true) :
    (dat1 V c).flushed 3 t = ((cfg1.win 3).blk t).view.read (Elt Ideal) (sumsqG V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hl : (outsAt1 V c t1_9.val t1_9.isLt).2 = sumsqG V c := last_sumsq V c
  rw [hl]
  have hz' : (fun a => win1_3.index t1_9 a * main_v15_1.ty.shape.size a) = fun _ => 0 := funext fun a => by fin_cases a <;> decide
  exact (Memref.read_access_unit_zero (Elt Ideal) main_v15_1 hz' (fun a => by rw [congrFun hz' a]; simp) (sumsqG V c)).symm

/-- The first result array ends holding the column sums of z + b: its one block, written back at the last point, is
    the whole array. -/
theorem final_sum (c : Dev nD) : (dat1 (F := Ideal) V c).arrAt 2 cfg1.N = GcnSpec.colSum (V c main_v13 : S20000x256.Idx → EReal) (V c main_v14 : S1x256.Idx → EReal) :=
  (dat1 V c).arrAt_eq_of_cover 2 (sumG V c) (flushed_sum V c) fun i =>
    ⟨t1_9, (flush1_2 t1_9).mpr rfl, by
      show i ∈ ((View.whole main_v15_0).slice (win1_2.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 256 from by decide +kernel]; omega⟩

/-- The second result array ends holding the column sums of the squares of z + b. -/
theorem final_sumsq (c : Dev nD) : (dat1 (F := Ideal) V c).arrAt 3 cfg1.N = GcnSpec.colSumSq (V c main_v13 : S20000x256.Idx → EReal) (V c main_v14 : S1x256.Idx → EReal) :=
  (dat1 V c).arrAt_eq_of_cover 3 (sumsqG V c) (flushed_sumsq V c) fun i =>
    ⟨t1_9, (flush1_3 t1_9).mpr rfl, by
      show i ∈ ((View.whole main_v15_1).slice (win1_3.rect t1_9)).set
      rw [View.set_slice_whole, Rect.mem_set_unit]
      intro a
      have h0 : (i 0 : Nat) < 1 := (i 0).isLt
      have h1 : (i 1 : Nat) < 256 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 256 from by decide +kernel]; omega⟩

end Final

end Cert.KernelIdeal.Stats1

end
-- ==== Proof.Stats4.lean ====
/-
  The batch statistics of the second layer: the column sums of z + b and of its squares.

  z is a 20000 × 256 matrix, read in ten consecutive blocks of 2000 rows, and b a 1 × 256 row. Two 1 × 256 rows are
  carried from block to block. At the first block both are set to zero; at every block the first receives, column by
  column, the sum over the block's rows p of z(p, q) + b(0, q), and the second the sum of the squares of these terms.
  So after block t the first row holds, at column q, the sum of z(r, q) + b(0, q) over the rows r < 2000 (t + 1), by
  induction on t, the first step using 0 + x = x. After the tenth block that is the sum over all 20000 rows: a sum over
  10 · 2000 consecutive naturals taken in ten blocks of 2000, which needs only that the addition of extended reals is
  commutative and associative. The two rows are written to their arrays once, after the last block, and the block
  written is the whole array.
-/
import proofs.«165878_j21122649162596_1_alg».proof.Proof.Gen.KernelIdeal.Frame
import proofs.«165878_j21122649162596_1_alg».proof.Proof.Spec
import proofs.«165878_j21122649162596_1_alg».proof.Proof.LibKeepdims
import proofs.«165878_j21122649162596_1_alg».proof.Proof.LibRowOps
import proofs.«165878_j21122649162596_1_alg».proof.Proof.LibTileSums
import Idealize.ShloMosaic.Lib.Pipeline.Value
import Idealize.ShloMosaic.PureOps.Ideal.Laws
import Idealize.ShloMosaic.Lib.ValueIdx
import Idealize.ShloMosaic.Lib.Tactic

noncomputable section

namespace Cert.KernelIdeal.Stats4

open Cert.KernelIdeal Cert.KernelIdeal.Gen Idealize.ShloMosaic Idealize.ShloMosaic.TcCoe Idealize.ShloMosaic.ValueIdx
open Idealize.SL.Sem
open Idealize.ShloMosaic.Pipeline (Dat)

theorem hz : (![0, 0] : Fin 2 → Nat) = fun _ => 0 := funext fun a => by fin_cases a <;> rfl

section Pieces
variable {F : FTy → Type} [FloatOps F]

/-- After a point other than the first, the running column sums hold what they held plus the block's column sums. -/
theorem out_B_2 (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond4_0 i)
    (x0 : Vec F S2000x256 .f32) (x1 xo2 xo3 : Vec F S1x256 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz]
  simp only [View.readAt_eq_ld, h1.read_unread, h2.read_unread, h3.read_unread,
    View.ld_unit_zero (S := S2000x256) hz, View.ld_unit_zero (S := S1x256) hz]

/-- The same for the running column sums of the squares. -/
theorem out_B_3 (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond4_0 i)
    (x0 : Vec F S2000x256 .f32) (x1 xo2 xo3 : Vec F S1x256 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz]
  simp only [View.readAt_eq_ld, h1.read_unread, h2.read_unread, h4.read_unread,
    View.ld_unit_zero (S := S2000x256) hz, View.ld_unit_zero (S := S1x256) hz]

/-- After the first point the running column sums hold the zero row plus the block's column sums. -/
theorem out_A_2 (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond4_0 i)
    (x0 : Vec F S2000x256 .f32) (x1 : Vec F S1x256 .f32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x256) hz, View.readCov_unit_zero (S := S1x256) _ hz]
  simp only [View.readAt_eq_ld, h1.read_unread, h2.read_unread,
    View.ld_unit_zero (S := S2000x256) hz, View.ld_unit_zero (S := S1x256) hz]

/-- The same for the running column sums of the squares. -/
theorem out_A_3 (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond4_0 i)
    (x0 : Vec F S2000x256 .f32) (x1 : Vec F S1x256 .f32) :
    out4_A_3 c i a1 h1 a2 h2 a3 h3 a4 h4 hc x0 x1 = k4_pay5 x0 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x256) hz, View.readCov_unit_zero (S := S1x256) _ hz]
  simp only [View.readAt_eq_ld, h1.read_unread, h2.read_unread,
    View.ld_unit_zero (S := S2000x256) hz, View.ld_unit_zero (S := S1x256) hz]

end Pieces

section Payload

/-- The zero row reads zero at every column. -/
theorem pay1_apply (q : Fin 256) : (k4_pay1 (F := Ideal)) (ix2 (0 : Fin 1) q) = 0 := by
  unfold k4_pay1
  show Ideal.ofBits .f32 0x00000000#32 = 0
  exact Ideal.ofBits_zero_f32

theorem pay2_apply (q : Fin 256) : (k4_pay2 (F := Ideal)) (ix2 (0 : Fin 1) q) = 0 := by
  unfold k4_pay2
  show Ideal.ofBits .f32 0x00000000#32 = 0
  exact Ideal.ofBits_zero_f32

/-- The block with the row added to each of its rows, at row p and column q: z(p, q) + b(0, q). -/
theorem pay3_apply (x0 : Vec Ideal S2000x256 .f32) (x1 : Vec Ideal S1x256 .f32) (p : Fin 2000) (q : Fin 256) :
    k4_pay3 x0 x1 (ix2 p q) = x0 (ix2 p q) + x1 (ix2 (0 : Fin 1) q) := by
  unfold k4_pay3
  have e1 : shapeCast S2000x256 x0 shapeCasts_S2000x256_S2000x256 = x0 := shapeCast_self _ _
  have e2 : shapeCast S1x256 x1 shapeCasts_S1x256_S1x256 = x1 := shapeCast_self _ _
  show shapeCast S2000x256 x0 shapeCasts_S2000x256_S2000x256 (ix2 p q)
      + broadcastTo S2000x256 (shapeCast S1x256 x1 shapeCasts_S1x256_S1x256) broadcasts_S1x256_S2000x256 (ix2 p q) = _
  rw [e1, e2]
  exact congrArg (x0 (ix2 p q) + ·) (LibRowOps.broadcastTo_row_apply x1 broadcasts_S1x256_S2000x256 p q)

/-- The running column sum after a block, at column q: what it held plus Σ_p (z(p, q) + b(0, q)) over the block's rows. -/
theorem pay4_apply (x0 : Vec Ideal S2000x256 .f32) (x1 acc : Vec Ideal S1x256 .f32) (q : Fin 256) :
    k4_pay4 x0 x1 acc (ix2 (0 : Fin 1) q)
      = acc (ix2 (0 : Fin 1) q) + ∑ p : Fin 2000, (x0 (ix2 p q) + x1 (ix2 (0 : Fin 1) q)) := by
  unfold k4_pay4
  have e1 : shapeCast S1x256 acc shapeCasts_S1x256_S1x256 = acc := shapeCast_self _ _
  show shapeCast S1x256 acc shapeCasts_S1x256_S1x256 (ix2 (0 : Fin 1) q)
      + shapeCast S1x256 (multiReduction .add [0] S256 (k4_pay3 x0 x1) 0x00000000#32 reduces_S2000x256_S256 (.inl rfl) rfl)
          shapeCasts_S256_S1x256 (ix2 (0 : Fin 1) q) = _
  rw [e1]
  refine congrArg (acc (ix2 (0 : Fin 1) q) + ·) ?_
  refine (LibRowOps.shapeCast_row_apply _ shapeCasts_S256_S1x256 (0 : Fin 1) q).trans ?_
  refine (LibKeepdims.sum_axis0_apply (A := 2000) (B := 256) (k4_pay3 x0 x1) 0x00000000#32 reduces_S2000x256_S256 (.inl rfl) rfl q).trans ?_
  exact Finset.sum_congr rfl fun p _ => pay3_apply x0 x1 p q

/-- The running column sum of squares after a block, at column q: what it held plus Σ_p (z(p, q) + b(0, q))². -/
theorem pay5_apply (x0 : Vec Ideal S2000x256 .f32) (x1 acc : Vec Ideal S1x256 .f32) (q : Fin 256) :
    k4_pay5 x0 x1 acc (ix2 (0 : Fin 1) q)
      = acc (ix2 (0 : Fin 1) q)
        + ∑ p : Fin 2000, (x0 (ix2 p q) + x1 (ix2 (0 : Fin 1) q)) * (x0 (ix2 p q) + x1 (ix2 (0 : Fin 1) q)) := by
  unfold k4_pay5
  have e1 : shapeCast S1x256 acc shapeCasts_S1x256_S1x256 = acc := shapeCast_self _ _
  show shapeCast S1x256 acc shapeCasts_S1x256_S1x256 (ix2 (0 : Fin 1) q)
      + shapeCast S1x256 (multiReduction .add [0] S256 (mulf (k4_pay3 x0 x1) (k4_pay3 x0 x1)) 0x00000000#32 reduces_S2000x256_S256 (.inl rfl) rfl)
          shapeCasts_S256_S1x256 (ix2 (0 : Fin 1) q) = _
  rw [e1]
  refine congrArg (acc (ix2 (0 : Fin 1) q) + ·) ?_
  refine (LibRowOps.shapeCast_row_apply _ shapeCasts_S256_S1x256 (0 : Fin 1) q).trans ?_
  refine (LibKeepdims.sum_axis0_apply (A := 2000) (B := 256) (mulf (k4_pay3 x0 x1) (k4_pay3 x0 x1)) 0x00000000#32 reduces_S2000x256_S256 (.inl rfl) rfl q).trans ?_
  refine Finset.sum_congr rfl fun p _ => ?_
  show k4_pay3 x0 x1 (ix2 p q) * k4_pay3 x0 x1 (ix2 p q) = _
  rw [pay3_apply x0 x1 p q]

end Payload

section Combined

/-- After the first point, at column q: the block's column sum of z + b. -/
theorem A2_apply (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond4_0 i)
    (x0 : Vec Ideal S2000x256 .f32) (x1 : Vec Ideal S1x256 .f32) (q : Fin 256) :
    out4_A_2 (F := Ideal) c i a1 h1 a2 h2 a3 h3 a4 h4 hc x0 x1 (ix2 (0 : Fin 1) q)
      = ∑ p : Fin 2000, (x0 (ix2 p q) + x1 (ix2 (0 : Fin 1) q)) := by
  rw [out_A_2 (F := Ideal) c i a1 h1 a2 h2 a3 h3 a4 h4 hc x0 x1, pay4_apply x0 x1 (k4_pay1 (F := Ideal)) q, pay1_apply q, zero_add]

theorem A3_apply (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : cond4_0 i)
    (x0 : Vec Ideal S2000x256 .f32) (x1 : Vec Ideal S1x256 .f32) (q : Fin 256) :
    out4_A_3 (F := Ideal) c i a1 h1 a2 h2 a3 h3 a4 h4 hc x0 x1 (ix2 (0 : Fin 1) q)
      = ∑ p : Fin 2000, (x0 (ix2 p q) + x1 (ix2 (0 : Fin 1) q)) * (x0 (ix2 p q) + x1 (ix2 (0 : Fin 1) q)) := by
  rw [out_A_3 (F := Ideal) c i a1 h1 a2 h2 a3 h3 a4 h4 hc x0 x1, pay5_apply x0 x1 (k4_pay2 (F := Ideal)) q, pay2_apply q, zero_add]

/-- After a later point, at column q: what was held plus the block's column sum. -/
theorem B2_apply (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond4_0 i)
    (x0 : Vec Ideal S2000x256 .f32) (x1 xo2 xo3 : Vec Ideal S1x256 .f32) (q : Fin 256) :
    out4_B_2 (F := Ideal) c i a1 h1 a2 h2 a3 h3 a4 h4 hc x0 x1 xo2 xo3 (ix2 (0 : Fin 1) q)
      = xo2 (ix2 (0 : Fin 1) q) + ∑ p : Fin 2000, (x0 (ix2 p q) + x1 (ix2 (0 : Fin 1) q)) := by
  rw [out_B_2 (F := Ideal) c i a1 h1 a2 h2 a3 h3 a4 h4 hc x0 x1 xo2 xo3, pay4_apply x0 x1 xo2 q]

theorem B3_apply (c : Dev nD) (i : grid4.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S1x256 .f32) (h4 : a4.IsWhole) (hc : ¬cond4_0 i)
    (x0 : Vec Ideal S2000x256 .f32) (x1 xo2 xo3 : Vec Ideal S1x256 .f32) (q : Fin 256) :
    out4_B_3 (F := Ideal) c i a1 h1 a2 h2 a3 h3 a4 h4 hc x0 x1 xo2 xo3 (ix2 (0 : Fin 1) q)
      = xo3 (ix2 (0 : Fin 1) q)
        + ∑ p : Fin 2000, (x0 (ix2 p q) + x1 (ix2 (0 : Fin 1) q)) * (x0 (ix2 p q) + x1 (ix2 (0 : Fin 1) q)) := by
  rw [out_B_3 (F := Ideal) c i a1 h1 a2 h2 a3 h3 a4 h4 hc x0 x1 xo2 xo3, pay5_apply x0 x1 xo3 q]

end Combined

section Run
variable (V : (c : Dev nD) → (b : Ref sig .tc) → Buf (Elt Ideal) ((c : Thread nD τ).loc b))

/-- The block index of the matrix window at point t is (t, 0); of the row window (0, 0): decided over the grid. -/
theorem idx0 : ∀ t : Fin cfg4.N, win4_0.index t 0 = t.val ∧ win4_0.index t 1 = 0 :=
  (by decide +kernel : ∀ t : Fin grid4.N, win4_0.index t 0 = t.val ∧ win4_0.index t 1 = 0)

theorem idx1 : ∀ t : Fin cfg4.N, win4_1.index t 0 = 0 ∧ win4_1.index t 1 = 0 :=
  (by decide +kernel : ∀ t : Fin grid4.N, win4_1.index t 0 = 0 ∧ win4_1.index t 1 = 0)

/-- The matrix window's block at point t is rows 2000 t … 2000 t + 1999 of the matrix. -/
theorem iblk0_apply (c : Dev nD) (t : Fin cfg4.N) (p : Fin 2000) (q : Fin 256) (k : Fin 20000)
    (hk : k.val = 2000 * t.val + p.val) :
    (iblk4 V c 0 t : Vec Ideal S2000x256 .f32) (ix2 p q) = (V c main_v39 : S20000x256.Idx → EReal) (ix2 k q) := by
  unfold iblk4
  rw [View.read_apply]
  show V c main_v39 _ = V c main_v39 _
  congr 1
  funext a
  apply Fin.ext
  match a with
  | ⟨0, _⟩ => show win4_0.index t 0 * 2000 + 1 * p.val = k.val; rw [(idx0 t).1, hk]; omega
  | ⟨1, _⟩ => show win4_0.index t 1 * 256 + 1 * q.val = q.val; rw [(idx0 t).2]; omega

/-- The row window's block at every point is the row. -/
theorem iblk1_apply (c : Dev nD) (t : Fin cfg4.N) (q : Fin 256) :
    (iblk4 V c 1 t : Vec Ideal S1x256 .f32) (ix2 (0 : Fin 1) q) = (V c main_v40 : S1x256.Idx → EReal) (ix2 (0 : Fin 1) q) := by
  unfold iblk4
  rw [View.read_apply]
  show V c main_v40 _ = V c main_v40 _
  congr 1
  funext a
  apply Fin.ext
  match a with
  | ⟨0, _⟩ => show win4_1.index t 0 * 1 + 1 * 0 = 0; rw [(idx1 t).1]
  | ⟨1, _⟩ => show win4_1.index t 1 * 256 + 1 * q.val = q.val; rw [(idx1 t).2]; omega

/-- The two input blocks at point t, at their literal shapes. -/
abbrev blk0 (c : Dev nD) (t : Fin cfg4.N) : Vec Ideal S2000x256 .f32 := iblk4 V c 0 t
abbrev blk1 (c : Dev nD) (t : Fin cfg4.N) : Vec Ideal S1x256 .f32 := iblk4 V c 1 t

/-- Row i of z + b at column q, for i below 20000 (and zero beyond, where no term is ever read). -/
def rowTerm (z : S20000x256.Idx → EReal) (b : S1x256.Idx → EReal) (q : Fin 256) (i : ℕ) : EReal :=
  if h : i < 20000 then z (ix2 (⟨i, h⟩ : Fin 20000) q) + b (ix2 (0 : Fin 1) q) else 0

/-- The terms the body sums at point t are rows 2000 t + p of z + b. -/
theorem term_eq (c : Dev nD) (t : Fin cfg4.N) (p : Fin 2000) (q : Fin 256) :
    blk0 V c t (ix2 p q) + blk1 V c t (ix2 (0 : Fin 1) q)
      = rowTerm (V c main_v39) (V c main_v40) q (2000 * t.val + p.val) := by
  have hN : cfg4.N = 10 := N_4
  have hlt : 2000 * t.val + p.val < 20000 := by have := t.isLt; have := p.isLt; omega
  unfold rowTerm
  rw [dif_pos hlt]
  exact congrArg₂ (· + ·) (iblk0_apply V c t p q ⟨2000 * t.val + p.val, hlt⟩ rfl) (iblk1_apply V c t q)

/-- After point n the two outputs hold, at column q, the sums of the rows below 2000 (n + 1) of z + b and of its
    square: by induction on the point, the first point starting from the zero row. -/
theorem outs_eq (c : Dev nD) : ∀ (n : ℕ) (h : n < cfg4.N) (q : Fin 256),
    (outsAt4 V c n h).1 (ix2 (0 : Fin 1) q)
        = ∑ k ∈ Finset.range (n + 1), ∑ p : Fin 2000, rowTerm (V c main_v39) (V c main_v40) q (2000 * k + p.val)
      ∧ (outsAt4 V c n h).2 (ix2 (0 : Fin 1) q)
        = ∑ k ∈ Finset.range (n + 1), ∑ p : Fin 2000,
            rowTerm (V c main_v39) (V c main_v40) q (2000 * k + p.val) * rowTerm (V c main_v39) (V c main_v40) q (2000 * k + p.val)
  | 0, h, q => by
    rw [Finset.sum_range_one, Finset.sum_range_one, outsAt4_A V c ⟨0, h⟩ rfl]
    dsimp only
    constructor
    · refine (A2_apply c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (blk0 V c ⟨0, h⟩) (blk1 V c ⟨0, h⟩) q).trans ?_
      exact Finset.sum_congr rfl fun p _ => term_eq V c ⟨0, h⟩ p q
    · refine (A3_apply c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (blk0 V c ⟨0, h⟩) (blk1 V c ⟨0, h⟩) q).trans ?_
      exact Finset.sum_congr rfl fun p _ => congrArg₂ (· * ·) (term_eq V c ⟨0, h⟩ p q) (term_eq V c ⟨0, h⟩ p q)
  | n + 1, h, q => by
    have hN : cfg4.N = 10 := N_4
    have hB : ¬(⟨n + 1, h⟩ : Fin cfg4.N).val % 10 = 0 := by dsimp only; omega
    have ih := outs_eq c n (Nat.lt_of_succ_lt h) q
    rw [Finset.sum_range_succ _ (n + 1), Finset.sum_range_succ _ (n + 1), outsAt4_B V c ⟨n + 1, h⟩ hB]
    dsimp only
    constructor
    · refine (B2_apply c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun hh => hB ((hcond4_0 ⟨n + 1, h⟩).mp hh)) (blk0 V c ⟨n + 1, h⟩) (blk1 V c ⟨n + 1, h⟩)
        (outsAt4 V c n (Nat.lt_of_succ_lt h)).1 (outsAt4 V c n (Nat.lt_of_succ_lt h)).2 q).trans ?_
      exact congrArg₂ (· + ·) ih.1 (Finset.sum_congr rfl fun p _ => term_eq V c ⟨n + 1, h⟩ p q)
    · refine (B3_apply c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun hh => hB ((hcond4_0 ⟨n + 1, h⟩).mp hh)) (blk0 V c ⟨n + 1, h⟩) (blk1 V c ⟨n + 1, h⟩)
        (outsAt4 V c n (Nat.lt_of_succ_lt h)).1 (outsAt4 V c n (Nat.lt_of_succ_lt h)).2 q).trans ?_
      exact congrArg₂ (· + ·) ih.2 (Finset.sum_congr rfl fun p _ =>
        congrArg₂ (· * ·) (term_eq V c ⟨n + 1, h⟩ p q) (term_eq V c ⟨n + 1, h⟩ p q))

end Run

section Final
variable (V : (c : Dev nD) → (b : Ref sig .tc) → Buf (Elt Ideal) ((c : Thread nD τ).loc b))

theorem nine_lt : 9 < cfg4.N := by rw [show cfg4.N = 10 from N_4]; decide

/-- The ten blocks of 2000 rows are the 20000 rows: the sums over the blocks add up to the sum over all rows. -/
theorem sum_rows (z : S20000x256.Idx → EReal) (b : S1x256.Idx → EReal) (q : Fin 256) :
    ∑ k ∈ Finset.range 10, ∑ p : Fin 2000, rowTerm z b q (2000 * k + p.val)
      = ∑ r : Fin 20000, (z (ix2 r q) + b (ix2 (0 : Fin 1) q)) := by
  rw [← LibTileSums.sum_tiles 10 2000 20000 (by norm_num) (rowTerm z b q)]
  exact Finset.sum_congr rfl fun r _ => dif_pos r.isLt

theorem sum_rows_sq (z : S20000x256.Idx → EReal) (b : S1x256.Idx → EReal) (q : Fin 256) :
    ∑ k ∈ Finset.range 10, ∑ p : Fin 2000, rowTerm z b q (2000 * k + p.val) * rowTerm z b q (2000 * k + p.val)
      = ∑ r : Fin 20000, (z (ix2 r q) + b (ix2 (0 : Fin 1) q)) * (z (ix2 r q) + b (ix2 (0 : Fin 1) q)) := by
  rw [← LibTileSums.sum_tiles 10 2000 20000 (by norm_num) (fun i => rowTerm z b q i * rowTerm z b q i)]
  refine Finset.sum_congr rfl fun r _ => ?_
  show rowTerm z b q r.val * rowTerm z b q r.val = _
  have e : rowTerm z b q r.val = z (ix2 r q) + b (ix2 (0 : Fin 1) q) := dif_pos r.isLt
  rw [e]

/-- The column sums and the column sums of squares of z + b, as contents of the two result arrays. -/
abbrev sumG (c : Dev nD) : Buf (Elt Ideal) ((c : Thread nD τ).loc main_v41_0) := GcnSpec.colSum (V c main_v39 : S20000x256.Idx → EReal) (V c main_v40 : S1x256.Idx → EReal)
abbrev sumsqG (c : Dev nD) : Buf (Elt Ideal) ((c : Thread nD τ).loc main_v41_1) := GcnSpec.colSumSq (V c main_v39 : S20000x256.Idx → EReal) (V c main_v40 : S1x256.Idx → EReal)

/-- After the last point the first output holds the column sums of z + b over all 20000 rows. -/
theorem last_sum (c : Dev nD) : (outsAt4 V c 9 nine_lt).1 = sumG V c := by
  funext j
  obtain ⟨z0, q, rfl⟩ : ∃ (z0 : Fin 1) (q : Fin 256), j = ix2 z0 q := ⟨j 0, j 1, eq_ix2 j⟩
  obtain rfl : z0 = 0 := Subsingleton.elim _ _
  refine (outs_eq V c 9 nine_lt q).1.trans ?_
  exact sum_rows (V c main_v39) (V c main_v40) q

/-- And the second the column sums of its squares. -/
theorem last_sumsq (c : Dev nD) : (outsAt4 V c 9 nine_lt).2 = sumsqG V c := by
  funext j
  obtain ⟨z0, q, rfl⟩ : ∃ (z0 : Fin 1) (q : Fin 256), j = ix2 z0 q := ⟨j 0, j 1, eq_ix2 j⟩
  obtain rfl : z0 = 0 := Subsingleton.elim _ _
  refine (outs_eq V c 9 nine_lt q).2.trans ?_
  exact sum_rows_sq (V c main_v39) (V c main_v40) q

/-- The one write-back of the first output, at the last point, writes the column sums: block (0, 0) of a [1, 256]
    array read through zero offsets is the array. -/
theorem flushed_sum (c : Dev nD) (t : Fin cfg4.N) (hf : (cfg4.win 2).flush t = true) :
    (dat4 V c).flushed 2 t = ((cfg4.win 2).blk t).view.read (Elt Ideal) (sumG V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hl : (outsAt4 V c t4_9.val t4_9.isLt).1 = sumG V c := last_sum V c
  rw [hl]
  have hz' : (fun a => win4_2.index t4_9 a * main_v41_0.ty.shape.size a) = fun _ => 0 := funext fun a => by fin_cases a <;> decide
  exact (Memref.read_access_unit_zero (Elt Ideal) main_v41_0 hz' (fun a => by rw [congrFun hz' a]; simp) (sumG V c)).symm

theorem flushed_sumsq (c : Dev nD) (t : Fin cfg4.N) (hf : (cfg4.win 3).flush t = true) :
    (dat4 V c).flushed 3 t = ((cfg4.win 3).blk t).view.read (Elt Ideal) (sumsqG V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3]
  have hl : (outsAt4 V c t4_9.val t4_9.isLt).2 = sumsqG V c := last_sumsq V c
  rw [hl]
  have hz' : (fun a => win4_3.index t4_9 a * main_v41_1.ty.shape.size a) = fun _ => 0 := funext fun a => by fin_cases a <;> decide
  exact (Memref.read_access_unit_zero (Elt Ideal) main_v41_1 hz' (fun a => by rw [congrFun hz' a]; simp) (sumsqG V c)).symm

/-- The first result array ends holding the column sums of z + b: its one block, written back at the last point, is
    the whole array. -/
theorem final_sum (c : Dev nD) : (dat4 (F := Ideal) V c).arrAt 2 cfg4.N = GcnSpec.colSum (V c main_v39 : S20000x256.Idx → EReal) (V c main_v40 : S1x256.Idx → EReal) :=
  (dat4 V c).arrAt_eq_of_cover 2 (sumG V c) (flushed_sum V c) fun i =>
    ⟨t4_9, (flush4_2 t4_9).mpr rfl, by
      show i ∈ ((View.whole main_v41_0).slice (win4_2.rect t4_9)).set
      rw [View.set_slice_whole, Rect.mem_set_unit]
      intro a
      have h0 : (i 0 : Nat) < 1 := (i 0).isLt
      have h1 : (i 1 : Nat) < 256 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 256 from by decide +kernel]; omega⟩

/-- The second result array ends holding the column sums of the squares of z + b. -/
theorem final_sumsq (c : Dev nD) : (dat4 (F := Ideal) V c).arrAt 3 cfg4.N = GcnSpec.colSumSq (V c main_v39 : S20000x256.Idx → EReal) (V c main_v40 : S1x256.Idx → EReal) :=
  (dat4 V c).arrAt_eq_of_cover 3 (sumsqG V c) (flushed_sumsq V c) fun i =>
    ⟨t4_9, (flush4_3 t4_9).mpr rfl, by
      show i ∈ ((View.whole main_v41_1).slice (win4_3.rect t4_9)).set
      rw [View.set_slice_whole, Rect.mem_set_unit]
      intro a
      have h0 : (i 0 : Nat) < 1 := (i 0).isLt
      have h1 : (i 1 : Nat) < 256 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 256 from by decide +kernel]; omega⟩

end Final

end Cert.KernelIdeal.Stats4

end
-- ==== Proof.Norm2.lean ====
/-
  Region 2 of the kernel: each feature column normalised and the result rectified, row block by row block, as one
  function of the arrays the region is entered with. The grid has ten points; point t reads rows 2000·t … 2000·t + 1999
  of the input array z and the whole of five rows — the bias b, the scale γ, the shift β, the column means μ and the
  column variances v — and writes rows 2000·t … of the result. At exact arithmetic entry (p, q) of the block written is
  max(γ(q) · ((z(p, q) + b(q)) − μ(q)) · rsqrt(v(q) + ε) + β(q), 0): the value depends on the row only through z, so
  entry (r, q) of the result is the same expression at z(r, q) whatever block r lies in. The ten row blocks tile the
  result, so every entry is written.
-/
import proofs.«165878_j21122649162596_1_alg».proof.Proof.Gen.KernelIdeal.Frame
import proofs.«165878_j21122649162596_1_alg».proof.Proof.Spec
import proofs.«165878_j21122649162596_1_alg».proof.Proof.LibRowOps
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: with h = z(p, q) + b(q), the value
    max(γ(q) · (h − μ(q)) · rsqrt(v(q) + ε) + β(q), 0). The casts are identities, a row broadcast over the rows reads
    the row at q, and every other operation acts entry by entry. -/
theorem pay_ix (x0 : Vec Ideal S2000x256 .f32) (x1 x2 x3 x4 x5 : Vec Ideal S1x256 .f32) (p : Fin 2000) (q : Fin 256) :
    k2_pay1 x0 x1 x5 x2 x4 x3 (ix2 p q)
      = max (x2 (ix2 (0 : Fin 1) q) * ((x0 (ix2 p q) + x1 (ix2 (0 : Fin 1) q)) - x4 (ix2 (0 : Fin 1) q))
          * Ideal.rsqrt (x5 (ix2 (0 : Fin 1) q) + GcnSpec.eps) + x3 (ix2 (0 : Fin 1) q)) (Ideal.ofBits .f32 0x00000000#32) := by
  unfold k2_pay1
  simp only [shapeCast_self, maximumf_apply, addf_apply, mulf_apply, subf_apply, broadcast_apply,
    LibRowOps.broadcastTo_row_apply]
  rfl

/-- The same at any index of the block, the index split into its two coordinates. -/
theorem pay_apply (x0 : Vec Ideal S2000x256 .f32) (x1 x2 x3 x4 x5 : Vec Ideal S1x256 .f32) (y : S2000x256.Idx) :
    k2_pay1 x0 x1 x5 x2 x4 x3 y
      = max (x2 (ix2 (0 : Fin 1) (y 1)) * ((x0 y + x1 (ix2 (0 : Fin 1) (y 1))) - x4 (ix2 (0 : Fin 1) (y 1)))
          * Ideal.rsqrt (x5 (ix2 (0 : Fin 1) (y 1)) + GcnSpec.eps) + x3 (ix2 (0 : Fin 1) (y 1))) (Ideal.ofBits .f32 0x00000000#32) := by
  obtain ⟨p, q, rfl⟩ : ∃ (p : Fin 2000) (q : Fin 256), y = ix2 p q := ⟨y 0, y 1, eq_ix2 y⟩
  exact pay_ix x0 x1 x2 x3 x4 x5 p q

/-- The specification at an index, written out. -/
theorem bnRelu_apply {M D : ℕ} (z : GcnSpec.Mat M D) (b g be mu var : GcnSpec.Mat 1 D) (i : (⟨2, ![M, D]⟩ : Shape).Idx) :
    GcnSpec.bnRelu z b g be mu var i
      = max (g (ix2 (0 : Fin 1) (i 1)) * ((z i + b (ix2 (0 : Fin 1) (i 1))) - mu (ix2 (0 : Fin 1) (i 1)))
          * Ideal.rsqrt (var (ix2 (0 : Fin 1) (i 1)) + GcnSpec.eps) + be (ix2 (0 : Fin 1) (i 1))) (Ideal.ofBits .f32 0x00000000#32) := rfl

/-- The printed block indices, decided over the grid: the input and the result windows move down one row block per
    point, the five row windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 10 :=
  (by decide +kernel : ∀ t : Fin grid2.N, _)

/-- The input window's block at point t is rows 2000·t … of the input array. -/
theorem iblk_in (c : Dev nD) (t : Fin cfg2.N) (y : S2000x256.Idx) (i : S20000x256.Idx)
    (h0 : (i 0).val = 2000 * t.val + (y 0).val) (h1 : (i 1).val = (y 1).val) :
    (iblk2 V c 0 t : Vec Ideal S2000x256 .f32) y = (V c main_v13 : S20000x256.Idx → EReal) i := by
  obtain ⟨e0, e1, -, -, -, -, -, -, -, -, -, -, -, -, -⟩ := idx_facts t
  unfold iblk2
  rw [View.read_apply]
  show V c main_v13 _ = V c main_v13 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 256 + 1 * (y 1).val = (i 1).val; rw [e1, h1]; omega

/-- The bias window's block at any point is the whole bias row. -/
theorem iblk_bias (c : Dev nD) (t : Fin cfg2.N) (y : S1x256.Idx) :
    (iblk2 V c 1 t : Vec Ideal S1x256 .f32) y = (V c main_v22 : S1x256.Idx → EReal) y := by
  obtain ⟨-, -, e0, e1, -, -, -, -, -, -, -, -, -, -, -⟩ := idx_facts t
  unfold iblk2
  rw [View.read_apply]
  show V c main_v22 _ = V c main_v22 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 256 + 1 * (y 1).val = (y 1).val; rw [e1]; omega

/-- The scale window's block at any point is the whole scale row. -/
theorem iblk_scale (c : Dev nD) (t : Fin cfg2.N) (y : S1x256.Idx) :
    (iblk2 V c 2 t : Vec Ideal S1x256 .f32) y = (V c main_v23 : S1x256.Idx → EReal) y := by
  obtain ⟨-, -, -, -, e0, e1, -, -, -, -, -, -, -, -, -⟩ := idx_facts t
  unfold iblk2
  rw [View.read_apply]
  show V c main_v23 _ = V c main_v23 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The shift window's block at any point is the whole shift row. -/
theorem iblk_shift (c : Dev nD) (t : Fin cfg2.N) (y : S1x256.Idx) :
    (iblk2 V c 3 t : Vec Ideal S1x256 .f32) y = (V c main_v24 : S1x256.Idx → EReal) y := by
  obtain ⟨-, -, -, -, -, -, e0, e1, -, -, -, -, -, -, -⟩ := idx_facts t
  unfold iblk2
  rw [View.read_apply]
  show V c main_v24 _ = V c main_v24 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

/-- The mean window's block at any point is the whole mean row. -/
theorem iblk_mean (c : Dev nD) (t : Fin cfg2.N) (y : S1x256.Idx) :
    (iblk2 V c 4 t : Vec Ideal S1x256 .f32) y = (V c main_v17 : S1x256.Idx → EReal) y := by
  obtain ⟨-, -, -, -, -, -, -, -, e0, e1, -, -, -, -, -⟩ := idx_facts t
  unfold iblk2
  rw [View.read_apply]
  show V c main_v17 _ = V c main_v17 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- The variance window's block at any point is the whole variance row. -/
theorem iblk_var (c : Dev nD) (t : Fin cfg2.N) (y : S1x256.Idx) :
    (iblk2 V c 5 t : Vec Ideal S1x256 .f32) y = (V c main_v21 : S1x256.Idx → EReal) y := by
  obtain ⟨-, -, -, -, -, -, -, -, -, -, e0, e1, -, -, -⟩ := idx_facts t
  unfold iblk2
  rw [View.read_apply]
  show V c main_v21 _ = V c main_v21 _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 256 + 1 * (y 1).val = (y 1).val; rw [e1]; omega

/-- What point t writes back is block t of the normalised and rectified array. -/
theorem flushed_eq (c : Dev nD) (t : Fin cfg2.N) :
    (dat2 (F := Ideal) V c).flushed 6 t
      = ((cfg2.win 6).blk t).view.read (Elt Ideal) (GcnSpec.bnRelu (V c main_v13 : S20000x256.Idx → EReal)
          (V c main_v22 : S1x256.Idx → EReal) (V c main_v23 : S1x256.Idx → EReal) (V c main_v24 : S1x256.Idx → EReal)
          (V c main_v17 : S1x256.Idx → EReal) (V c main_v21 : S1x256.Idx → EReal)) := by
  show (cfg2.win 6).cut (grid2.coords t) ((dat2 (F := Ideal) V c).after 6 t) = _
  rw [after2_6]
  unfold out2_6
  rw [View.canon_unit_zero hz]
  simp only [View.ld_unit_zero (S := S2000x256) hz, View.ld_unit_zero (S := S1x256) hz]
  obtain ⟨-, -, -, -, -, -, -, -, -, -, -, -, e0, e1, -⟩ := idx_facts t
  funext j
  refine (pay_apply _ _ _ _ _ _ j).trans ?_
  rw [View.read_apply]
  refine Eq.trans ?_ (bnRelu_apply _ _ _ _ _ _ _).symm
  have hc : (ix2 (0 : Fin 1) ((((cfg2.win 6).blk t).view.emb j) 1) : S1x256.Idx) = ix2 (0 : Fin 1) (j 1) := by
    funext a
    apply Fin.ext
    match a with
    | ⟨0, _⟩ => rfl
    | ⟨1, _⟩ => show win2_6.index t (1 : Fin 2) * 256 + 1 * (j 1).val = (j 1).val; rw [e1]; omega
  rw [hc]
  have hl := iblk_in V c t j (((cfg2.win 6).blk t).view.emb j)
    (by show win2_6.index t (0 : Fin 2) * 2000 + 1 * (j 0).val = 2000 * t.val + (j 0).val; rw [e0]; omega)
    (by show win2_6.index t (1 : Fin 2) * 256 + 1 * (j 1).val = (j 1).val; rw [e1]; omega)
  have h1 := iblk_bias V c t (ix2 (0 : Fin 1) (j 1))
  have h2 := iblk_scale V c t (ix2 (0 : Fin 1) (j 1))
  have h3 := iblk_shift V c t (ix2 (0 : Fin 1) (j 1))
  have h4 := iblk_mean V c t (ix2 (0 : Fin 1) (j 1))
  have h5 := iblk_var V c t (ix2 (0 : Fin 1) (j 1))
  exact congrArg₂ max (congrArg₂ (· + ·) (congrArg₂ (· * ·) (congrArg₂ (· * ·) h2 (congrArg₂ (· - ·) (congrArg₂ (· + ·) hl h1) h4))
    (congrArg Ideal.rsqrt (congrArg (· + GcnSpec.eps) h5))) h3) rfl

/-- An index of the result array is in point t's block iff each coordinate is in the block's range on its axis. -/
theorem mem_blk (t : Fin cfg2.N) (i : S20000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v25).slice (win2_6.rect t)).set ↔ _
  rw [View.set_slice_whole, Rect.mem_set_unit]
  exact Iff.rfl

/-- Every block row is some point's. -/
theorem idx_onto : ∀ q : Fin 10, ∃ t : Fin cfg2.N, t.val = q.val :=
  (by decide +kernel : ∀ q : Fin 10, ∃ t : Fin grid2.N, t.val = q.val)

/-- Every entry of the result is in the block of the point its row falls in. -/
theorem cover (i : S20000x256.Idx) : ∃ t : Fin cfg2.N, (cfg2.win 6).flush t = true ∧ i ∈ ((cfg2.win 6).blk t).view.set := by
  have hi0 : (i 0).val < 20000 := (i 0).isLt
  have hi1 : (i 1).val < 256 := (i 1).isLt
  obtain ⟨t, ht⟩ := idx_onto ⟨(i 0).val / 2000, by omega⟩
  obtain ⟨-, -, -, -, -, -, -, -, -, -, -, -, e0, e1, -⟩ := idx_facts t
  refine ⟨t, flush2_6 t, ?_⟩
  rw [mem_blk]
  intro a
  have ht' : t.val = (i 0).val / 2000 := ht
  match a with
  | ⟨0, _⟩ => show win2_6.index t (0 : Fin 2) * 2000 ≤ (i 0).val ∧ (i 0).val < win2_6.index t (0 : Fin 2) * 2000 + 2000; rw [e0]; omega
  | ⟨1, _⟩ => show win2_6.index t (1 : Fin 2) * 256 ≤ (i 1).val ∧ (i 1).val < win2_6.index t (1 : Fin 2) * 256 + 256; rw [e1]; omega

/-- The result array after the region: the normalised and rectified array of the arrays the region was entered with. -/
theorem final_out (c : Dev nD) :
    (dat2 (F := Ideal) V c).arrAt 6 cfg2.N = GcnSpec.bnRelu (V c main_v13 : S20000x256.Idx → EReal)
      (V c main_v22 : S1x256.Idx → EReal) (V c main_v23 : S1x256.Idx → EReal) (V c main_v24 : S1x256.Idx → EReal)
      (V c main_v17 : S1x256.Idx → EReal) (V c main_v21 : S1x256.Idx → EReal) :=
  (dat2 (F := Ideal) V c).arrAt_eq_of_cover 6 _ (fun t _ => flushed_eq V c t) cover

end Cert.KernelIdeal.Norm2

end
-- ==== Proof.Norm5.lean ====
/-
  Region 5 of the kernel: each feature column normalised and the result rectified, row block by row block, as one
  function of the arrays the region is entered with. The grid has ten points; point t reads rows 2000·t … 2000·t + 1999
  of the input array z and the whole of five rows — the bias b, the scale γ, the shift β, the column means μ and the
  column variances v — and writes rows 2000·t … of the result. At exact arithmetic entry (p, q) of the block written is
  max(γ(q) · ((z(p, q) + b(q)) − μ(q)) · rsqrt(v(q) + ε) + β(q), 0): the value depends on the row only through z, so
  entry (r, q) of the result is the same expression at z(r, q) whatever block r lies in. The ten row blocks tile the
  result, so every entry is written.
-/
import proofs.«165878_j21122649162596_1_alg».proof.Proof.Gen.KernelIdeal.Frame
import proofs.«165878_j21122649162596_1_alg».proof.Proof.Spec
import proofs.«165878_j21122649162596_1_alg».proof.Proof.LibRowOps
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of the block: with h = z(p, q) + b(q), the value
    max(γ(q) · (h − μ(q)) · rsqrt(v(q) + ε) + β(q), 0). The casts are identities, a row broadcast over the rows reads
    the row at q, and every other operation acts entry by entry. -/
theorem pay_ix (x0 : Vec Ideal S2000x256 .f32) (x1 x2 x3 x4 x5 : Vec Ideal S1x256 .f32) (p : Fin 2000) (q : Fin 256) :
    k5_pay1 x0 x1 x5 x2 x4 x3 (ix2 p q)
      = max (x2 (ix2 (0 : Fin 1) q) * ((x0 (ix2 p q) + x1 (ix2 (0 : Fin 1) q)) - x4 (ix2 (0 : Fin 1) q))
          * Ideal.rsqrt (x5 (ix2 (0 : Fin 1) q) + GcnSpec.eps) + x3 (ix2 (0 : Fin 1) q)) (Ideal.ofBits .f32 0x00000000#32) := by
  unfold k5_pay1
  simp only [shapeCast_self, maximumf_apply, addf_apply, mulf_apply, subf_apply, broadcast_apply,
    LibRowOps.broadcastTo_row_apply]
  rfl

/-- The same at any index of the block, the index split into its two coordinates. -/
theorem pay_apply (x0 : Vec Ideal S2000x256 .f32) (x1 x2 x3 x4 x5 : Vec Ideal S1x256 .f32) (y : S2000x256.Idx) :
    k5_pay1 x0 x1 x5 x2 x4 x3 y
      = max (x2 (ix2 (0 : Fin 1) (y 1)) * ((x0 y + x1 (ix2 (0 : Fin 1) (y 1))) - x4 (ix2 (0 : Fin 1) (y 1)))
          * Ideal.rsqrt (x5 (ix2 (0 : Fin 1) (y 1)) + GcnSpec.eps) + x3 (ix2 (0 : Fin 1) (y 1))) (Ideal.ofBits .f32 0x00000000#32) := by
  obtain ⟨p, q, rfl⟩ : ∃ (p : Fin 2000) (q : Fin 256), y = ix2 p q := ⟨y 0, y 1, eq_ix2 y⟩
  exact pay_ix x0 x1 x2 x3 x4 x5 p q

/-- The specification at an index, written out. -/
theorem bnRelu_apply {M D : ℕ} (z : GcnSpec.Mat M D) (b g be mu var : GcnSpec.Mat 1 D) (i : (⟨2, ![M, D]⟩ : Shape).Idx) :
    GcnSpec.bnRelu z b g be mu var i
      = max (g (ix2 (0 : Fin 1) (i 1)) * ((z i + b (ix2 (0 : Fin 1) (i 1))) - mu (ix2 (0 : Fin 1) (i 1)))
          * Ideal.rsqrt (var (ix2 (0 : Fin 1) (i 1)) + GcnSpec.eps) + be (ix2 (0 : Fin 1) (i 1))) (Ideal.ofBits .f32 0x00000000#32) := rfl

/-- The printed block indices, decided over the grid: the input and the result windows move down one row block per
    point, the five row windows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 ∧ t.val < 10 :=
  (by decide +kernel : ∀ t : Fin grid5.N, _)

/-- The input window's block at point t is rows 2000·t … of the input array. -/
theorem iblk_in (c : Dev nD) (t : Fin cfg5.N) (y : S2000x256.Idx) (i : S20000x256.Idx)
    (h0 : (i 0).val = 2000 * t.val + (y 0).val) (h1 : (i 1).val = (y 1).val) :
    (iblk5 V c 0 t : Vec Ideal S2000x256 .f32) y = (V c main_v39 : S20000x256.Idx → EReal) i := by
  obtain ⟨e0, e1, -, -, -, -, -, -, -, -, -, -, -, -, -⟩ := idx_facts t
  unfold iblk5
  rw [View.read_apply]
  show V c main_v39 _ = V c main_v39 _
  congr 1
  funext a
  apply Fin.ext
  match a with
  | ⟨0, _⟩ => show win5_0.index t (0 : Fin 2) * 2000 + 1 * (y 0).val = (i 0).val; rw [e0, h0]; omega
  | ⟨1, _⟩ => show win5_0.index t (1 : Fin 2) * 256 + 1 * (y 1).val = (i 1).val; rw [e1, h1]; omega

/-- The bias window's block at any point is the whole bias row. -/
theorem iblk_bias (c : Dev nD) (t : Fin cfg5.N) (y : S1x256.Idx) :
    (iblk5 V c 1 t : Vec Ideal S1x256 .f32) y = (V c main_v48 : S1x256.Idx → EReal) y := by
  obtain ⟨-, -, e0, e1, -, -, -, -, -, -, -, -, -, -, -⟩ := idx_facts t
  unfold iblk5
  rw [View.read_apply]
  show V c main_v48 _ = V c main_v48 _
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 256 + 1 * (y 1).val = (y 1).val; rw [e1]; omega

/-- The scale window's block at any point is the whole scale row. -/
theorem iblk_scale (c : Dev nD) (t : Fin cfg5.N) (y : S1x256.Idx) :
    (iblk5 V c 2 t : Vec Ideal S1x256 .f32) y = (V c main_v49 : S1x256.Idx → EReal) y := by
  obtain ⟨-, -, -, -, e0, e1, -, -, -, -, -, -, -, -, -⟩ := idx_facts t
  unfold iblk5
  rw [View.read_apply]
  show V c main_v49 _ = V c main_v49 _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 256 + 1 * (y 1).val = (y 1).val; rw [e1]; omega

/-- The shift window's block at any point is the whole shift row. -/
theorem iblk_shift (c : Dev nD) (t : Fin cfg5.N) (y : S1x256.Idx) :
    (iblk5 V c 3 t : Vec Ideal S1x256 .f32) y = (V c main_v50 : S1x256.Idx → EReal) y := by
  obtain ⟨-, -, -, -, -, -, e0, e1, -, -, -, -, -, -, -⟩ := idx_facts t
  unfold iblk5
  rw [View.read_apply]
  show V c main_v50 _ = V c main_v50 _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 256 + 1 * (y 1).val = (y 1).val; rw [e1]; omega

/-- The mean window's block at any point is the whole mean row. -/
theorem iblk_mean (c : Dev nD) (t : Fin cfg5.N) (y : S1x256.Idx) :
    (iblk5 V c 4 t : Vec Ideal S1x256 .f32) y = (V c main_v43 : S1x256.Idx → EReal) y := by
  obtain ⟨-, -, -, -, -, -, -, -, e0, e1, -, -, -, -, -⟩ := idx_facts t
  unfold iblk5
  rw [View.read_apply]
  show V c main_v43 _ = V c main_v43 _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 256 + 1 * (y 1).val = (y 1).val; rw [e1]; omega

/-- The variance window's block at any point is the whole variance row. -/
theorem iblk_var (c : Dev nD) (t : Fin cfg5.N) (y : S1x256.Idx) :
    (iblk5 V c 5 t : Vec Ideal S1x256 .f32) y = (V c main_v47 : S1x256.Idx → EReal) y := by
  obtain ⟨-, -, -, -, -, -, -, -, -, -, e0, e1, -, -, -⟩ := idx_facts t
  unfold iblk5
  rw [View.read_apply]
  show V c main_v47 _ = V c main_v47 _
  congr 1
  funext a
  apply Fin.ext
  match a with
  | ⟨0, _⟩ => show win5_5.index t (0 : Fin 2) * 1 + 1 * (y 0).val = (y 0).val; rw [e0]; omega
  | ⟨1, _⟩ => show win5_5.index t (1 : Fin 2) * 256 + 1 * (y 1).val = (y 1).val; rw [e1]; omega

/-- What point t writes back is block t of the normalised and rectified array. -/
theorem flushed_eq (c : Dev nD) (t : Fin cfg5.N) :
    (dat5 (F := Ideal) V c).flushed 6 t
      = ((cfg5.win 6).blk t).view.read (Elt Ideal) (GcnSpec.bnRelu (V c main_v39 : S20000x256.Idx → EReal)
          (V c main_v48 : S1x256.Idx → EReal) (V c main_v49 : S1x256.Idx → EReal) (V c main_v50 : S1x256.Idx → EReal)
          (V c main_v43 : S1x256.Idx → EReal) (V c main_v47 : S1x256.Idx → EReal)) := by
  show (cfg5.win 6).cut (grid5.coords t) ((dat5 (F := Ideal) V c).after 6 t) = _
  rw [after5_6]
  unfold out5_6
  rw [View.canon_unit_zero hz]
  simp only [View.ld_unit_zero (S := S2000x256) hz, View.ld_unit_zero (S := S1x256) hz]
  obtain ⟨-, -, -, -, -, -, -, -, -, -, -, -, e0, e1, -⟩ := idx_facts t
  funext j
  refine (pay_apply _ _ _ _ _ _ j).trans ?_
  rw [View.read_apply]
  refine Eq.trans ?_ (bnRelu_apply _ _ _ _ _ _ _).symm
  have hc : (ix2 (0 : Fin 1) ((((cfg5.win 6).blk t).view.emb j) 1) : S1x256.Idx) = ix2 (0 : Fin 1) (j 1) := by
    funext a
    apply Fin.ext
    match a with
    | ⟨0, _⟩ => rfl
    | ⟨1, _⟩ => show win5_6.index t (1 : Fin 2) * 256 + 1 * (j 1).val = (j 1).val; rw [e1]; omega
  rw [hc]
  have hl := iblk_in V c t j (((cfg5.win 6).blk t).view.emb j)
    (by show win5_6.index t (0 : Fin 2) * 2000 + 1 * (j 0).val = 2000 * t.val + (j 0).val; rw [e0]; omega)
    (by show win5_6.index t (1 : Fin 2) * 256 + 1 * (j 1).val = (j 1).val; rw [e1]; omega)
  have h1 := iblk_bias V c t (ix2 (0 : Fin 1) (j 1))
  have h2 := iblk_scale V c t (ix2 (0 : Fin 1) (j 1))
  have h3 := iblk_shift V c t (ix2 (0 : Fin 1) (j 1))
  have h4 := iblk_mean V c t (ix2 (0 : Fin 1) (j 1))
  have h5 := iblk_var V c t (ix2 (0 : Fin 1) (j 1))
  exact congrArg₂ max (congrArg₂ (· + ·) (congrArg₂ (· * ·) (congrArg₂ (· * ·) h2 (congrArg₂ (· - ·) (congrArg₂ (· + ·) hl h1) h4))
    (congrArg Ideal.rsqrt (congrArg (· + GcnSpec.eps) h5))) h3) rfl

/-- An index of the result array is in point t's block iff each coordinate is in the block's range on its axis. -/
theorem mem_blk (t : Fin cfg5.N) (i : S20000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v51).slice (win5_6.rect t)).set ↔ _
  rw [View.set_slice_whole, Rect.mem_set_unit]
  exact Iff.rfl

/-- Every block row is some point's. -/
theorem idx_onto : ∀ q : Fin 10, ∃ t : Fin cfg5.N, t.val = q.val :=
  (by decide +kernel : ∀ q : Fin 10, ∃ t : Fin grid5.N, t.val = q.val)

/-- Every entry of the result is in the block of the point its row falls in. -/
theorem cover (i : S20000x256.Idx) : ∃ t : Fin cfg5.N, (cfg5.win 6).flush t = true ∧ i ∈ ((cfg5.win 6).blk t).view.set := by
  have hi0 : (i 0).val < 20000 := (i 0).isLt
  have hi1 : (i 1).val < 256 := (i 1).isLt
  obtain ⟨t, ht⟩ := idx_onto ⟨(i 0).val / 2000, by omega⟩
  obtain ⟨-, -, -, -, -, -, -, -, -, -, -, -, e0, e1, -⟩ := idx_facts t
  refine ⟨t, flush5_6 t, ?_⟩
  rw [mem_blk]
  intro a
  have ht' : t.val = (i 0).val / 2000 := ht
  match a with
  | ⟨0, _⟩ => show win5_6.index t (0 : Fin 2) * 2000 ≤ (i 0).val ∧ (i 0).val < win5_6.index t (0 : Fin 2) * 2000 + 2000; rw [e0]; omega
  | ⟨1, _⟩ => show win5_6.index t (1 : Fin 2) * 256 ≤ (i 1).val ∧ (i 1).val < win5_6.index t (1 : Fin 2) * 256 + 256; rw [e1]; omega

/-- The result array after the region: the normalised and rectified array of the arrays the region was entered with. -/
theorem final_out (c : Dev nD) :
    (dat5 (F := Ideal) V c).arrAt 6 cfg5.N = GcnSpec.bnRelu (V c main_v39 : S20000x256.Idx → EReal)
      (V c main_v48 : S1x256.Idx → EReal) (V c main_v49 : S1x256.Idx → EReal) (V c main_v50 : S1x256.Idx → EReal)
      (V c main_v43 : S1x256.Idx → EReal) (V c main_v47 : S1x256.Idx → EReal) :=
  (dat5 (F := Ideal) V c).arrAt_eq_of_cover 6 _ (fun t _ => flushed_eq V c t) cover

end Cert.KernelIdeal.Norm5

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«165878_j21122649162596_1_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.LogSoftmax7.lean ====
/-
  Region 7 of the kernel: the row-wise logarithm of the softmax, row block by row block, as one function of the arrays
  the region is entered with. The grid has ten points; point t reads rows 2000·t … 2000·t + 1999 of the input array z
  and the whole bias row b, and writes rows 2000·t … of the result. With h = z + b (the bias repeated over the rows) and
  m(p) the maximum of row p of h taken from −∞, entry (p, q) of the block written is
  h(p, q) − m(p) − log Σ_k exp(h(p, k) − m(p)). The value at (p, q) depends on row p of the input only, so entry (r, q)
  of the result is the same expression of row r of z + b whatever block r lies in. The ten row blocks tile the result,
  so every entry is written.
-/
import proofs.«165878_j21122649162596_1_alg».proof.Proof.Gen.KernelIdeal.Frame
import proofs.«165878_j21122649162596_1_alg».proof.Proof.Spec
import proofs.«165878_j21122649162596_1_alg».proof.Proof.LibRowOps
import proofs.«165878_j21122649162596_1_alg».proof.Proof.LibKeepdims
import proofs.«165878_j21122649162596_1_alg».proof.Proof.LibIdealFinite
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LogSoftmax7

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The logarithm of the softmax of one row h, at column q: h(q) − m − log Σ_k exp(h(k) − m), m the row's maximum. -/
def lsmRow {C : ℕ} (h : Fin C → EReal) (q : Fin C) : EReal :=
  (h q - GcnSpec.rowMax h) - Ideal.log (∑ k : Fin C, Ideal.exp (h k - GcnSpec.rowMax h))

/-- The specification at an index, written through the row. -/
theorem logSoftmax_apply {M C : ℕ} (z : GcnSpec.Mat M C) (b : GcnSpec.Mat 1 C) (i : (⟨2, ![M, C]⟩ : Shape).Idx) :
    GcnSpec.logSoftmax z b i = lsmRow (GcnSpec.biasedRow z b (i 0)) (i 1) := rfl

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The exact maximum over axis 1 of an [A, B] matrix, at row r: the maximum, taken from the accumulator's value, of
    the entries (r, k). -/
theorem max_axis1_apply {A B : ℕ} (src : FVec Ideal ⟨2, ![A, B]⟩ .f32) (acc : BitVec (FTy.f32).bits)
    (h : Shape.Reduces ⟨2, ![A, B]⟩ [1] ⟨1, ![A]⟩) (hφ : FKind.Formats .f32) (hacc : acc = FKind.maximumf.neutral .f32 hφ) (r : Fin A) :
    multiReduction .maximumf [1] ⟨1, ![A]⟩ src acc h hφ hacc (ix1 r)
      = (Finset.univ : Finset (Fin B)).fold max (Ideal.ofBits .f32 acc) (fun k => src (ix2 r k)) := by
  refine (Ideal.multiReduction_maximumf_single src acc h hφ hacc (ix1 r)).trans ?_
  show (Finset.univ : Finset (Fin B)).fold max (Ideal.ofBits .f32 acc) (fun k => src (h.lift (ix1 r) k)) = _
  have e : (fun k : Fin B => src (h.lift (ix1 r) k)) = fun k : Fin B => src (ix2 r k) :=
    funext fun k => congrArg src (funext fun d => by
      match d with
      | ⟨0, _⟩ => exact Fin.ext rfl
      | ⟨1, _⟩ => exact Fin.ext rfl)
  exact congrArg (fun f => Finset.fold max (Ideal.ofBits .f32 acc) f (Finset.univ : Finset (Fin B))) e

/-- The row maximum kept as a column, read at (p, 0): the maximum from −∞ of row p (for any proofs of the reduction's
    side conditions, so that the statement matches the body's own term). -/
theorem rowmax_col (v : FVec Ideal S2000x40 .f32) (hφ : FTy.f32 = FTy.f32 ∨ FTy.f32 = FTy.bf16)
    (hacc : (0xFF800000#32 : BitVec 32) = 0xFF800000#32) (p : Fin 2000) :
    shapeCast S2000x1 (multiReduction .maximumf [1] S2000 v 0xFF800000#32 reduces_S2000x40_S2000 hφ hacc) shapeCasts_S2000_S2000x1 (ix2 p (0 : Fin 1))
      = GcnSpec.rowMax (fun k : Fin 40 => v (ix2 p k)) := by
  refine (LibKeepdims.shapeCast_col_apply _ _ p 0).trans ?_
  refine (max_axis1_apply v _ _ _ _ p).trans ?_
  unfold GcnSpec.rowMax
  rw [LibIdealFinite.ofBits_neg_inf]

/-- The row sum kept as a column, read at (p, 0): the sum of row p. -/
theorem rowsum_col (e : FVec Ideal S2000x40 .f32) (hφ : FTy.f32 = FTy.f32 ∨ FTy.f32 = FTy.bf16)
    (hacc : (0x00000000#32 : BitVec 32) = 0x00000000#32) (p : Fin 2000) :
    shapeCast S2000x1 (multiReduction .add [1] S2000 e 0x00000000#32 reduces_S2000x40_S2000 hφ hacc) shapeCasts_S2000_S2000x1 (ix2 p (0 : Fin 1))
      = ∑ k : Fin 40, e (ix2 p k) :=
  (LibKeepdims.shapeCast_col_apply _ _ p 0).trans (LibKeepdims.sum_axis1_apply e _ _ _ _ p)

theorem exp_ix {s : Shape} (a : FVec Ideal s .f32) (i : s.Idx) : exp a i = Ideal.exp (a i) := rfl
theorem log_ix {s : Shape} (a : FVec Ideal s .f32) (i : s.Idx) : log a i = Ideal.log (a i) := rfl

/-- The body's stored value at entry (p, q) of the block: the logarithm of the softmax of row p of z + b, at column q.
    The row maximum and the row sum are each kept as a column and broadcast back over the row, so at (p, k) they read
    the maximum, and the sum, of row p. -/
theorem pay_ix (x0 : Vec Ideal S2000x40 .f32) (x1 : Vec Ideal S1x40 .f32) (p : Fin 2000) (q : Fin 40) :
    k7_pay1 x0 x1 (ix2 p q) = lsmRow (GcnSpec.biasedRow x0 x1 p) q := by
  have hrow : GcnSpec.biasedRow x0 x1 p = fun k : Fin 40 => addf (F := Ideal) (φ := .f32) x0 (broadcastTo S2000x40 x1 broadcasts_S1x40_S2000x40) (ix2 p k) := by
    funext k
    rw [addf_apply, LibRowOps.broadcastTo_row_apply]
    rfl
  rw [hrow]
  unfold k7_pay1 lsmRow
  simp only [shapeCast_self]
  generalize addf (F := Ideal) (φ := .f32) x0 (broadcastTo S2000x40 x1 broadcasts_S1x40_S2000x40) = v
  simp only [subf_apply, broadcastTo_col_apply, log_ix]
  refine congrArg₂ (· - ·) (congrArg₂ (· - ·) rfl (rowmax_col v _ _ p)) (congrArg Ideal.log ?_)
  refine (rowsum_col _ _ _ p).trans ?_
  refine Finset.sum_congr rfl fun k _ => ?_
  show Ideal.exp (v (ix2 p k) - broadcastTo S2000x40 _ _ (ix2 p k)) = _
  exact congrArg Ideal.exp (congrArg₂ (· - ·) rfl ((broadcastTo_col_apply _ _ p k).trans (rowmax_col v _ _ p)))

/-- The same at any index of the block, the index split into its two coordinates. -/
theorem pay_apply (x0 : Vec Ideal S2000x40 .f32) (x1 : Vec Ideal S1x40 .f32) (y : S2000x40.Idx) :
    k7_pay1 x0 x1 y = lsmRow (GcnSpec.biasedRow x0 x1 (y 0)) (y 1) := by
  obtain ⟨p, q, rfl⟩ : ∃ (p : Fin 2000) (q : Fin 40), y = ix2 p q := ⟨y 0, y 1, eq_ix2 y⟩
  exact pay_ix x0 x1 p q

/-- The printed block indices, decided over the grid: the input and the result windows move down one row block per
    point, the bias window stays. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 10 :=
  (by decide +kernel : ∀ t : Fin grid7.N, _)

/-- The input window's block at point t is rows 2000·t … of the input array. -/
theorem iblk_in (c : Dev nD) (t : Fin cfg7.N) (y : S2000x40.Idx) (i : S20000x40.Idx)
    (h0 : (i 0).val = 2000 * t.val + (y 0).val) (h1 : (i 1).val = (y 1).val) :
    (iblk7 V c 0 t : Vec Ideal S2000x40 .f32) y = (V c main_v65 : S20000x40.Idx → EReal) i := by
  obtain ⟨e0, e1, -⟩ := idx_facts t
  unfold iblk7
  rw [View.read_apply]
  show V c main_v65 _ = V c main_v65 _
  congr 1
  funext a
  apply Fin.ext
  match a with
  | ⟨0, _⟩ => show win7_0.index t (0 : Fin 2) * 2000 + 1 * (y 0).val = (i 0).val; rw [e0, h0]; omega
  | ⟨1, _⟩ => show win7_0.index t (1 : Fin 2) * 40 + 1 * (y 1).val = (i 1).val; rw [e1, h1]; omega

/-- The bias window's block at any point is the whole bias row. -/
theorem iblk_bias (c : Dev nD) (t : Fin cfg7.N) (y : S1x40.Idx) :
    (iblk7 V c 1 t : Vec Ideal S1x40 .f32) y = (V c main_v66 : S1x40.Idx → EReal) y := by
  obtain ⟨-, -, e0, e1, -⟩ := idx_facts t
  unfold iblk7
  rw [View.read_apply]
  show V c main_v66 _ = V c main_v66 _
  congr 1
  funext a
  apply Fin.ext
  match a with
  | ⟨0, _⟩ => show win7_1.index t (0 : Fin 2) * 1 + 1 * (y 0).val = (y 0).val; rw [e0]; omega
  | ⟨1, _⟩ => show win7_1.index t (1 : Fin 2) * 40 + 1 * (y 1).val = (y 1).val; rw [e1]; omega

/-- What point t writes back is block t of the row-wise logarithm of the softmax. -/
theorem flushed_eq (c : Dev nD) (t : Fin cfg7.N) :
    (dat7 (F := Ideal) V c).flushed 2 t
      = ((cfg7.win 2).blk t).view.read (Elt Ideal) (GcnSpec.logSoftmax (V c main_v65 : S20000x40.Idx → EReal)
          (V c main_v66 : S1x40.Idx → EReal)) := by
  show (cfg7.win 2).cut (grid7.coords t) ((dat7 (F := Ideal) V c).after 2 t) = _
  rw [after7_2]
  unfold out7_2
  rw [View.canon_unit_zero hz]
  simp only [View.ld_unit_zero (S := S2000x40) hz, View.ld_unit_zero (S := S1x40) hz]
  obtain ⟨-, -, -, -, e0, e1, -⟩ := idx_facts t
  funext j
  refine (pay_apply _ _ j).trans ?_
  rw [View.read_apply]
  refine Eq.trans ?_ (logSoftmax_apply _ _ _).symm
  have hrow : GcnSpec.biasedRow (iblk7 V c 0 t : Vec Ideal S2000x40 .f32) (iblk7 V c 1 t : Vec Ideal S1x40 .f32) (j 0)
      = GcnSpec.biasedRow (V c main_v65 : S20000x40.Idx → EReal) (V c main_v66 : S1x40.Idx → EReal)
          ((((cfg7.win 2).blk t).view.emb j) 0) := by
    funext k
    unfold GcnSpec.biasedRow
    exact congrArg₂ (· + ·)
      (iblk_in V c t (ix2 (j 0) k) (ix2 ((((cfg7.win 2).blk t).view.emb j) 0) k)
        (by show win7_2.index t (0 : Fin 2) * 2000 + 1 * (j 0).val = 2000 * t.val + (j 0).val; rw [e0]; omega) rfl)
      (iblk_bias V c t (ix2 (0 : Fin 1) k))
  have hq : (j 1 : Fin 40) = (((cfg7.win 2).blk t).view.emb j) 1 :=
    Fin.ext (by show (j 1).val = win7_2.index t (1 : Fin 2) * 40 + 1 * (j 1).val; rw [e1]; omega)
  exact congrArg₂ (lsmRow (C := 40)) hrow hq

/-- An index of the result array is in point t's block iff each coordinate is in the block's range on its axis. -/
theorem mem_blk (t : Fin cfg7.N) (i : S20000x40.Idx) :
    i ∈ ((cfg7.win 2).blk t).view.set ↔ ∀ a : Fin 2, win7_2.index t a * S2000x40.size a ≤ (i a).val ∧ (i a).val < win7_2.index t a * S2000x40.size a + S2000x40.size a := by
  show i ∈ ((View.whole main_v67).slice (win7_2.rect t)).set ↔ _
  rw [View.set_slice_whole, Rect.mem_set_unit]
  exact Iff.rfl

/-- Every block row is some point's. -/
theorem idx_onto : ∀ q : Fin 10, ∃ t : Fin cfg7.N, t.val = q.val :=
  (by decide +kernel : ∀ q : Fin 10, ∃ t : Fin grid7.N, t.val = q.val)

/-- Every entry of the result is in the block of the point its row falls in. -/
theorem cover (i : S20000x40.Idx) : ∃ t : Fin cfg7.N, (cfg7.win 2).flush t = true ∧ i ∈ ((cfg7.win 2).blk t).view.set := by
  have hi0 : (i 0).val < 20000 := (i 0).isLt
  have hi1 : (i 1).val < 40 := (i 1).isLt
  obtain ⟨t, ht⟩ := idx_onto ⟨(i 0).val / 2000, by omega⟩
  obtain ⟨-, -, -, -, e0, e1, -⟩ := idx_facts t
  refine ⟨t, flush7_2 t, ?_⟩
  rw [mem_blk]
  intro a
  have ht' : t.val = (i 0).val / 2000 := ht
  match a with
  | ⟨0, _⟩ => show win7_2.index t (0 : Fin 2) * 2000 ≤ (i 0).val ∧ (i 0).val < win7_2.index t (0 : Fin 2) * 2000 + 2000; rw [e0]; omega
  | ⟨1, _⟩ => show win7_2.index t (1 : Fin 2) * 40 ≤ (i 1).val ∧ (i 1).val < win7_2.index t (1 : Fin 2) * 40 + 40; rw [e1]; omega

/-- The result array after the region: the row-wise logarithm of the softmax of the arrays the region was entered with. -/
theorem final_out (c : Dev nD) :
    (dat7 (F := Ideal) V c).arrAt 2 cfg7.N = GcnSpec.logSoftmax (V c main_v65 : S20000x40.Idx → EReal)
      (V c main_v66 : S1x40.Idx → EReal) :=
  (dat7 (F := Ideal) V c).arrAt_eq_of_cover 2 _ (fun t _ => flushed_eq V c t) cover

end Cert.KernelIdeal.LogSoftmax7

end
-- ==== Proof.Chain.lean ====
/-
  The kernel's result array as the network function of its argument arrays, read off the run segment by segment.
  Each region leaves its result array at the region's function of the arrays it was entered with (the matrix product,
  the column sums, the normalised and rectified matrix, the row-wise logarithm of the softmax); each stretch of host
  operations leaves its results at the operations' composition (the aggregation over the edges, the one-row forms of
  the bias, scale and shift vectors, the column means and variances); an array that a segment does not write is still
  what the segment before left. Composing the thirteen segments gives the network.
-/
import proofs.«165878_j21122649162596_1_alg».proof.Proof.KNet
import proofs.«165878_j21122649162596_1_alg».proof.Proof.Walk
import proofs.«165878_j21122649162596_1_alg».proof.Proof.Mm0
import proofs.«165878_j21122649162596_1_alg».proof.Proof.Mm3
import proofs.«165878_j21122649162596_1_alg».proof.Proof.Mm6
import proofs.«165878_j21122649162596_1_alg».proof.Proof.Stats1
import proofs.«165878_j21122649162596_1_alg».proof.Proof.Stats4
import proofs.«165878_j21122649162596_1_alg».proof.Proof.Norm2
import proofs.«165878_j21122649162596_1_alg».proof.Proof.Norm5
import proofs.«165878_j21122649162596_1_alg».proof.Proof.LogSoftmax7
import Idealize.ShloMosaic.Lib.StableHlo.Run

set_option maxRecDepth 16384

noncomputable section

namespace Cert.KernelIdeal.Chain

open Cert.KernelIdeal Cert.KernelIdeal.Gen Cert.KernelIdeal.Net Cert.KernelIdeal.Walk
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The first layer -/

theorem y1 : W1 m ρ c (Proc.devRef .tc main_v0) = (GcnSpec.mm (m ((c : Thread nD τ).loc main_arg0)) (m ((c : Thread nD τ).loc main_arg4))) :=
  (W1_arr m ρ c 2).trans (Mm0.final_out (V0 m ρ) c)

theorem z1 : W2 m ρ c (Proc.devRef .tc main_v13) = (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) := by
  have e : W2 m ρ c (Proc.devRef .tc main_v13) = spmm256 (W1 m ρ c (Proc.devRef .tc main_v0)) (W1 m ρ c (Proc.devRef .tc main_arg1)) (W1 m ρ c (Proc.devRef .tc main_arg2)) (W1 m ρ c (Proc.devRef .tc main_arg3)) := by
    show StableHlo.after hostOps1 (W1 m ρ c) (Proc.devRef .tc main_v13) = _
    after_results_simp <;> rfl
  rw [e, y1, keep1_arg1, keep1_arg2, keep1_arg3]

theorem b1r : W2 m ρ c (Proc.devRef .tc main_v14) = row256 (m ((c : Thread nD τ).loc main_arg5)) := by
  have e : W2 m ρ c (Proc.devRef .tc main_v14) = row256 (W1 m ρ c (Proc.devRef .tc main_arg5)) := by
    show StableHlo.after hostOps1 (W1 m ρ c) (Proc.devRef .tc main_v14) = _
    after_results_simp <;> rfl
  rw [e, keep1_arg5]

theorem s1 : W3 m ρ c (Proc.devRef .tc main_v15_0) = (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) := by
  refine (W3_arr m ρ c 2).trans ((Stats1.final_sum (V2 m ρ) c).trans ?_)
  rw [show V2 m ρ c main_v13 = _ from z1 m ρ c, show V2 m ρ c main_v14 = _ from b1r m ρ c]

theorem q1 : W3 m ρ c (Proc.devRef .tc main_v15_1) = (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) := by
  refine (W3_arr m ρ c 3).trans ((Stats1.final_sumsq (V2 m ρ) c).trans ?_)
  rw [show V2 m ρ c main_v13 = _ from z1 m ρ c, show V2 m ρ c main_v14 = _ from b1r m ρ c]

theorem z1_at3 : W3 m ρ c (Proc.devRef .tc main_v13) = (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) :=
  ((W3_arr m ρ c 0).trans (((dat1 (V2 m ρ) c).arrAt_in 0 rfl _).trans (A_eq1 (V2 m ρ) c 0))).trans (z1 m ρ c)

theorem mean1 : W4 m ρ c (Proc.devRef .tc main_v17) = (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) := by
  have e : W4 m ρ c (Proc.devRef .tc main_v17) = meanOf (W3 m ρ c (Proc.devRef .tc main_v15_0)) := by
    show StableHlo.after hostOps2 (W3 m ρ c) (Proc.devRef .tc main_v17) = _
    after_results_simp <;> rfl
  rw [e, s1]

theorem var1 : W4 m ρ c (Proc.devRef .tc main_v21) = (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))))) := by
  have e : W4 m ρ c (Proc.devRef .tc main_v21) = varOf (W3 m ρ c (Proc.devRef .tc main_v15_1)) (meanOf (W3 m ρ c (Proc.devRef .tc main_v15_0))) := by
    show StableHlo.after hostOps2 (W3 m ρ c) (Proc.devRef .tc main_v21) = _
    after_results_simp <;> rfl
  rw [e, s1, q1]

theorem b1r' : W4 m ρ c (Proc.devRef .tc main_v22) = row256 (m ((c : Thread nD τ).loc main_arg5)) := by
  have e : W4 m ρ c (Proc.devRef .tc main_v22) = row256 (W3 m ρ c (Proc.devRef .tc main_arg5)) := by
    show StableHlo.after hostOps2 (W3 m ρ c) (Proc.devRef .tc main_v22) = _
    after_results_simp <;> rfl
  rw [e, keep3_arg5]

theorem g1r : W4 m ρ c (Proc.devRef .tc main_v23) = row256 (m ((c : Thread nD τ).loc main_arg6)) := by
  have e : W4 m ρ c (Proc.devRef .tc main_v23) = row256 (W3 m ρ c (Proc.devRef .tc main_arg6)) := by
    show StableHlo.after hostOps2 (W3 m ρ c) (Proc.devRef .tc main_v23) = _
    after_results_simp <;> rfl
  rw [e, keep3_arg6]

theorem be1r : W4 m ρ c (Proc.devRef .tc main_v24) = row256 (m ((c : Thread nD τ).loc main_arg7)) := by
  have e : W4 m ρ c (Proc.devRef .tc main_v24) = row256 (W3 m ρ c (Proc.devRef .tc main_arg7)) := by
    show StableHlo.after hostOps2 (W3 m ρ c) (Proc.devRef .tc main_v24) = _
    after_results_simp <;> rfl
  rw [e, keep3_arg7]

theorem z1_at4 : W4 m ρ c (Proc.devRef .tc main_v13) = (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) := by
  have e : W4 m ρ c (Proc.devRef .tc main_v13) = W3 m ρ c (Proc.devRef .tc main_v13) := by
    show StableHlo.after hostOps2 (W3 m ρ c) (Proc.devRef .tc main_v13) = _
    after_results_simp <;> rfl
  rw [e, z1_at3]

theorem h1 : W5 m ρ c (Proc.devRef .tc main_v25) = (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) := by
  refine (W5_arr m ρ c 6).trans ((Norm2.final_out (V4 m ρ) c).trans ?_)
  rw [show V4 m ρ c main_v13 = _ from z1_at4 m ρ c, show V4 m ρ c main_v22 = _ from b1r' m ρ c, show V4 m ρ c main_v23 = _ from g1r m ρ c,
    show V4 m ρ c main_v24 = _ from be1r m ρ c, show V4 m ρ c main_v17 = _ from mean1 m ρ c, show V4 m ρ c main_v21 = _ from var1 m ρ c]

/-! ## The second layer -/

theorem y2 : W6 m ρ c (Proc.devRef .tc main_v26) = (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) := by
  refine (W6_arr m ρ c 2).trans ((Mm3.final_out (V5 m ρ) c).trans ?_)
  rw [show V5 m ρ c main_v25 = _ from h1 m ρ c, show V5 m ρ c main_arg8 = _ from keep5_arg8 m ρ c]

theorem z2 : W7 m ρ c (Proc.devRef .tc main_v39) = (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) := by
  have e : W7 m ρ c (Proc.devRef .tc main_v39) = spmm256 (W6 m ρ c (Proc.devRef .tc main_v26)) (W6 m ρ c (Proc.devRef .tc main_arg1)) (W6 m ρ c (Proc.devRef .tc main_arg2)) (W6 m ρ c (Proc.devRef .tc main_arg3)) := by
    show StableHlo.after hostOps4 (W6 m ρ c) (Proc.devRef .tc main_v39) = _
    after_results_simp <;> rfl
  rw [e, y2, keep6_arg1, keep6_arg2, keep6_arg3]

theorem b2r : W7 m ρ c (Proc.devRef .tc main_v40) = row256 (m ((c : Thread nD τ).loc main_arg9)) := by
  have e : W7 m ρ c (Proc.devRef .tc main_v40) = row256 (W6 m ρ c (Proc.devRef .tc main_arg9)) := by
    show StableHlo.after hostOps4 (W6 m ρ c) (Proc.devRef .tc main_v40) = _
    after_results_simp <;> rfl
  rw [e, keep6_arg9]

theorem s2 : W8 m ρ c (Proc.devRef .tc main_v41_0) = (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) := by
  refine (W8_arr m ρ c 2).trans ((Stats4.final_sum (V7 m ρ) c).trans ?_)
  rw [show V7 m ρ c main_v39 = _ from z2 m ρ c, show V7 m ρ c main_v40 = _ from b2r m ρ c]

theorem q2 : W8 m ρ c (Proc.devRef .tc main_v41_1) = (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) := by
  refine (W8_arr m ρ c 3).trans ((Stats4.final_sumsq (V7 m ρ) c).trans ?_)
  rw [show V7 m ρ c main_v39 = _ from z2 m ρ c, show V7 m ρ c main_v40 = _ from b2r m ρ c]

theorem z2_at8 : W8 m ρ c (Proc.devRef .tc main_v39) = (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) :=
  ((W8_arr m ρ c 0).trans (((dat4 (V7 m ρ) c).arrAt_in 0 rfl _).trans (A_eq4 (V7 m ρ) c 0))).trans (z2 m ρ c)

theorem mean2 : W9 m ρ c (Proc.devRef .tc main_v43) = (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))) := by
  have e : W9 m ρ c (Proc.devRef .tc main_v43) = meanOf (W8 m ρ c (Proc.devRef .tc main_v41_0)) := by
    show StableHlo.after hostOps5 (W8 m ρ c) (Proc.devRef .tc main_v43) = _
    after_results_simp <;> rfl
  rw [e, s2]

theorem var2 : W9 m ρ c (Proc.devRef .tc main_v47) = (varOf (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))))) := by
  have e : W9 m ρ c (Proc.devRef .tc main_v47) = varOf (W8 m ρ c (Proc.devRef .tc main_v41_1)) (meanOf (W8 m ρ c (Proc.devRef .tc main_v41_0))) := by
    show StableHlo.after hostOps5 (W8 m ρ c) (Proc.devRef .tc main_v47) = _
    after_results_simp <;> rfl
  rw [e, s2, q2]

theorem b2r' : W9 m ρ c (Proc.devRef .tc main_v48) = row256 (m ((c : Thread nD τ).loc main_arg9)) := by
  have e : W9 m ρ c (Proc.devRef .tc main_v48) = row256 (W8 m ρ c (Proc.devRef .tc main_arg9)) := by
    show StableHlo.after hostOps5 (W8 m ρ c) (Proc.devRef .tc main_v48) = _
    after_results_simp <;> rfl
  rw [e, keep8_arg9]

theorem g2r : W9 m ρ c (Proc.devRef .tc main_v49) = row256 (m ((c : Thread nD τ).loc main_arg10)) := by
  have e : W9 m ρ c (Proc.devRef .tc main_v49) = row256 (W8 m ρ c (Proc.devRef .tc main_arg10)) := by
    show StableHlo.after hostOps5 (W8 m ρ c) (Proc.devRef .tc main_v49) = _
    after_results_simp <;> rfl
  rw [e, keep8_arg10]

theorem be2r : W9 m ρ c (Proc.devRef .tc main_v50) = row256 (m ((c : Thread nD τ).loc main_arg11)) := by
  have e : W9 m ρ c (Proc.devRef .tc main_v50) = row256 (W8 m ρ c (Proc.devRef .tc main_arg11)) := by
    show StableHlo.after hostOps5 (W8 m ρ c) (Proc.devRef .tc main_v50) = _
    after_results_simp <;> rfl
  rw [e, keep8_arg11]

theorem z2_at9 : W9 m ρ c (Proc.devRef .tc main_v39) = (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) := by
  have e : W9 m ρ c (Proc.devRef .tc main_v39) = W8 m ρ c (Proc.devRef .tc main_v39) := by
    show StableHlo.after hostOps5 (W8 m ρ c) (Proc.devRef .tc main_v39) = _
    after_results_simp <;> rfl
  rw [e, z2_at8]

theorem h2 : W10 m ρ c (Proc.devRef .tc main_v51) = (GcnSpec.bnRelu (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))) (row256 (m ((c : Thread nD τ).loc main_arg10))) (row256 (m ((c : Thread nD τ).loc main_arg11))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))) (varOf (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))))) := by
  refine (W10_arr m ρ c 6).trans ((Norm5.final_out (V9 m ρ) c).trans ?_)
  rw [show V9 m ρ c main_v39 = _ from z2_at9 m ρ c, show V9 m ρ c main_v48 = _ from b2r' m ρ c, show V9 m ρ c main_v49 = _ from g2r m ρ c,
    show V9 m ρ c main_v50 = _ from be2r m ρ c, show V9 m ρ c main_v43 = _ from mean2 m ρ c, show V9 m ρ c main_v47 = _ from var2 m ρ c]

/-! ## The last stage -/

theorem y3 : W11 m ρ c (Proc.devRef .tc main_v52) = (GcnSpec.mm (GcnSpec.bnRelu (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))) (row256 (m ((c : Thread nD τ).loc main_arg10))) (row256 (m ((c : Thread nD τ).loc main_arg11))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))) (varOf (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))))) (m ((c : Thread nD τ).loc main_arg12))) := by
  refine (W11_arr m ρ c 2).trans ((Mm6.final_out (V10 m ρ) c).trans ?_)
  rw [show V10 m ρ c main_v51 = _ from h2 m ρ c, show V10 m ρ c main_arg12 = _ from keep10_arg12 m ρ c]

theorem z3 : W12 m ρ c (Proc.devRef .tc main_v65) = (spmm40 (GcnSpec.mm (GcnSpec.bnRelu (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))) (row256 (m ((c : Thread nD τ).loc main_arg10))) (row256 (m ((c : Thread nD τ).loc main_arg11))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))) (varOf (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))))) (m ((c : Thread nD τ).loc main_arg12))) (m ((c : Thread nD τ).loc main_arg1)) (m ((c : Thread nD τ).loc main_arg2)) (m ((c : Thread nD τ).loc main_arg3))) := by
  have e : W12 m ρ c (Proc.devRef .tc main_v65) = spmm40 (W11 m ρ c (Proc.devRef .tc main_v52)) (W11 m ρ c (Proc.devRef .tc main_arg1)) (W11 m ρ c (Proc.devRef .tc main_arg2)) (W11 m ρ c (Proc.devRef .tc main_arg3)) := by
    show StableHlo.after hostOps7 (W11 m ρ c) (Proc.devRef .tc main_v65) = _
    after_results_simp <;> rfl
  rw [e, y3, keep11_arg1, keep11_arg2, keep11_arg3]

theorem b3r : W12 m ρ c (Proc.devRef .tc main_v66) = row40 (m ((c : Thread nD τ).loc main_arg13)) := by
  have e : W12 m ρ c (Proc.devRef .tc main_v66) = row40 (W11 m ρ c (Proc.devRef .tc main_arg13)) := by
    show StableHlo.after hostOps7 (W11 m ρ c) (Proc.devRef .tc main_v66) = _
    after_results_simp <;> rfl
  rw [e, keep11_arg13]

theorem out_eq : W13 m ρ c (Proc.devRef .tc main_v67) = (GcnSpec.logSoftmax (spmm40 (GcnSpec.mm (GcnSpec.bnRelu (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))) (row256 (m ((c : Thread nD τ).loc main_arg10))) (row256 (m ((c : Thread nD τ).loc main_arg11))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))) (varOf (GcnSpec.colSumSq (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9)))) (meanOf (GcnSpec.colSum (spmm256 (GcnSpec.mm (GcnSpec.bnRelu (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))) (row256 (m ((c : Thread nD τ).loc main_arg6))) (row256 (m ((c : Thread nD τ).loc main_arg7))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))) (varOf (GcnSpec.colSumSq (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5)))) (meanOf (GcnSpec.colSum (spmm256 (GcnSpec.mm (m ((c : Thread nD τ).loc main_arg0)) (m ((c : Thread nD τ).loc main_arg4))) (m ((c : Thread nD τ).loc main_arg1)) (m ((c : Thread nD τ).loc main_arg2)) (m ((c : Thread nD τ).loc main_arg3))) (row256 (m ((c : Thread nD τ).loc main_arg5))))))) (m ((c : Thread nD τ).loc main_arg8))) (m ((c : Thread nD τ).loc main_arg1)) (m ((c : Thread nD τ).loc main_arg2)) (m ((c : Thread nD τ).loc main_arg3))) (row256 (m ((c : Thread nD τ).loc main_arg9))))))) (m ((c : Thread nD τ).loc main_arg12))) (m ((c : Thread nD τ).loc main_arg1)) (m ((c : Thread nD τ).loc main_arg2)) (m ((c : Thread nD τ).loc main_arg3))) (row40 (m ((c : Thread nD τ).loc main_arg13)))) := by
  refine (W13_arr m ρ c 2).trans ((LogSoftmax7.final_out (V12 m ρ) c).trans ?_)
  rw [show V12 m ρ c main_v65 = _ from z3 m ρ c, show V12 m ρ c main_v66 = _ from b3r m ρ c]

/-- The kernel's result array is the network of its argument arrays. -/
theorem result_eq : W13 m ρ c (Proc.devRef .tc main_v67)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  out_eq m ρ c

end Cert.KernelIdeal.Chain

end
-- ==== Proof.RefNet.lean ====
/-
  The reference computation in three stages, each as a function of the arrays it starts from.

  A layer of the reference multiplies the node features by the weights, aggregates the products over the edges, adds the bias
  (`biased`), takes each column's mean μ = (Σ h) / 20000 (`muOf`) and the mean of the squared deviations
  v = (Σ (h − μ)²) / 20000 (`varRef`), and returns max(γ · (h − μ) · (v + ε)^(−1/2) + β, 0) (`normRef`). The last stage
  multiplies, aggregates, adds the bias and takes, row by row, h − m − log Σ exp(h − m) with m the row's maximum
  (`logSoftmaxRef`). The program's operation list is cut at the two layer outputs (`stage1`, `stage2`, `stage3`), and each
  stage's result is read off the fold of its operations as the corresponding function; the arrays a later stage still needs
  pass through a stage unchanged.
-/
import proofs.«165878_j21122649162596_1_alg».proof.Proof.RefRun
import Idealize.ShloMosaic.PureOps.Ideal
import Idealize.ShloMosaic.PureOps.Ideal.Laws

set_option maxRecDepth 16384

noncomputable section

namespace Cert.ReferenceIdeal.Net

open Cert.ReferenceIdeal Cert.ReferenceIdeal.Gen Cert.ReferenceIdeal.ValueP Idealize.ShloMosaic Idealize.ShloMosaic.TcCoe Idealize.SL.Sem Idealize.ShloMosaic.StableHlo

abbrev EdgeIdx : Type := IVec S320000 32
abbrev EdgeVal : Type := FVec Ideal S320000 .f32
abbrev Nodes256 : Type := FVec Ideal S20000x256 .f32
abbrev Nodes40 : Type := FVec Ideal S20000x40 .f32
abbrev Vec256 : Type := FVec Ideal S256 .f32
abbrev Vec40 : Type := FVec Ideal S40 .f32
abbrev W256 : Type := FVec Ideal S256x256 .f32
abbrev W40 : Type := FVec Ideal S256x40 .f32

/-- The column of source rows, one per edge: a negative index has the number of nodes added to it. -/
def srcRows (ac : EdgeIdx) : IVec S320000x1 32 :=
  broadcastInDim S320000x1 ![0] bcast_S320000_S320000x1_0
    (select (cmpi .slt ac (broadcastInDim S320000 ![] bcast_S_S320000 (constantI S_ 32 0#32)))
      (addi ac (broadcastInDim S320000 ![] bcast_S_S320000 (constantI S_ 32 20000#32))) ac)

/-- The aggregation of a [20000, 256] matrix over the edges. -/
def spmm256 (y : Nodes256) (ar ac : EdgeIdx) (av : EdgeVal) : Nodes256 :=
  Host.scatterAdd scatter_S20000x256_S320000x1_S320000x256_1_0_0_1
    (broadcastInDim S20000x256 ![] bcast_S_S20000x256 (constant (F := Ideal) S_ .f32 0x00000000#32))
    (broadcastInDim S320000x1 ![0] bcast_S320000_S320000x1_0 ar)
    (mulf (broadcastInDim S320000x256 ![0, 1] bcast_S320000x1_S320000x256_0_1 (broadcastInDim S320000x1 ![0] bcast_S320000_S320000x1_0 av))
      (Host.gather gather_S20000x256_S320000x1_S320000x256_1_0_n_n_0_1_1256 y (srcRows ac)))

/-- The aggregation of a [20000, 40] matrix over the edges. -/
def spmm40 (y : Nodes40) (ar ac : EdgeIdx) (av : EdgeVal) : Nodes40 :=
  Host.scatterAdd scatter_S20000x40_S320000x1_S320000x40_1_0_0_1
    (broadcastInDim S20000x40 ![] bcast_S_S20000x40 (constant (F := Ideal) S_ .f32 0x00000000#32))
    (broadcastInDim S320000x1 ![0] bcast_S320000_S320000x1_0 ar)
    (mulf (broadcastInDim S320000x40 ![0, 1] bcast_S320000x1_S320000x40_0_1 (broadcastInDim S320000x1 ![0] bcast_S320000_S320000x1_0 av))
      (Host.gather gather_S20000x40_S320000x1_S320000x40_1_0_n_n_0_1_140 y (srcRows ac)))

/-- A vector of length 256 repeated over the 20000 rows. -/
def full256 (v : Vec256) : Nodes256 :=
  broadcastInDim S20000x256 ![0, 1] bcast_S1x256_S20000x256_0_1 (broadcastInDim S1x256 ![1] bcast_S256_S1x256_1 v)
/-- A vector of length 40 repeated over the 20000 rows. -/
def full40 (v : Vec40) : Nodes40 :=
  broadcastInDim S20000x40 ![0, 1] bcast_S1x40_S20000x40_0_1 (broadcastInDim S1x40 ![1] bcast_S40_S1x40_1 v)

/-- The number of nodes, 20000, as a vector of length 256. -/
def nodes256 : Vec256 := broadcastInDim S256 ![] bcast_S_S256 (constant (F := Ideal) S_ .f32 0x469C4000#32)

/-- The aggregated matrix with the bias added to every row. -/
def biased (z : Nodes256) (b : Vec256) : Nodes256 := addf z (full256 b)
/-- The column means. -/
def muOf (h : Nodes256) : Vec256 :=
  Host.divf (Host.reduceAdd h (constant (F := Ideal) S_ .f32 0x00000000#32) reducesTo_S20000x256_S256_d0 h_S_) nodes256
/-- The column means of the squared deviations from the column means. -/
def varRef (h : Nodes256) : Vec256 :=
  Host.divf (Host.reduceAdd (mulf (subf h (full256 (muOf h))) (subf h (full256 (muOf h)))) (constant (F := Ideal) S_ .f32 0x00000000#32) reducesTo_S20000x256_S256_d0 h_S_) nodes256
/-- Normalise and rectify. -/
def normRef (h : Nodes256) (g be : Vec256) : Nodes256 :=
  maximumf (addf (mulf (mulf (full256 g) (subf h (full256 (muOf h))))
      (full256 (Host.rsqrt (addf (varRef h) (broadcastInDim S256 ![] bcast_S_S256 (constant (F := Ideal) S_ .f32 0x3727C5AC#32))))))
    (full256 be)) (broadcastInDim S20000x256 ![] bcast_S_S20000x256 (constant (F := Ideal) S_ .f32 0x00000000#32))

/-- One layer of the reference. -/
def layerRef (x : Nodes256) (w : W256) (b g be : Vec256) (ar ac : EdgeIdx) (av : EdgeVal) : Nodes256 :=
  normRef (biased (spmm256 (Host.dotGeneral dot_S20000x256_S256x256_S20000x256_1_0_0_1_n_n none x w) ar ac av) b) g be

/-- Each row's maximum, repeated along the row. -/
def rowMaxFull (h : Nodes40) : Nodes40 :=
  broadcastInDim S20000x40 ![0, 1] bcast_S20000x1_S20000x40_0_1 (broadcastInDim S20000x1 ![0] bcast_S20000_S20000x1_0
    (maximumf (broadcastInDim S20000 ![] bcast_S_S20000 (constant (F := Ideal) S_ .f32 0xFF800000#32))
      (Host.reduce FloatOps.maximumf h (constant (F := Ideal) S_ .f32 0xFF800000#32) reducesTo_S20000x40_S20000_d1 h_S_)))

/-- The row-wise logarithm of the softmax. -/
def logSoftmaxRef (h : Nodes40) : Nodes40 :=
  subf (subf h (rowMaxFull h))
    (broadcastInDim S20000x40 ![0, 1] bcast_S20000x1_S20000x40_0_1 (Host.log (broadcastInDim S20000x1 ![0] bcast_S20000_S20000x1_0
      (Host.reduceAdd (Host.exp (subf h (rowMaxFull h))) (constant (F := Ideal) S_ .f32 0x00000000#32) reducesTo_S20000x40_S20000_d1 h_S_))))

/-- The last stage of the reference. -/
def outRef (x : Nodes256) (w : W40) (b : Vec40) (ar ac : EdgeIdx) (av : EdgeVal) : Nodes40 :=
  logSoftmaxRef (addf (spmm40 (Host.dotGeneral dot_S20000x256_S256x40_S20000x40_1_0_0_1_n_n none x w) ar ac av) (full40 b))

/-! ## The operation list in three stages -/

section Stages
variable {F : FTy → Type} [FloatOps F]

/-- The first layer's operations. -/
abbrev stage1 : List (HloOp τ sig (Elt F)) :=
  [ binary main_arg0 main_arg4 main_v0 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v1 (broadcastInDim S320000x1 ![0] bcast_S320000_S320000x1_0 : (⟨S320000, .f32⟩ : BufTy).Contents (Elt F) → (⟨S320000x1, .f32⟩ : BufTy).Contents (Elt F)),
    nullary main_c (constantI S_ 32 0#32),
    unary main_c main_v2 (broadcastInDim S320000 ![] bcast_S_S320000 : (⟨S_, .i32⟩ : BufTy).Contents (Elt F) → (⟨S320000, .i32⟩ : BufTy).Contents (Elt F)),
    binary main_arg2 main_v2 main_v3 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v4 (broadcastInDim S320000 ![] bcast_S_S320000 : (⟨S_, .i32⟩ : BufTy).Contents (Elt F) → (⟨S320000, .i32⟩ : BufTy).Contents (Elt F)),
    binary main_arg2 main_v4 main_v5 (addi : (⟨S320000, .i32⟩ : BufTy).Contents (Elt F) → (⟨S320000, .i32⟩ : BufTy).Contents (Elt F) → (⟨S320000, .i32⟩ : BufTy).Contents (Elt F)),
    ternary main_v3 main_v5 main_arg2 main_v6 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v6 main_v7 (broadcastInDim S320000x1 ![0] bcast_S320000_S320000x1_0 : (⟨S320000, .i32⟩ : BufTy).Contents (Elt F) → (⟨S320000x1, .i32⟩ : BufTy).Contents (Elt F)),
    binary main_v0 main_v7 main_v8 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v1 main_v9 (broadcastInDim S320000x256 ![0, 1] bcast_S320000x1_S320000x256_0_1 : (⟨S320000x1, .f32⟩ : BufTy).Contents (Elt F) → (⟨S320000x256, .f32⟩ : BufTy).Contents (Elt F)),
    binary main_v9 main_v8 main_v10 (mulf : (⟨S320000x256, .f32⟩ : BufTy).Contents (Elt F) → (⟨S320000x256, .f32⟩ : BufTy).Contents (Elt F) → (⟨S320000x256, .f32⟩ : BufTy).Contents (Elt F)),
    nullary main_cst (constant S_ .f32 0x00000000#32),
    unary main_cst main_v11 (broadcastInDim S20000x256 ![] bcast_S_S20000x256 : (⟨S_, .f32⟩ : BufTy).Contents (Elt F) → (⟨S20000x256, .f32⟩ : BufTy).Contents (Elt F)),
    unary main_arg1 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    unary main_arg5 main_v14 (broadcastInDim S1x256 ![1] bcast_S256_S1x256_1 : (⟨S256, .f32⟩ : BufTy).Contents (Elt F) → (⟨S1x256, .f32⟩ : BufTy).Contents (Elt F)),
    unary main_v14 main_v15 (broadcastInDim S20000x256 ![0, 1] bcast_S1x256_S20000x256_0_1 : (⟨S1x256, .f32⟩ : BufTy).Contents (Elt F) → (⟨S20000x256, .f32⟩ : BufTy).Contents (Elt F)),
    binary main_v13 main_v15 main_v16 (addf : (⟨S20000x256, .f32⟩ : BufTy).Contents (Elt F) → (⟨S20000x256, .f32⟩ : BufTy).Contents (Elt F) → (⟨S20000x256, .f32⟩ : BufTy).Contents (Elt F)),
    nullary main_cst_1 (constant S_ .f32 0x00000000#32),
    binary main_v16 main_cst_1 main_v17 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_2 (constant S_ .f32 0x469C4000#32),
    unary main_cst_2 main_v18 (broadcastInDim S256 ![] bcast_S_S256 : (⟨S_, .f32⟩ : BufTy).Contents (Elt F) → (⟨S256, .f32⟩ : BufTy).Contents (Elt F)),
    binary main_v17 main_v18 main_v19 (Host.divf : (⟨S256, .f32⟩ : BufTy).Contents (Elt F) → (⟨S256, .f32⟩ : BufTy).Contents (Elt F) → (⟨S256, .f32⟩ : BufTy).Contents (Elt F)),
    unary main_v19 main_v20 (broadcastInDim S1x256 ![1] bcast_S256_S1x256_1 : (⟨S256, .f32⟩ : BufTy).Contents (Elt F) → (⟨S1x256, .f32⟩ : BufTy).Contents (Elt F)),
    unary main_v20 main_v21 (broadcastInDim S20000x256 ![0, 1] bcast_S1x256_S20000x256_0_1 : (⟨S1x256, .f32⟩ : BufTy).Contents (Elt F) → (⟨S20000x256, .f32⟩ : BufTy).Contents (Elt F)),
    binary main_v16 main_v21 main_v22 (subf : (⟨S20000x256, .f32⟩ : BufTy).Contents (Elt F) → (⟨S20000x256, .f32⟩ : BufTy).Contents (Elt F) → (⟨S20000x256, .f32⟩ : BufTy).Contents (Elt F)),
    binary main_v22 main_v22 main_v23 (mulf : (⟨S20000x256, .f32⟩ : BufTy).Contents (Elt F) → (⟨S20000x256, .f32⟩ : BufTy).Contents (Elt F) → (⟨S20000x256, .f32⟩ : BufTy).Contents (Elt F)),
    nullary main_cst_3 (constant S_ .f32 0x00000000#32),
    binary main_v23 main_cst_3 main_v24 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_4 (constant S_ .f32 0x469C4000#32),
    unary main_cst_4 main_v25 (broadcastInDim S256 ![] bcast_S_S256 : (⟨S_, .f32⟩ : BufTy).Contents (Elt F) → (⟨S256, .f32⟩ : BufTy).Contents (Elt F)),
    binary main_v24 main_v25 main_v26 (Host.divf : (⟨S256, .f32⟩ : BufTy).Contents (Elt F) → (⟨S256, .f32⟩ : BufTy).Contents (Elt F) → (⟨S256, .f32⟩ : BufTy).Contents (Elt F)),
    unary main_v19 main_v27 (broadcastInDim S1x256 ![1] bcast_S256_S1x256_1 : (⟨S256, .f32⟩ : BufTy).Contents (Elt F) → (⟨S1x256, .f32⟩ : BufTy).Contents (Elt F)),
    unary main_v27 main_v28 (broadcastInDim S20000x256 ![0, 1] bcast_S1x256_S20000x256_0_1 : (⟨S1x256, .f32⟩ : BufTy).Contents (Elt F) → (⟨S20000x256, .f32⟩ : BufTy).Contents (Elt F)),
    binary main_v16 main_v28 main_v29 (subf : (⟨S20000x256, .f32⟩ : BufTy).Contents (Elt F) → (⟨S20000x256, .f32⟩ : BufTy).Contents (Elt F) → (⟨S20000x256, .f32⟩ : BufTy).Contents (Elt F)),
    unary main_arg6 main_v30 (broadcastInDim S1x256 ![1] bcast_S256_S1x256_1 : (⟨S256, .f32⟩ : BufTy).Contents (Elt F) → (⟨S1x256, .f32⟩ : BufTy).Contents (Elt F)),
    unary main_v30 main_v31 (broadcastInDim S20000x256 ![0, 1] bcast_S1x256_S20000x256_0_1 : (⟨S1x256, .f32⟩ : BufTy).Contents (Elt F) → (⟨S20000x256, .f32⟩ : BufTy).Contents (Elt F)),
    binary main_v31 main_v29 main_v32 (mulf : (⟨S20000x256, .f32⟩ : BufTy).Contents (Elt F) → (⟨S20000x256, .f32⟩ : BufTy).Contents (Elt F) → (⟨S20000x256, .f32⟩ : BufTy).Contents (Elt F)),
    nullary main_cst_5 (constant S_ .f32 0x3727C5AC#32),
    unary main_cst_5 main_v33 (broadcastInDim S256 ![] bcast_S_S256 : (⟨S_, .f32⟩ : BufTy).Contents (Elt F) → (⟨S256, .f32⟩ : BufTy).Contents (Elt F)),
    binary main_v26 main_v33 main_v34 (addf : (⟨S256, .f32⟩ : BufTy).Contents (Elt F) → (⟨S256, .f32⟩ : BufTy).Contents (Elt F) → (⟨S256, .f32⟩ : BufTy).Contents (Elt F)),
    unary main_v34 main_v35 (Host.rsqrt : (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S20000x256 ![0, 1] bcast_S1x256_S20000x256_0_1 : (⟨S1x256, .f32⟩ : BufTy).Contents (Elt F) → (⟨S20000x256, .f32⟩ : BufTy).Contents (Elt F)),
    binary main_v32 main_v37 main_v38 (mulf : (⟨S20000x256, .f32⟩ : BufTy).Contents (Elt F) → (⟨S20000x256, .f32⟩ : BufTy).Contents (Elt F) → (⟨S20000x256, .f32⟩ : BufTy).Contents (Elt F)),
    unary main_arg7 main_v39 (broadcastInDim S1x256 ![1] bcast_S256_S1x256_1 : (⟨S256, .f32⟩ : BufTy).Contents (Elt F) → (⟨S1x256, .f32⟩ : BufTy).Contents (Elt F)),
    unary main_v39 main_v40 (broadcastInDim S20000x256 ![0, 1] bcast_S1x256_S20000x256_0_1 : (⟨S1x256, .f32⟩ : BufTy).Contents (Elt F) → (⟨S20000x256, .f32⟩ : BufTy).Contents (Elt F)),
    binary main_v38 main_v40 main_v41 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x256, .f32⟩) main_call0_v0) (broadcastInDim S20000x256 ![] bcast_S_S20000x256),
    TRef.binary (TRef.of (T := ⟨S20000x256, .f32⟩) main_v41) (TRef.of (T := ⟨S20000x256, .f32⟩) main_call0_v0) (TRef.of (T := ⟨S20000x256, .f32⟩) main_v42) maximumf ]

/-- The second layer's operations. -/
abbrev stage2 : List (HloOp τ sig (Elt F)) :=
  [ binary main_v42 main_arg8 main_v43 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg3 main_v44 (broadcastInDim S320000x1 ![0] bcast_S320000_S320000x1_0 : (⟨S320000, .f32⟩ : BufTy).Contents (Elt F) → (⟨S320000x1, .f32⟩ : BufTy).Contents (Elt F)),
    nullary main_c_6 (constantI S_ 32 0#32),
    unary main_c_6 main_v45 (broadcastInDim S320000 ![] bcast_S_S320000 : (⟨S_, .i32⟩ : BufTy).Contents (Elt F) → (⟨S320000, .i32⟩ : BufTy).Contents (Elt F)),
    binary main_arg2 main_v45 main_v46 (cmpi .slt : (⟨S320000, .i32⟩ : BufTy).Contents (Elt F) → (⟨S320000, .i32⟩ : BufTy).Contents (Elt F) → (⟨S320000, .i1⟩ : BufTy).Contents (Elt F)),
    nullary main_c_7 (constantI S_ 32 20000#32),
    unary main_c_7 main_v47 (broadcastInDim S320000 ![] bcast_S_S320000 : (⟨S_, .i32⟩ : BufTy).Contents (Elt F) → (⟨S320000, .i32⟩ : BufTy).Contents (Elt F)),
    binary main_arg2 main_v47 main_v48 (addi : (⟨S320000, .i32⟩ : BufTy).Contents (Elt F) → (⟨S320000, .i32⟩ : BufTy).Contents (Elt F) → (⟨S320000, .i32⟩ : BufTy).Contents (Elt F)),
    ternary main_v46 main_v48 main_arg2 main_v49 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v49 main_v50 (broadcastInDim S320000x1 ![0] bcast_S320000_S320000x1_0 : (⟨S320000, .i32⟩ : BufTy).Contents (Elt F) → (⟨S320000x1, .i32⟩ : BufTy).Contents (Elt F)),
    binary main_v43 main_v50 main_v51 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    unary main_v44 main_v52 (broadcastInDim S320000x256 ![0, 1] bcast_S320000x1_S320000x256_0_1 : (⟨S320000x1, .f32⟩ : BufTy).Contents (Elt F) → (⟨S320000x256, .f32⟩ : BufTy).Contents (Elt F)),
    binary main_v52 main_v51 main_v53 (mulf : (⟨S320000x256, .f32⟩ : BufTy).Contents (Elt F) → (⟨S320000x256, .f32⟩ : BufTy).Contents (Elt F) → (⟨S320000x256, .f32⟩ : BufTy).Contents (Elt F)),
    nullary main_cst_8 (constant S_ .f32 0x00000000#32),
    unary main_cst_8 main_v54 (broadcastInDim S20000x256 ![] bcast_S_S20000x256 : (⟨S_, .f32⟩ : BufTy).Contents (Elt F) → (⟨S20000x256, .f32⟩ : BufTy).Contents (Elt F)),
    unary main_arg1 main_v55 (broadcastInDim S320000x1 ![0] bcast_S320000_S320000x1_0 : (⟨S320000, .i32⟩ : BufTy).Contents (Elt F) → (⟨S320000x1, .i32⟩ : BufTy).Contents (Elt F)),
    ternary main_v54 main_v55 main_v53 main_v56 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    unary main_arg9 main_v57 (broadcastInDim S1x256 ![1] bcast_S256_S1x256_1 : (⟨S256, .f32⟩ : BufTy).Contents (Elt F) → (⟨S1x256, .f32⟩ : BufTy).Contents (Elt F)),
    unary main_v57 main_v58 (broadcastInDim S20000x256 ![0, 1] bcast_S1x256_S20000x256_0_1 : (⟨S1x256, .f32⟩ : BufTy).Contents (Elt F) → (⟨S20000x256, .f32⟩ : BufTy).Contents (Elt F)),
    binary main_v56 main_v58 main_v59 (addf : (⟨S20000x256, .f32⟩ : BufTy).Contents (Elt F) → (⟨S20000x256, .f32⟩ : BufTy).Contents (Elt F) → (⟨S20000x256, .f32⟩ : BufTy).Contents (Elt F)),
    nullary main_cst_9 (constant S_ .f32 0x00000000#32),
    binary main_v59 main_cst_9 main_v60 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_10 (constant S_ .f32 0x469C4000#32),
    unary main_cst_10 main_v61 (broadcastInDim S256 ![] bcast_S_S256 : (⟨S_, .f32⟩ : BufTy).Contents (Elt F) → (⟨S256, .f32⟩ : BufTy).Contents (Elt F)),
    binary main_v60 main_v61 main_v62 (Host.divf : (⟨S256, .f32⟩ : BufTy).Contents (Elt F) → (⟨S256, .f32⟩ : BufTy).Contents (Elt F) → (⟨S256, .f32⟩ : BufTy).Contents (Elt F)),
    unary main_v62 main_v63 (broadcastInDim S1x256 ![1] bcast_S256_S1x256_1 : (⟨S256, .f32⟩ : BufTy).Contents (Elt F) → (⟨S1x256, .f32⟩ : BufTy).Contents (Elt F)),
    unary main_v63 main_v64 (broadcastInDim S20000x256 ![0, 1] bcast_S1x256_S20000x256_0_1 : (⟨S1x256, .f32⟩ : BufTy).Contents (Elt F) → (⟨S20000x256, .f32⟩ : BufTy).Contents (Elt F)),
    binary main_v59 main_v64 main_v65 (subf : (⟨S20000x256, .f32⟩ : BufTy).Contents (Elt F) → (⟨S20000x256, .f32⟩ : BufTy).Contents (Elt F) → (⟨S20000x256, .f32⟩ : BufTy).Contents (Elt F)),
    binary main_v65 main_v65 main_v66 (mulf : (⟨S20000x256, .f32⟩ : BufTy).Contents (Elt F) → (⟨S20000x256, .f32⟩ : BufTy).Contents (Elt F) → (⟨S20000x256, .f32⟩ : BufTy).Contents (Elt F)),
    nullary main_cst_11 (constant S_ .f32 0x00000000#32),
    binary main_v66 main_cst_11 main_v67 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    nullary main_cst_12 (constant S_ .f32 0x469C4000#32),
    unary main_cst_12 main_v68 (broadcastInDim S256 ![] bcast_S_S256 : (⟨S_, .f32⟩ : BufTy).Contents (Elt F) → (⟨S256, .f32⟩ : BufTy).Contents (Elt F)),
    binary main_v67 main_v68 main_v69 (Host.divf : (⟨S256, .f32⟩ : BufTy).Contents (Elt F) → (⟨S256, .f32⟩ : BufTy).Contents (Elt F) → (⟨S256, .f32⟩ : BufTy).Contents (Elt F)),
    unary main_v62 main_v70 (broadcastInDim S1x256 ![1] bcast_S256_S1x256_1 : (⟨S256, .f32⟩ : BufTy).Contents (Elt F) → (⟨S1x256, .f32⟩ : BufTy).Contents (Elt F)),
    unary main_v70 main_v71 (broadcastInDim S20000x256 ![0, 1] bcast_S1x256_S20000x256_0_1 : (⟨S1x256, .f32⟩ : BufTy).Contents (Elt F) → (⟨S20000x256, .f32⟩ : BufTy).Contents (Elt F)),
    binary main_v59 main_v71 main_v72 (subf : (⟨S20000x256, .f32⟩ : BufTy).Contents (Elt F) → (⟨S20000x256, .f32⟩ : BufTy).Contents (Elt F) → (⟨S20000x256, .f32⟩ : BufTy).Contents (Elt F)),
    unary main_arg10 main_v73 (broadcastInDim S1x256 ![1] bcast_S256_S1x256_1 : (⟨S256, .f32⟩ : BufTy).Contents (Elt F) → (⟨S1x256, .f32⟩ : BufTy).Contents (Elt F)),
    unary main_v73 main_v74 (broadcastInDim S20000x256 ![0, 1] bcast_S1x256_S20000x256_0_1 : (⟨S1x256, .f32⟩ : BufTy).Contents (Elt F) → (⟨S20000x256, .f32⟩ : BufTy).Contents (Elt F)),
    binary main_v74 main_v72 main_v75 (mulf : (⟨S20000x256, .f32⟩ : BufTy).Contents (Elt F) → (⟨S20000x256, .f32⟩ : BufTy).Contents (Elt F) → (⟨S20000x256, .f32⟩ : BufTy).Contents (Elt F)),
    nullary main_cst_13 (constant S_ .f32 0x3727C5AC#32),
    unary main_cst_13 main_v76 (broadcastInDim S256 ![] bcast_S_S256 : (⟨S_, .f32⟩ : BufTy).Contents (Elt F) → (⟨S256, .f32⟩ : BufTy).Contents (Elt F)),
    binary main_v69 main_v76 main_v77 (addf : (⟨S256, .f32⟩ : BufTy).Contents (Elt F) → (⟨S256, .f32⟩ : BufTy).Contents (Elt F) → (⟨S256, .f32⟩ : BufTy).Contents (Elt F)),
    unary main_v77 main_v78 (Host.rsqrt : (⟨S256, .f32⟩ : BufTy).Contents (Elt F) → (⟨S256, .f32⟩ : BufTy).Contents (Elt F)),
    unary main_v78 main_v79 (broadcastInDim S1x256 ![1] bcast_S256_S1x256_1 : (⟨S256, .f32⟩ : BufTy).Contents (Elt F) → (⟨S1x256, .f32⟩ : BufTy).Contents (Elt F)),
    unary main_v79 main_v80 (broadcastInDim S20000x256 ![0, 1] bcast_S1x256_S20000x256_0_1 : (⟨S1x256, .f32⟩ : BufTy).Contents (Elt F) → (⟨S20000x256, .f32⟩ : BufTy).Contents (Elt F)),
    binary main_v75 main_v80 main_v81 (mulf : (⟨S20000x256, .f32⟩ : BufTy).Contents (Elt F) → (⟨S20000x256, .f32⟩ : BufTy).Contents (Elt F) → (⟨S20000x256, .f32⟩ : BufTy).Contents (Elt F)),
    unary main_arg11 main_v82 (broadcastInDim S1x256 ![1] bcast_S256_S1x256_1 : (⟨S256, .f32⟩ : BufTy).Contents (Elt F) → (⟨S1x256, .f32⟩ : BufTy).Contents (Elt F)),
    unary main_v82 main_v83 (broadcastInDim S20000x256 ![0, 1] bcast_S1x256_S20000x256_0_1 : (⟨S1x256, .f32⟩ : BufTy).Contents (Elt F) → (⟨S20000x256, .f32⟩ : BufTy).Contents (Elt F)),
    binary main_v81 main_v83 main_v84 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v84) (TRef.of (T := ⟨S20000x256, .f32⟩) main_call1_v0) (TRef.of (T := ⟨S20000x256, .f32⟩) main_v85) maximumf ]

/-- The last stage's operations. -/
abbrev stage3 : List (HloOp τ sig (Elt F)) :=
  [ binary main_v85 main_arg12 main_v86 ((fun l r => Host.dotGeneral dot_S20000x256_S256x40_S20000x40_1_0_0_1_n_n none l r) : (⟨S20000x256, .f32⟩ : BufTy).Contents (Elt F) → (⟨S256x40, .f32⟩ : BufTy).Contents (Elt F) → (⟨S20000x40, .f32⟩ : BufTy).Contents (Elt F)),
    unary main_arg3 main_v87 (broadcastInDim S320000x1 ![0] bcast_S320000_S320000x1_0 : (⟨S320000, .f32⟩ : BufTy).Contents (Elt F) → (⟨S320000x1, .f32⟩ : BufTy).Contents (Elt F)),
    nullary main_c_14 (constantI S_ 32 0#32),
    unary main_c_14 main_v88 (broadcastInDim S320000 ![] bcast_S_S320000 : (⟨S_, .i32⟩ : BufTy).Contents (Elt F) → (⟨S320000, .i32⟩ : BufTy).Contents (Elt F)),
    binary main_arg2 main_v88 main_v89 (cmpi .slt : (⟨S320000, .i32⟩ : BufTy).Contents (Elt F) → (⟨S320000, .i32⟩ : BufTy).Contents (Elt F) → (⟨S320000, .i1⟩ : BufTy).Contents (Elt F)),
    nullary main_c_15 (constantI S_ 32 20000#32),
    unary main_c_15 main_v90 (broadcastInDim S320000 ![] bcast_S_S320000 : (⟨S_, .i32⟩ : BufTy).Contents (Elt F) → (⟨S320000, .i32⟩ : BufTy).Contents (Elt F)),
    binary main_arg2 main_v90 main_v91 (addi : (⟨S320000, .i32⟩ : BufTy).Contents (Elt F) → (⟨S320000, .i32⟩ : BufTy).Contents (Elt F) → (⟨S320000, .i32⟩ : BufTy).Contents (Elt F)),
    ternary main_v89 main_v91 main_arg2 main_v92 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v92 main_v93 (broadcastInDim S320000x1 ![0] bcast_S320000_S320000x1_0 : (⟨S320000, .i32⟩ : BufTy).Contents (Elt F) → (⟨S320000x1, .i32⟩ : BufTy).Contents (Elt F)),
    binary main_v86 main_v93 main_v94 ((fun x i => Host.gather gather_S20000x40_S320000x1_S320000x40_1_0_n_n_0_1_140 x i) : (⟨S20000x40, .f32⟩ : BufTy).Contents (Elt F) → (⟨S320000x1, .i32⟩ : BufTy).Contents (Elt F) → (⟨S320000x40, .f32⟩ : BufTy).Contents (Elt F)),
    unary main_v87 main_v95 (broadcastInDim S320000x40 ![0, 1] bcast_S320000x1_S320000x40_0_1 : (⟨S320000x1, .f32⟩ : BufTy).Contents (Elt F) → (⟨S320000x40, .f32⟩ : BufTy).Contents (Elt F)),
    binary main_v95 main_v94 main_v96 (mulf : (⟨S320000x40, .f32⟩ : BufTy).Contents (Elt F) → (⟨S320000x40, .f32⟩ : BufTy).Contents (Elt F) → (⟨S320000x40, .f32⟩ : BufTy).Contents (Elt F)),
    nullary main_cst_16 (constant S_ .f32 0x00000000#32),
    unary main_cst_16 main_v97 (broadcastInDim S20000x40 ![] bcast_S_S20000x40 : (⟨S_, .f32⟩ : BufTy).Contents (Elt F) → (⟨S20000x40, .f32⟩ : BufTy).Contents (Elt F)),
    unary main_arg1 main_v98 (broadcastInDim S320000x1 ![0] bcast_S320000_S320000x1_0 : (⟨S320000, .i32⟩ : BufTy).Contents (Elt F) → (⟨S320000x1, .i32⟩ : BufTy).Contents (Elt F)),
    ternary main_v97 main_v98 main_v96 main_v99 ((fun x i u => Host.scatterAdd scatter_S20000x40_S320000x1_S320000x40_1_0_0_1 x i u) : (⟨S20000x40, .f32⟩ : BufTy).Contents (Elt F) → (⟨S320000x1, .i32⟩ : BufTy).Contents (Elt F) → (⟨S320000x40, .f32⟩ : BufTy).Contents (Elt F) → (⟨S20000x40, .f32⟩ : BufTy).Contents (Elt F)),
    unary main_arg13 main_v100 (broadcastInDim S1x40 ![1] bcast_S40_S1x40_1 : (⟨S40, .f32⟩ : BufTy).Contents (Elt F) → (⟨S1x40, .f32⟩ : BufTy).Contents (Elt F)),
    unary main_v100 main_v101 (broadcastInDim S20000x40 ![0, 1] bcast_S1x40_S20000x40_0_1 : (⟨S1x40, .f32⟩ : BufTy).Contents (Elt F) → (⟨S20000x40, .f32⟩ : BufTy).Contents (Elt F)),
    binary main_v99 main_v101 main_v102 (addf : (⟨S20000x40, .f32⟩ : BufTy).Contents (Elt F) → (⟨S20000x40, .f32⟩ : BufTy).Contents (Elt F) → (⟨S20000x40, .f32⟩ : BufTy).Contents (Elt F)),
    TRef.nullary (TRef.of (T := ⟨S_, .f32⟩) main_call2_cst) (constant S_ .f32 0xFF800000#32),
    TRef.binary (TRef.of (T := ⟨S20000x40, .f32⟩) main_v102) (TRef.of (T := ⟨S_, .f32⟩) main_call2_cst) (TRef.of (T := ⟨S20000, .f32⟩) main_call2_v0) (fun x v => Host.reduce FloatOps.maximumf x v reducesTo_S20000x40_S20000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S20000, .f32⟩) main_call2_v1) (broadcastInDim S20000 ![] bcast_S_S20000),
    TRef.binary (TRef.of (T := ⟨S20000, .f32⟩) main_call2_v1) (TRef.of (T := ⟨S20000, .f32⟩) main_call2_v0) (TRef.of (T := ⟨S20000, .f32⟩) main_call2_v2) maximumf,
    TRef.unary (TRef.of (T := ⟨S20000, .f32⟩) main_call2_v2) (TRef.of (T := ⟨S20000x1, .f32⟩) main_call2_v3) (broadcastInDim S20000x1 ![0] bcast_S20000_S20000x1_0),
    TRef.unary (TRef.of (T := ⟨S20000x1, .f32⟩) main_call2_v3) (TRef.of (T := ⟨S20000x40, .f32⟩) main_call2_v4) (broadcastInDim S20000x40 ![0, 1] bcast_S20000x1_S20000x40_0_1),
    TRef.binary (TRef.of (T := ⟨S20000x40, .f32⟩) main_v102) (TRef.of (T := ⟨S20000x40, .f32⟩) main_call2_v4) (TRef.of (T := ⟨S20000x40, .f32⟩) main_call2_v5) subf,
    TRef.unary (TRef.of (T := ⟨S20000x40, .f32⟩) main_call2_v5) (TRef.of (T := ⟨S20000x40, .f32⟩) main_call2_v6) Host.exp,
    TRef.nullary (TRef.of (T := ⟨S_, .f32⟩) main_call2_cst_1) (constant S_ .f32 0x00000000#32),
    TRef.binary (TRef.of (T := ⟨S20000x40, .f32⟩) main_call2_v6) (TRef.of (T := ⟨S_, .f32⟩) main_call2_cst_1) (TRef.of (T := ⟨S20000, .f32⟩) main_call2_v7) (fun x v => Host.reduceAdd x v reducesTo_S20000x40_S20000_d1 h_S_),
    TRef.unary (TRef.of (T := ⟨S20000, .f32⟩) main_call2_v7) (TRef.of (T := ⟨S20000x1, .f32⟩) main_call2_v8) (broadcastInDim S20000x1 ![0] bcast_S20000_S20000x1_0),
    TRef.unary (TRef.of (T := ⟨S20000x1, .f32⟩) main_call2_v8) (TRef.of (T := ⟨S20000x1, .f32⟩) main_call2_v9) Host.log,
    TRef.unary (TRef.of (T := ⟨S20000x1, .f32⟩) main_call2_v9) (TRef.of (T := ⟨S20000x40, .f32⟩) main_call2_v10) (broadcastInDim S20000x40 ![0, 1] bcast_S20000x1_S20000x40_0_1),
    TRef.binary (TRef.of (T := ⟨S20000x40, .f32⟩) main_call2_v5) (TRef.of (T := ⟨S20000x40, .f32⟩) main_call2_v10) (TRef.of (T := ⟨S20000x40, .f32⟩) main_v103) subf ]

theorem ops_eq : (ops : List (HloOp τ sig (Elt F))) = stage1 ++ (stage2 ++ stage3) := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Stages

variable (V : Valuation τ sig (Elt Ideal))

set_option maxHeartbeats 4000000 in
/-- The first stage ends with the first layer's output at the layer function of the arrays it started from. -/
theorem stage1_out : after (stage1 (F := Ideal)) V (Proc.devRef .tc main_v42)
    = layerRef (V (Proc.devRef .tc main_arg0)) (V (Proc.devRef .tc main_arg4)) (V (Proc.devRef .tc main_arg5)) (V (Proc.devRef .tc main_arg6))
        (V (Proc.devRef .tc main_arg7)) (V (Proc.devRef .tc main_arg1)) (V (Proc.devRef .tc main_arg2)) (V (Proc.devRef .tc main_arg3)) := by
  after_results_simp <;> rfl

end Cert.ReferenceIdeal.Net

end
-- ==== Proof.RefChain.lean ====
/-
  The reference computation as the composition of its three stages.

  The operation list is the first layer's operations, then the second layer's, then the last stage's. No operation
  writes an argument array, so every argument passes through every stage unchanged; and a stage's result is the
  stage's function of the arrays the stage started from. Hence the final result is the last stage's function of the
  second layer's output, which is the layer function of the first layer's output, which is the layer function of the
  arguments.
-/
import proofs.«165878_j21122649162596_1_alg».proof.Proof.RefNet
import Idealize.ShloMosaic.Lib.StableHlo.Run

set_option maxRecDepth 16384

noncomputable section

namespace Cert.ReferenceIdeal.Net

open Cert.ReferenceIdeal Cert.ReferenceIdeal.Gen Cert.ReferenceIdeal.ValueP Idealize.ShloMosaic Idealize.ShloMosaic.TcCoe Idealize.SL.Sem Idealize.ShloMosaic.StableHlo

variable (V : Valuation τ sig (Elt Ideal))

/-! ## The arrays a stage does not write pass through it unchanged -/

/-- The buffers the operations of stage 1 write, in order. -/
def written1 : List (Ref sig .tc) := [main_v0, main_v1, main_c, main_v2, main_v3, main_c_0, main_v4, main_v5, main_v6, main_v7, main_v8, main_v9, main_v10, main_cst, main_v11, main_v12, main_v13, main_v14, main_v15, main_v16, main_cst_1, main_v17, main_cst_2, main_v18, main_v19, main_v20, main_v21, main_v22, main_v23, main_cst_3, main_v24, main_cst_4, main_v25, main_v26, main_v27, main_v28, main_v29, main_v30, main_v31, main_v32, main_cst_5, main_v33, main_v34, main_v35, main_v36, main_v37, main_v38, main_v39, main_v40, main_v41, main_call0_cst, main_call0_v0, main_v42]

/-- Every operation of stage 1 writes one of them. -/
theorem stage1_writes : (stage1 (F := Ideal)).Forall fun op => op.writes ⊆ ((written1).map (Proc.devRef (τ := τ) .tc)).toFinset := by
  simp only [List.Forall, StableHlo.nullary_writes, StableHlo.unary_writes, StableHlo.binary_writes, StableHlo.ternary_writes,
    Finset.singleton_subset_iff, List.mem_toFinset, List.mem_map]
  repeat' apply And.intro
  all_goals exact ⟨_, by decide, rfl⟩

/-- A buffer that stage 1 does not write passes through it unchanged. -/
theorem stage1_keep (b : Ref sig .tc) (hb : b ∉ written1) :
    after (stage1 (F := Ideal)) V (Proc.devRef .tc b) = V (Proc.devRef .tc b) :=
  after_of_writes_sub (stage1 (F := Ideal)) V stage1_writes hb

/-- The buffers the operations of stage 2 write, in order. -/
def written2 : List (Ref sig .tc) := [main_v43, main_v44, main_c_6, main_v45, main_v46, main_c_7, main_v47, main_v48, main_v49, main_v50, main_v51, main_v52, main_v53, main_cst_8, main_v54, main_v55, main_v56, main_v57, main_v58, main_v59, main_cst_9, main_v60, main_cst_10, main_v61, main_v62, main_v63, main_v64, main_v65, main_v66, main_cst_11, main_v67, main_cst_12, main_v68, main_v69, main_v70, main_v71, main_v72, main_v73, main_v74, main_v75, main_cst_13, main_v76, main_v77, main_v78, main_v79, main_v80, main_v81, main_v82, main_v83, main_v84, main_call1_cst, main_call1_v0, main_v85]

/-- Every operation of stage 2 writes one of them. -/
theorem stage2_writes : (stage2 (F := Ideal)).Forall fun op => op.writes ⊆ ((written2).map (Proc.devRef (τ := τ) .tc)).toFinset := by
  simp only [List.Forall, StableHlo.nullary_writes, StableHlo.unary_writes, StableHlo.binary_writes, StableHlo.ternary_writes,
    Finset.singleton_subset_iff, List.mem_toFinset, List.mem_map]
  repeat' apply And.intro
  all_goals exact ⟨_, by decide, rfl⟩

/-- A buffer that stage 2 does not write passes through it unchanged. -/
theorem stage2_keep (b : Ref sig .tc) (hb : b ∉ written2) :
    after (stage2 (F := Ideal)) V (Proc.devRef .tc b) = V (Proc.devRef .tc b) :=
  after_of_writes_sub (stage2 (F := Ideal)) V stage2_writes hb

/-- The buffers the operations of stage 3 write, in order. -/
def written3 : List (Ref sig .tc) := [main_v86, main_v87, main_c_14, main_v88, main_v89, main_c_15, main_v90, main_v91, main_v92, main_v93, main_v94, main_v95, main_v96, main_cst_16, main_v97, main_v98, main_v99, main_v100, main_v101, main_v102, main_call2_cst, main_call2_v0, main_call2_cst_0, main_call2_v1, main_call2_v2, main_call2_v3, main_call2_v4, main_call2_v5, main_call2_v6, main_call2_cst_1, main_call2_v7, main_call2_v8, main_call2_v9, main_call2_v10, main_v103]

/-- Every operation of stage 3 writes one of them. -/
theorem stage3_writes : (stage3 (F := Ideal)).Forall fun op => op.writes ⊆ ((written3).map (Proc.devRef (τ := τ) .tc)).toFinset := by
  simp only [List.Forall, StableHlo.nullary_writes, StableHlo.unary_writes, StableHlo.binary_writes, StableHlo.ternary_writes,
    Finset.singleton_subset_iff, List.mem_toFinset, List.mem_map]
  repeat' apply And.intro
  all_goals exact ⟨_, by decide, rfl⟩

/-- A buffer that stage 3 does not write passes through it unchanged. -/
theorem stage3_keep (b : Ref sig .tc) (hb : b ∉ written3) :
    after (stage3 (F := Ideal)) V (Proc.devRef .tc b) = V (Proc.devRef .tc b) :=
  after_of_writes_sub (stage3 (F := Ideal)) V stage3_writes hb

/-! ### The fourteen arguments, stage by stage -/

theorem keep1_arg0 : after (stage1 (F := Ideal)) V (Proc.devRef .tc main_arg0) = V (Proc.devRef .tc main_arg0) :=
  stage1_keep V main_arg0 (by decide)

theorem keep1_arg1 : after (stage1 (F := Ideal)) V (Proc.devRef .tc main_arg1) = V (Proc.devRef .tc main_arg1) :=
  stage1_keep V main_arg1 (by decide)

theorem keep1_arg2 : after (stage1 (F := Ideal)) V (Proc.devRef .tc main_arg2) = V (Proc.devRef .tc main_arg2) :=
  stage1_keep V main_arg2 (by decide)

theorem keep1_arg3 : after (stage1 (F := Ideal)) V (Proc.devRef .tc main_arg3) = V (Proc.devRef .tc main_arg3) :=
  stage1_keep V main_arg3 (by decide)

theorem keep1_arg4 : after (stage1 (F := Ideal)) V (Proc.devRef .tc main_arg4) = V (Proc.devRef .tc main_arg4) :=
  stage1_keep V main_arg4 (by decide)

theorem keep1_arg5 : after (stage1 (F := Ideal)) V (Proc.devRef .tc main_arg5) = V (Proc.devRef .tc main_arg5) :=
  stage1_keep V main_arg5 (by decide)

theorem keep1_arg6 : after (stage1 (F := Ideal)) V (Proc.devRef .tc main_arg6) = V (Proc.devRef .tc main_arg6) :=
  stage1_keep V main_arg6 (by decide)

theorem keep1_arg7 : after (stage1 (F := Ideal)) V (Proc.devRef .tc main_arg7) = V (Proc.devRef .tc main_arg7) :=
  stage1_keep V main_arg7 (by decide)

theorem keep1_arg8 : after (stage1 (F := Ideal)) V (Proc.devRef .tc main_arg8) = V (Proc.devRef .tc main_arg8) :=
  stage1_keep V main_arg8 (by decide)

theorem keep1_arg9 : after (stage1 (F := Ideal)) V (Proc.devRef .tc main_arg9) = V (Proc.devRef .tc main_arg9) :=
  stage1_keep V main_arg9 (by decide)

theorem keep1_arg10 : after (stage1 (F := Ideal)) V (Proc.devRef .tc main_arg10) = V (Proc.devRef .tc main_arg10) :=
  stage1_keep V main_arg10 (by decide)

theorem keep1_arg11 : after (stage1 (F := Ideal)) V (Proc.devRef .tc main_arg11) = V (Proc.devRef .tc main_arg11) :=
  stage1_keep V main_arg11 (by decide)

theorem keep1_arg12 : after (stage1 (F := Ideal)) V (Proc.devRef .tc main_arg12) = V (Proc.devRef .tc main_arg12) :=
  stage1_keep V main_arg12 (by decide)

theorem keep1_arg13 : after (stage1 (F := Ideal)) V (Proc.devRef .tc main_arg13) = V (Proc.devRef .tc main_arg13) :=
  stage1_keep V main_arg13 (by decide)

theorem keep2_arg0 : after (stage2 (F := Ideal)) V (Proc.devRef .tc main_arg0) = V (Proc.devRef .tc main_arg0) :=
  stage2_keep V main_arg0 (by decide)

theorem keep2_arg1 : after (stage2 (F := Ideal)) V (Proc.devRef .tc main_arg1) = V (Proc.devRef .tc main_arg1) :=
  stage2_keep V main_arg1 (by decide)

theorem keep2_arg2 : after (stage2 (F := Ideal)) V (Proc.devRef .tc main_arg2) = V (Proc.devRef .tc main_arg2) :=
  stage2_keep V main_arg2 (by decide)

theorem keep2_arg3 : after (stage2 (F := Ideal)) V (Proc.devRef .tc main_arg3) = V (Proc.devRef .tc main_arg3) :=
  stage2_keep V main_arg3 (by decide)

theorem keep2_arg4 : after (stage2 (F := Ideal)) V (Proc.devRef .tc main_arg4) = V (Proc.devRef .tc main_arg4) :=
  stage2_keep V main_arg4 (by decide)

theorem keep2_arg5 : after (stage2 (F := Ideal)) V (Proc.devRef .tc main_arg5) = V (Proc.devRef .tc main_arg5) :=
  stage2_keep V main_arg5 (by decide)

theorem keep2_arg6 : after (stage2 (F := Ideal)) V (Proc.devRef .tc main_arg6) = V (Proc.devRef .tc main_arg6) :=
  stage2_keep V main_arg6 (by decide)

theorem keep2_arg7 : after (stage2 (F := Ideal)) V (Proc.devRef .tc main_arg7) = V (Proc.devRef .tc main_arg7) :=
  stage2_keep V main_arg7 (by decide)

theorem keep2_arg8 : after (stage2 (F := Ideal)) V (Proc.devRef .tc main_arg8) = V (Proc.devRef .tc main_arg8) :=
  stage2_keep V main_arg8 (by decide)

theorem keep2_arg9 : after (stage2 (F := Ideal)) V (Proc.devRef .tc main_arg9) = V (Proc.devRef .tc main_arg9) :=
  stage2_keep V main_arg9 (by decide)

theorem keep2_arg10 : after (stage2 (F := Ideal)) V (Proc.devRef .tc main_arg10) = V (Proc.devRef .tc main_arg10) :=
  stage2_keep V main_arg10 (by decide)

theorem keep2_arg11 : after (stage2 (F := Ideal)) V (Proc.devRef .tc main_arg11) = V (Proc.devRef .tc main_arg11) :=
  stage2_keep V main_arg11 (by decide)

theorem keep2_arg12 : after (stage2 (F := Ideal)) V (Proc.devRef .tc main_arg12) = V (Proc.devRef .tc main_arg12) :=
  stage2_keep V main_arg12 (by decide)

theorem keep2_arg13 : after (stage2 (F := Ideal)) V (Proc.devRef .tc main_arg13) = V (Proc.devRef .tc main_arg13) :=
  stage2_keep V main_arg13 (by decide)

theorem keep3_arg0 : after (stage3 (F := Ideal)) V (Proc.devRef .tc main_arg0) = V (Proc.devRef .tc main_arg0) :=
  stage3_keep V main_arg0 (by decide)

theorem keep3_arg1 : after (stage3 (F := Ideal)) V (Proc.devRef .tc main_arg1) = V (Proc.devRef .tc main_arg1) :=
  stage3_keep V main_arg1 (by decide)

theorem keep3_arg2 : after (stage3 (F := Ideal)) V (Proc.devRef .tc main_arg2) = V (Proc.devRef .tc main_arg2) :=
  stage3_keep V main_arg2 (by decide)

theorem keep3_arg3 : after (stage3 (F := Ideal)) V (Proc.devRef .tc main_arg3) = V (Proc.devRef .tc main_arg3) :=
  stage3_keep V main_arg3 (by decide)

theorem keep3_arg4 : after (stage3 (F := Ideal)) V (Proc.devRef .tc main_arg4) = V (Proc.devRef .tc main_arg4) :=
  stage3_keep V main_arg4 (by decide)

theorem keep3_arg5 : after (stage3 (F := Ideal)) V (Proc.devRef .tc main_arg5) = V (Proc.devRef .tc main_arg5) :=
  stage3_keep V main_arg5 (by decide)

theorem keep3_arg6 : after (stage3 (F := Ideal)) V (Proc.devRef .tc main_arg6) = V (Proc.devRef .tc main_arg6) :=
  stage3_keep V main_arg6 (by decide)

theorem keep3_arg7 : after (stage3 (F := Ideal)) V (Proc.devRef .tc main_arg7) = V (Proc.devRef .tc main_arg7) :=
  stage3_keep V main_arg7 (by decide)

theorem keep3_arg8 : after (stage3 (F := Ideal)) V (Proc.devRef .tc main_arg8) = V (Proc.devRef .tc main_arg8) :=
  stage3_keep V main_arg8 (by decide)

theorem keep3_arg9 : after (stage3 (F := Ideal)) V (Proc.devRef .tc main_arg9) = V (Proc.devRef .tc main_arg9) :=
  stage3_keep V main_arg9 (by decide)

theorem keep3_arg10 : after (stage3 (F := Ideal)) V (Proc.devRef .tc main_arg10) = V (Proc.devRef .tc main_arg10) :=
  stage3_keep V main_arg10 (by decide)

theorem keep3_arg11 : after (stage3 (F := Ideal)) V (Proc.devRef .tc main_arg11) = V (Proc.devRef .tc main_arg11) :=
  stage3_keep V main_arg11 (by decide)

theorem keep3_arg12 : after (stage3 (F := Ideal)) V (Proc.devRef .tc main_arg12) = V (Proc.devRef .tc main_arg12) :=
  stage3_keep V main_arg12 (by decide)

theorem keep3_arg13 : after (stage3 (F := Ideal)) V (Proc.devRef .tc main_arg13) = V (Proc.devRef .tc main_arg13) :=
  stage3_keep V main_arg13 (by decide)

/-! ## The second and the last stage's results -/

/-- Contents carried to a buffer's own type and back are unchanged: the two transports are along one equation. -/
theorem ofBuf_toBuf_cancel {Val : EltTy → Type} {T : BufTy} (x : TRef sig T) (v : T.Contents Val) : x.ofBuf (x.toBuf v) = v := by
  obtain ⟨r, h, _, _⟩ := x
  subst h
  rfl

set_option maxHeartbeats 4000000 in
/-- The second stage ends with the second layer's output at the layer function of the arrays it started from. -/
theorem stage2_out : after (stage2 (F := Ideal)) V (Proc.devRef .tc main_v85)
    = layerRef (V (Proc.devRef .tc main_v42)) (V (Proc.devRef .tc main_arg8)) (V (Proc.devRef .tc main_arg9)) (V (Proc.devRef .tc main_arg10))
        (V (Proc.devRef .tc main_arg11)) (V (Proc.devRef .tc main_arg1)) (V (Proc.devRef .tc main_arg2)) (V (Proc.devRef .tc main_arg3)) := by
  after_results_simp <;> rfl

set_option maxHeartbeats 4000000 in
/-- The last stage ends with the result at the last stage's function of the arrays it started from. -/
theorem stage3_out : after (stage3 (F := Ideal)) V (Proc.devRef .tc main_v103)
    = outRef (V (Proc.devRef .tc main_v85)) (V (Proc.devRef .tc main_arg12)) (V (Proc.devRef .tc main_arg13))
        (V (Proc.devRef .tc main_arg1)) (V (Proc.devRef .tc main_arg2)) (V (Proc.devRef .tc main_arg3)) := by
  after_results_simp
  simp only [ofBuf_toBuf_cancel]
  rfl

/-! ## The whole list -/

/-- The contents after the whole list are those after the last stage, run from those after the second, run from those
    after the first. -/
theorem ops_split : after (ops (F := Ideal)) V = after (stage3 (F := Ideal)) (after (stage2 (F := Ideal)) (after (stage1 (F := Ideal)) V)) :=
  (congrArg (fun l => after l V) (ops_eq (F := Ideal))).trans
    ((after_append (stage1 (F := Ideal)) (stage2 ++ stage3) V).trans (after_append (stage2 (F := Ideal)) stage3 (after stage1 V)))

/-- The result of the whole list: the last stage's function of the second layer of the first layer of the arguments. -/
theorem ops_result : after (ops (F := Ideal)) V (Proc.devRef .tc main_v103)
    = outRef (layerRef (layerRef (V (Proc.devRef .tc main_arg0)) (V (Proc.devRef .tc main_arg4)) (V (Proc.devRef .tc main_arg5)) (V (Proc.devRef .tc main_arg6)) (V (Proc.devRef .tc main_arg7)) (V (Proc.devRef .tc main_arg1)) (V (Proc.devRef .tc main_arg2)) (V (Proc.devRef .tc main_arg3))) (V (Proc.devRef .tc main_arg8)) (V (Proc.devRef .tc main_arg9)) (V (Proc.devRef .tc main_arg10)) (V (Proc.devRef .tc main_arg11)) (V (Proc.devRef .tc main_arg1)) (V (Proc.devRef .tc main_arg2)) (V (Proc.devRef .tc main_arg3))) (V (Proc.devRef .tc main_arg12)) (V (Proc.devRef .tc main_arg13)) (V (Proc.devRef .tc main_arg1)) (V (Proc.devRef .tc main_arg2)) (V (Proc.devRef .tc main_arg3)) := by
  rw [ops_split V, stage3_out, stage2_out, stage1_out,
    keep2_arg12, keep1_arg12, keep2_arg13, keep1_arg13, keep2_arg1, keep2_arg2, keep2_arg3,
    keep1_arg1, keep1_arg2, keep1_arg3, keep1_arg8, keep1_arg9, keep1_arg10, keep1_arg11]

theorem ops_keep_arg0 : after (ops (F := Ideal)) V (Proc.devRef .tc main_arg0) = V (Proc.devRef .tc main_arg0) :=
  (congrFun (ops_split V) (Proc.devRef .tc main_arg0)).trans (((keep3_arg0 _).trans (keep2_arg0 _)).trans (keep1_arg0 V))

theorem ops_keep_arg1 : after (ops (F := Ideal)) V (Proc.devRef .tc main_arg1) = V (Proc.devRef .tc main_arg1) :=
  (congrFun (ops_split V) (Proc.devRef .tc main_arg1)).trans (((keep3_arg1 _).trans (keep2_arg1 _)).trans (keep1_arg1 V))

theorem ops_keep_arg2 : after (ops (F := Ideal)) V (Proc.devRef .tc main_arg2) = V (Proc.devRef .tc main_arg2) :=
  (congrFun (ops_split V) (Proc.devRef .tc main_arg2)).trans (((keep3_arg2 _).trans (keep2_arg2 _)).trans (keep1_arg2 V))

theorem ops_keep_arg3 : after (ops (F := Ideal)) V (Proc.devRef .tc main_arg3) = V (Proc.devRef .tc main_arg3) :=
  (congrFun (ops_split V) (Proc.devRef .tc main_arg3)).trans (((keep3_arg3 _).trans (keep2_arg3 _)).trans (keep1_arg3 V))

theorem ops_keep_arg4 : after (ops (F := Ideal)) V (Proc.devRef .tc main_arg4) = V (Proc.devRef .tc main_arg4) :=
  (congrFun (ops_split V) (Proc.devRef .tc main_arg4)).trans (((keep3_arg4 _).trans (keep2_arg4 _)).trans (keep1_arg4 V))

theorem ops_keep_arg5 : after (ops (F := Ideal)) V (Proc.devRef .tc main_arg5) = V (Proc.devRef .tc main_arg5) :=
  (congrFun (ops_split V) (Proc.devRef .tc main_arg5)).trans (((keep3_arg5 _).trans (keep2_arg5 _)).trans (keep1_arg5 V))

theorem ops_keep_arg6 : after (ops (F := Ideal)) V (Proc.devRef .tc main_arg6) = V (Proc.devRef .tc main_arg6) :=
  (congrFun (ops_split V) (Proc.devRef .tc main_arg6)).trans (((keep3_arg6 _).trans (keep2_arg6 _)).trans (keep1_arg6 V))

theorem ops_keep_arg7 : after (ops (F := Ideal)) V (Proc.devRef .tc main_arg7) = V (Proc.devRef .tc main_arg7) :=
  (congrFun (ops_split V) (Proc.devRef .tc main_arg7)).trans (((keep3_arg7 _).trans (keep2_arg7 _)).trans (keep1_arg7 V))

theorem ops_keep_arg8 : after (ops (F := Ideal)) V (Proc.devRef .tc main_arg8) = V (Proc.devRef .tc main_arg8) :=
  (congrFun (ops_split V) (Proc.devRef .tc main_arg8)).trans (((keep3_arg8 _).trans (keep2_arg8 _)).trans (keep1_arg8 V))

theorem ops_keep_arg9 : after (ops (F := Ideal)) V (Proc.devRef .tc main_arg9) = V (Proc.devRef .tc main_arg9) :=
  (congrFun (ops_split V) (Proc.devRef .tc main_arg9)).trans (((keep3_arg9 _).trans (keep2_arg9 _)).trans (keep1_arg9 V))

theorem ops_keep_arg10 : after (ops (F := Ideal)) V (Proc.devRef .tc main_arg10) = V (Proc.devRef .tc main_arg10) :=
  (congrFun (ops_split V) (Proc.devRef .tc main_arg10)).trans (((keep3_arg10 _).trans (keep2_arg10 _)).trans (keep1_arg10 V))

theorem ops_keep_arg11 : after (ops (F := Ideal)) V (Proc.devRef .tc main_arg11) = V (Proc.devRef .tc main_arg11) :=
  (congrFun (ops_split V) (Proc.devRef .tc main_arg11)).trans (((keep3_arg11 _).trans (keep2_arg11 _)).trans (keep1_arg11 V))

theorem ops_keep_arg12 : after (ops (F := Ideal)) V (Proc.devRef .tc main_arg12) = V (Proc.devRef .tc main_arg12) :=
  (congrFun (ops_split V) (Proc.devRef .tc main_arg12)).trans (((keep3_arg12 _).trans (keep2_arg12 _)).trans (keep1_arg12 V))

theorem ops_keep_arg13 : after (ops (F := Ideal)) V (Proc.devRef .tc main_arg13) = V (Proc.devRef .tc main_arg13) :=
  (congrFun (ops_split V) (Proc.devRef .tc main_arg13)).trans (((keep3_arg13 _).trans (keep2_arg13 _)).trans (keep1_arg13 V))

end Cert.ReferenceIdeal.Net

end
-- ==== Proof.LibBatchMoments.lean ====
/-
  The mean and the variance of a batch at exact arithmetic, and a column sum taken block by block.

  Let h be a finite family of real numbers with n > 0 members, S = ∑ h its sum, Q = ∑ h² the sum of its squares
  and μ = S / n its mean. The mean of the squared deviations is the mean of the squares minus the square of the
  mean:

      (∑ (h − μ)²) / n  =  Q / n − μ² ,

  because ∑ (h − μ)² = Q − 2 μ S + n μ² and S = n μ. Both sides are a non-negative real, so adding a positive
  real to either gives a positive real, which has a positive real reciprocal square root.

  On the extended reals the same holds as long as every member of the family is a real number (neither
  infinity): choose the real numbers, push the inclusion of the reals out through the sums, the products and the
  quotient by n, and the statement is the real one. With an infinite member it fails (∞ − ∞ appears).
  A program's sum along an axis reads "initial value + ∑", the initial value being zero, so every statement is
  given a second time with such a value in front of each sum.

  The second part: an accumulator that starts at zero and receives, block after block, the sum of the block's
  terms ends at the sum of all the terms. This uses only that the addition is commutative and associative, so
  it holds on the extended reals with no finiteness hypothesis.
-/
import Idealize.ShloMosaic.PureOps.Ideal.Laws
import proofs.«165878_j21122649162596_1_alg».proof.Proof.LibERealMatrix
import proofs.«165878_j21122649162596_1_alg».proof.Proof.LibIdealFinite
import proofs.«165878_j21122649162596_1_alg».proof.Proof.LibTileSums

noncomputable section

namespace LibBatchMoments

open Idealize.ShloMosaic LibERealMatrix LibIdealFinite Finset

/-! ### The identity on the reals -/

section Real
variable {ι : Type*}

/-- The sum of the squared deviations from any number m: ∑ (g − m)² = ∑ g² − 2 m ∑ g + n m², n the number
    of terms. -/
theorem real_sum_sq_dev (s : Finset ι) (g : ι → ℝ) {n : ℝ} (hcard : (s.card : ℝ) = n) (m : ℝ) :
    ∑ i ∈ s, (g i - m) * (g i - m) = (∑ i ∈ s, g i * g i) - 2 * m * (∑ i ∈ s, g i) + n * (m * m) := by
  have hexp : ∀ i, (g i - m) * (g i - m) = g i * g i - 2 * m * g i + m * m := fun i => by ring
  simp only [hexp]
  rw [Finset.sum_add_distrib, Finset.sum_sub_distrib, ← Finset.mul_sum, Finset.sum_const, nsmul_eq_mul, hcard]

/-- The mean of the squared deviations from the mean is the mean of the squares minus the square of the mean. -/
theorem real_mean_sq_dev (s : Finset ι) (g : ι → ℝ) {n : ℝ} (hn : n ≠ 0) (hcard : (s.card : ℝ) = n) :
    (∑ i ∈ s, (g i - (∑ i ∈ s, g i) / n) * (g i - (∑ i ∈ s, g i) / n)) / n
      = (∑ i ∈ s, g i * g i) / n - (∑ i ∈ s, g i) / n * ((∑ i ∈ s, g i) / n) := by
  rw [real_sum_sq_dev s g hcard]
  field_simp
  ring

/-- A mean of squares of real numbers is non-negative. -/
theorem real_mean_sq_nonneg (s : Finset ι) (g : ι → ℝ) {n : ℝ} (hn : 0 < n) (m : ℝ) :
    0 ≤ (∑ i ∈ s, (g i - m) * (g i - m)) / n :=
  div_nonneg (Finset.sum_nonneg fun i _ => mul_self_nonneg _) hn.le

end Real

/-! ### The identity on the extended reals, for a family of real numbers -/

section Extended
variable {ι : Type*}

/-- The word of 50000.0 in single precision denotes the real 50000. -/
theorem ofBits_50000 : Ideal.ofBits .f32 0x47435000#32 = ((50000 : ℝ) : EReal) := by
  simp [Ideal.ofBits, Ideal.ieee, -EReal.coe_mul]; norm_num

/-- The mean of finitely many real numbers, the quotient of their sum by a nonzero real, is a real number. -/
theorem fin_mean (s : Finset ι) (h : ι → EReal) (hh : ∀ i, Fin' (h i)) {N : EReal} {n : ℝ} (hN : N = (n : EReal))
    (hn : n ≠ 0) : Fin' (Ideal.div (∑ i ∈ s, h i) N) :=
  fin_div (Fin'.sum s h hh) (by rw [hN]; exact Fin'.coe n) (by rw [hN]; exact_mod_cast hn)

/-- The mean of the squared deviations of real numbers from ANY real number μ, the divisor a positive real:
    a real number, and non-negative. -/
theorem mean_sq_dev_fin_nonneg (s : Finset ι) (h : ι → EReal) (hh : ∀ i, Fin' (h i)) {N : EReal} {n : ℝ}
    (hN : N = (n : EReal)) (hn : 0 < n) {μ : EReal} (hμ : Fin' μ) :
    Fin' (Ideal.div (∑ i ∈ s, (h i - μ) * (h i - μ)) N) ∧ 0 ≤ Ideal.div (∑ i ∈ s, (h i - μ) * (h i - μ)) N := by
  have hd : ∀ i, Fin' ((h i - μ) * (h i - μ)) := fun i => (fin_sub (hh i) hμ).mul (fin_sub (hh i) hμ)
  have hNf : Fin' N := by rw [hN]; exact Fin'.coe n
  have hN0 : 0 < N := by rw [hN]; exact EReal.coe_pos.mpr hn
  exact ⟨fin_div (Fin'.sum s _ hd) hNf hN0.ne',
    div_nonneg_of_fin (Fin'.sum s _ hd) hNf (Finset.sum_nonneg fun i _ => fin_mul_self_nonneg (fin_sub (hh i) hμ)) hN0⟩

/-- THE VARIANCE LAW. For real numbers h i (i in s), n > 0 their number and μ their mean (∑ h) / n:
    the mean of the squared deviations from μ is the mean of the squares minus μ². -/
theorem mean_sq_dev_eq (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Ideal.div (∑ i ∈ s, (h i - μ) * (h i - μ)) N = Ideal.div (∑ i ∈ s, h i * h i) N - μ * μ := by
  obtain ⟨g, hg⟩ := exists_real_family h hh
  have hn0 : n ≠ 0 := hn.ne'
  have hS : ∑ i ∈ s, h i = ((∑ i ∈ s, g i : ℝ) : EReal) := by
    rw [coe_sum]; exact Finset.sum_congr rfl fun i _ => hg i
  have hμ' : μ = (((∑ i ∈ s, g i) / n : ℝ) : EReal) := by
    rw [hμ, hS, hN, div_coe_coe _ hn0]
  have hD : ∑ i ∈ s, (h i - μ) * (h i - μ)
      = ((∑ i ∈ s, (g i - (∑ i ∈ s, g i) / n) * (g i - (∑ i ∈ s, g i) / n) : ℝ) : EReal) := by
    rw [coe_sum]
    refine Finset.sum_congr rfl fun i _ => ?_
    rw [hg i, hμ', ← EReal.coe_sub, ← EReal.coe_mul]
  have hQ : ∑ i ∈ s, h i * h i = ((∑ i ∈ s, g i * g i : ℝ) : EReal) := by
    rw [coe_sum]
    refine Finset.sum_congr rfl fun i _ => ?_
    rw [hg i, ← EReal.coe_mul]
  rw [hD, hQ, hN, div_coe_coe _ hn0, div_coe_coe _ hn0, hμ', ← EReal.coe_mul, ← EReal.coe_sub]
  exact congrArg _ (real_mean_sq_dev s g hn0 hcard)

/-- Mean of the squares minus the square of the mean: a real number, and non-negative (it is a mean of squared
    deviations). -/
theorem mean_sq_sub_sq_mean_fin_nonneg (s : Finset ι) (h : ι → EReal) (hh : ∀ i, Fin' (h i)) {N : EReal} {n : ℝ}
    (hN : N = (n : EReal)) (hn : 0 < n) (hcard : (s.card : ℝ) = n) {μ : EReal}
    (hμ : μ = Ideal.div (∑ i ∈ s, h i) N) :
    Fin' (Ideal.div (∑ i ∈ s, h i * h i) N - μ * μ) ∧ 0 ≤ Ideal.div (∑ i ∈ s, h i * h i) N - μ * μ := by
  rw [← mean_sq_dev_eq s h hh hN hn hcard hμ]
  exact mean_sq_dev_fin_nonneg s h hh hN hn (by rw [hμ]; exact fin_mean s h hh hN hn.ne')

/-- A non-negative real plus a positive real: a positive real, whose reciprocal square root is a positive real.
    (A variance plus the small constant that keeps the normalisation away from zero.) -/
theorem fin_pos_add {v e : EReal} (hv : Fin' v) (hv0 : 0 ≤ v) (he : Fin' e) (he0 : 0 < e) :
    Fin' (v + e) ∧ 0 < v + e :=
  ⟨hv.add he, add_pos_of_nonneg_of_pos' hv0 he0⟩

theorem fin_rsqrt_add {v e : EReal} (hv : Fin' v) (hv0 : 0 ≤ v) (he : Fin' e) (he0 : 0 < e) :
    Fin' (Ideal.rsqrt (v + e)) ∧ 0 < Ideal.rsqrt (v + e) :=
  fin_rsqrt (fin_pos_add hv hv0 he he0).1 (fin_pos_add hv hv0 he he0).2

/-! #### The same with an initial value, which is zero, in front of each sum -/

/-- The variance law with each sum read as "initial value + ∑", the three initial values being zero. -/
theorem mean_sq_dev_eq_init (s : Finset ι) (h : ι → EReal) (hh : ∀ i, Fin' (h i)) {N : EReal} {n : ℝ}
    (hN : N = (n : EReal)) (hn : 0 < n) (hcard : (s.card : ℝ) = n) {z₁ z₂ z₃ : EReal} (h₁ : z₁ = 0) (h₂ : z₂ = 0)
    (h₃ : z₃ = 0) {μ : EReal} (hμ : μ = Ideal.div (z₁ + ∑ i ∈ s, h i) N) :
    Ideal.div (z₂ + ∑ i ∈ s, (h i - μ) * (h i - μ)) N = Ideal.div (z₃ + ∑ i ∈ s, h i * h i) N - μ * μ := by
  rw [h₁, zero_add] at hμ
  rw [h₂, h₃, zero_add, zero_add]
  exact mean_sq_dev_eq s h hh hN hn hcard hμ

/-- The variance law with 0 + in front of each sum. -/
theorem mean_sq_dev_eq_zero_add (s : Finset ι) (h : ι → EReal) (hh : ∀ i, Fin' (h i)) {N : EReal} {n : ℝ}
    (hN : N = (n : EReal)) (hn : 0 < n) (hcard : (s.card : ℝ) = n) {μ : EReal}
    (hμ : μ = Ideal.div (0 + ∑ i ∈ s, h i) N) :
    Ideal.div (0 + ∑ i ∈ s, (h i - μ) * (h i - μ)) N = Ideal.div (0 + ∑ i ∈ s, h i * h i) N - μ * μ :=
  mean_sq_dev_eq_init s h hh hN hn hcard rfl rfl rfl hμ

theorem fin_mean_init (s : Finset ι) (h : ι → EReal) (hh : ∀ i, Fin' (h i)) {N : EReal} {n : ℝ} (hN : N = (n : EReal))
    (hn : n ≠ 0) {z : EReal} (hz : z = 0) : Fin' (Ideal.div (z + ∑ i ∈ s, h i) N) := by
  rw [hz, zero_add]; exact fin_mean s h hh hN hn

theorem mean_sq_dev_fin_nonneg_init (s : Finset ι) (h : ι → EReal) (hh : ∀ i, Fin' (h i)) {N : EReal} {n : ℝ}
    (hN : N = (n : EReal)) (hn : 0 < n) {μ : EReal} (hμ : Fin' μ) {z : EReal} (hz : z = 0) :
    Fin' (Ideal.div (z + ∑ i ∈ s, (h i - μ) * (h i - μ)) N)
      ∧ 0 ≤ Ideal.div (z + ∑ i ∈ s, (h i - μ) * (h i - μ)) N := by
  rw [hz, zero_add]; exact mean_sq_dev_fin_nonneg s h hh hN hn hμ

theorem mean_sq_sub_sq_mean_fin_nonneg_init (s : Finset ι) (h : ι → EReal) (hh : ∀ i, Fin' (h i)) {N : EReal} {n : ℝ}
    (hN : N = (n : EReal)) (hn : 0 < n) (hcard : (s.card : ℝ) = n) {z₁ z₃ : EReal} (h₁ : z₁ = 0) (h₃ : z₃ = 0)
    {μ : EReal} (hμ : μ = Ideal.div (z₁ + ∑ i ∈ s, h i) N) :
    Fin' (Ideal.div (z₃ + ∑ i ∈ s, h i * h i) N - μ * μ) ∧ 0 ≤ Ideal.div (z₃ + ∑ i ∈ s, h i * h i) N - μ * μ := by
  rw [h₁, zero_add] at hμ
  rw [h₃, zero_add]
  exact mean_sq_sub_sq_mean_fin_nonneg s h hh hN hn hcard hμ

end Extended

/-! ### A set of indices listed without repetition

A sum along an axis runs over the indices that reduce to a given place; listed by a one-to-one family e
(the rows of a column, say), it is a sum over the list, and the set has as many members as the list. -/

section Listed
variable {ι κ : Type*} [Fintype κ] [DecidableEq ι]

theorem eq_image_of_listed (s : Finset ι) (e : κ → ι) (hs : ∀ i, i ∈ s ↔ ∃ k, e k = i) :
    s = Finset.univ.image e := by
  ext i
  rw [hs i, Finset.mem_image]
  exact ⟨fun ⟨k, hk⟩ => ⟨k, Finset.mem_univ k, hk⟩, fun ⟨k, _, hk⟩ => ⟨k, hk⟩⟩

theorem sum_eq_sum_listed {M : Type*} [AddCommMonoid M] (s : Finset ι) (e : κ → ι) (he : Function.Injective e)
    (hs : ∀ i, i ∈ s ↔ ∃ k, e k = i) (f : ι → M) : ∑ i ∈ s, f i = ∑ k, f (e k) := by
  rw [eq_image_of_listed s e hs, Finset.sum_image fun a _ b _ hab => he hab]

theorem card_eq_card_listed (s : Finset ι) (e : κ → ι) (he : Function.Injective e)
    (hs : ∀ i, i ∈ s ↔ ∃ k, e k = i) : s.card = Fintype.card κ := by
  rw [eq_image_of_listed s e hs, Finset.card_image_of_injective _ he, Finset.card_univ]

end Listed

/-! ### A program's sum along ONE axis, read as a sum over that axis's coordinates -/

section OneAxis
variable {s t u : Shape} {φ : FTy} {a : Fin s.rank}

/-- An entry of a host sum along one axis: the initial value plus the sum, over the coordinates k of that axis,
    of the operand's entry at the result's index with k inserted on the axis. -/
theorem reduceAdd_single_apply (x : FVec Ideal s φ) (init : u.Idx → Ideal φ) (h' : s.ReducesTo [a] t)
    (h : s.Reduces [a] t) (hu : 0 < u.numel) (j : t.Idx) :
    Host.reduceAdd (F := Ideal) x init h' hu j
      = init (Shape.Idx.first hu) + ∑ k : Fin (s.size a), x (h.lift j k) := by
  rw [reduceAdd_apply, Shape.ReducesTo.drop_eq_drop h' h, h.sum_filter_drop_single x j]

/-- A vector unit's sum along one axis, likewise (it has no initial value). -/
theorem vectorReduceAdd_single_apply (x : FVec Ideal s φ) (h : s.Reduces [a] t) (j : t.Idx) :
    Ideal.reduceAdd h x j = ∑ k : Fin (s.size a), x (h.lift j k) :=
  h.sum_filter_drop_single x j

/-- As many indices reduce to a place as the axis has coordinates. -/
theorem card_filter_drop_single (h : s.Reduces [a] t) (j : t.Idx) :
    (Finset.univ.filter fun i => h.drop i = j).card = s.size a := by
  classical
  rw [h.filter_drop_eq_image_lift j, Finset.card_image_of_injective _ (h.lift_injective j), Finset.card_univ,
    Fintype.card_fin]

end OneAxis

/-- The number of members of Fin m, as a real. -/
theorem card_univ_fin_cast (m : ℕ) : (((Finset.univ : Finset (Fin m)).card : ℕ) : ℝ) = (m : ℝ) := by
  rw [Finset.card_univ, Fintype.card_fin]

/-! ### A sum accumulated block by block -/

section Blocks
variable {M : Type*} [AddCommMonoid M]

/-- An accumulator that starts at zero and receives one term per step holds, after n steps, the sum of the n
    terms. -/
theorem acc_eq_sum_range (n : ℕ) (acc blk : ℕ → M) (h0 : acc 0 = 0)
    (hstep : ∀ k, k < n → acc (k + 1) = acc k + blk k) : acc n = ∑ k ∈ range n, blk k := by
  have key : ∀ m, m ≤ n → acc m = ∑ k ∈ range m, blk k := by
    intro m
    induction m with
    | zero => intro _; rw [h0, Finset.sum_range_zero]
    | succ m ih =>
      intro hm
      rw [hstep m (Nat.lt_of_succ_le hm), ih (Nat.le_of_succ_le hm), Finset.sum_range_succ]
  exact key n le_rfl

/-- A sum over n · b consecutive naturals accumulated in n blocks of b: the accumulator starts at zero and step k
    adds the sum of f over the b naturals b · k + r (r < b) of block k; after the n steps it holds the sum of f
    over all the naturals below n · b. -/
theorem acc_blocks (n b : ℕ) (f : ℕ → M) (acc : ℕ → M) (h0 : acc 0 = 0)
    (hstep : ∀ k, k < n → acc (k + 1) = acc k + ∑ r : Fin b, f (b * k + r.val)) :
    acc n = ∑ i : Fin (n * b), f i.val := by
  rw [LibTileSums.sum_tiles n b (n * b) rfl f]
  exact acc_eq_sum_range n acc (fun k => ∑ r : Fin b, f (b * k + r.val)) h0 hstep

/-- The same as a program writes it: each block's sum is itself taken from zero, the block's naturals are
    written k · b + r, and the whole sum is read from zero as well. -/
theorem acc_blocks_zero_add (n b : ℕ) (f : ℕ → M) (acc : ℕ → M) (h0 : acc 0 = 0)
    (hstep : ∀ k, k < n → acc (k + 1) = acc k + (0 + ∑ r : Fin b, f (k * b + r.val))) :
    acc n = 0 + ∑ i : Fin (n * b), f i.val := by
  rw [zero_add]
  refine acc_blocks n b f acc h0 fun k hk => ?_
  rw [hstep k hk, zero_add, Nat.mul_comm k b]

/-- The same for a family indexed by the n · b positions themselves: position r of block k is the one numbered
    r + b · k (LibERealMatrix.finProdFinEquiv_val). -/
theorem acc_blocks_fin (n b : ℕ) (f : Fin (n * b) → M) (acc : ℕ → M) (h0 : acc 0 = 0)
    (hstep : ∀ k : Fin n, acc (k.val + 1) = acc k.val + ∑ r : Fin b, f (finProdFinEquiv (k, r))) :
    acc n = ∑ i, f i := by
  rw [LibERealMatrix.sum_fin_mul n b f,
    acc_eq_sum_range n acc (fun k => if hk : k < n then ∑ r : Fin b, f (finProdFinEquiv (⟨k, hk⟩, r)) else 0) h0
      (fun k hk => by rw [dif_pos hk]; exact hstep ⟨k, hk⟩),
    ← Fin.sum_univ_eq_sum_range (fun k => if hk : k < n then ∑ r : Fin b, f (finProdFinEquiv (⟨k, hk⟩, r)) else 0) n]
  exact Finset.sum_congr rfl fun k _ => dif_pos k.isLt

end Blocks

end LibBatchMoments

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.LibGatherScatterFinite.lean ====
/-
  A gather and an accumulating scatter keep entries real, at exact arithmetic, whatever the indices are.

  A gather only moves entries: each entry of the result is the operand's entry at a position computed from the
  start indices (read as signed integers and clamped so that the slice fits the operand), so an out-of-range
  start index still reads an entry of the operand. Any property of single entries therefore passes from the
  operand to the result, being a real number in particular.

  An accumulating scatter gives each position of the operand the operand's entry there plus the sum of the
  updates that land on it; an update whose position falls outside the operand lands nowhere and contributes
  nothing. Each entry of the result is thus a finite sum of entries of the operand and of the updates, a real
  number when all of those are. No value other than the operand's and the updates' entries ever enters, so the
  indices play no part in the argument.
-/
import Idealize.ShloMosaic.PureOps.Ideal.Laws
import proofs.«165878_j21122649162596_1_alg».proof.Proof.LibERealMatrix
import proofs.«165878_j21122649162596_1_alg».proof.Proof.LibIdealFinite

noncomputable section

namespace LibGatherScatterFinite

open Idealize.ShloMosaic LibERealMatrix LibIdealFinite

/-! ### Gather -/

section Gather
variable {s si t : Shape} {w : Nat}

/-- An entry of a gather is the operand's entry at the position the dimension numbers compute. -/
theorem gather_apply {α : Type} (d : GatherDims s si t) (x : s.Idx → α) (idx : IVec si w) (j : t.Idx) :
    Host.gather d x idx j = x (d.operandIdx j idx) := rfl

/-- Every entry of a gather is an entry of the operand. -/
theorem entriesOf_gather {α : Type} (d : GatherDims s si t) (x : s.Idx → α) (idx : IVec si w) :
    EntriesOf (Host.gather d x idx) x := fun _ => ⟨_, rfl⟩

/-- A gather of real entries has real entries, for any indices. -/
theorem allFin_gather (d : GatherDims s si t) {x : s.Idx → EReal} (idx : IVec si w) (hx : AllFin x) :
    AllFin (Host.gather d x idx) := fun _ => hx _

/-- Non-negativity and positivity pass through a gather as well. -/
theorem gather_nonneg (d : GatherDims s si t) {x : s.Idx → EReal} (idx : IVec si w) (hx : ∀ i, 0 ≤ x i) (j : t.Idx) :
    0 ≤ Host.gather d x idx j := hx _

theorem gather_pos (d : GatherDims s si t) {x : s.Idx → EReal} (idx : IVec si w) (hx : ∀ i, 0 < x i) (j : t.Idx) :
    0 < Host.gather d x idx j := hx _

end Gather

/-! ### Accumulating scatter -/

section Scatter
variable {s si u : Shape} {φ : FTy} {w : Nat}

/-- An entry of an accumulating scatter: the operand's entry plus the sum of the updates landing there. -/
theorem scatterAdd_apply (d : ScatterDims s si u) (x : FVec Ideal s φ) (idx : IVec si w) (upd : FVec Ideal u φ)
    (i : s.Idx) :
    Host.scatterAdd (F := Ideal) d x idx upd i
      = x i + ∑ j ∈ Finset.univ.filter (fun j => d.resultIdx? j idx = some i), upd j := rfl

/-- An accumulating scatter of real updates onto real entries has real entries, for any indices. -/
theorem allFin_scatterAdd (d : ScatterDims s si u) {x : FVec Ideal s φ} (idx : IVec si w) {upd : FVec Ideal u φ}
    (hx : AllFin x) (hupd : AllFin upd) : AllFin (Host.scatterAdd (F := Ideal) d x idx upd) := by
  intro i
  rw [scatterAdd_apply]
  exact (hx i).add (Fin'.sum _ _ fun j => hupd j)

/-- The same at any schedule key: at exact arithmetic the key plays no part. -/
theorem scatterAddAt_eq (sched : HostSchedule) (d : ScatterDims s si u) (x : FVec Ideal s φ) (idx : IVec si w)
    (upd : FVec Ideal u φ) :
    Host.scatterAddAt (F := Ideal) sched d x idx upd = Host.scatterAdd (F := Ideal) d x idx upd := rfl

theorem allFin_scatterAddAt (sched : HostSchedule) (d : ScatterDims s si u) {x : FVec Ideal s φ} (idx : IVec si w)
    {upd : FVec Ideal u φ} (hx : AllFin x) (hupd : AllFin upd) :
    AllFin (Host.scatterAddAt (F := Ideal) sched d x idx upd) := by
  rw [scatterAddAt_eq]; exact allFin_scatterAdd d idx hx hupd

/-- An accumulating scatter of non-negative updates onto non-negative entries is non-negative. -/
theorem scatterAdd_nonneg (d : ScatterDims s si u) {x : FVec Ideal s φ} (idx : IVec si w) {upd : FVec Ideal u φ}
    (hx : ∀ i, 0 ≤ x i) (hupd : ∀ j, 0 ≤ upd j) (i : s.Idx) : 0 ≤ Host.scatterAdd (F := Ideal) d x idx upd i := by
  rw [scatterAdd_apply]
  exact add_nonneg (hx i) (Finset.sum_nonneg fun j _ => hupd j)

end Scatter

end LibGatherScatterFinite

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.BnBridge.lean ====
/-
  One layer of the network computed two ways, and why the two agree at exact arithmetic.

  Both programs form h = z + b, z the aggregated product and b the bias repeated over the 20000 rows. The reference takes
  each column's mean μ = (Σ h) / 20000 and the mean of the squared deviations v = (Σ (h − μ)²) / 20000; the kernel takes the
  same mean from the column sum and the variance as (Σ h²) / 20000 − μ². When every h is a real number the two variances are
  equal: Σ (h − μ)² = Σ h² − 2 μ Σ h + 20000 μ² and Σ h = 20000 μ. With an infinite entry the identity fails, so the entries
  are first shown to be real: a product of real matrices, its aggregation over the edges (sums of real multiples of its
  rows, whatever the indices) and the sum with a real bias have real entries. After that both programs evaluate
  max(γ · (h − μ) · (v + ε)^(−1/2) + β, 0) on equal numbers. The variance is a non-negative real and ε a positive real, so the
  reciprocal square root is a positive real and the layer's output, for real γ and β, has real entries again — which is
  what the next layer needs.
-/
import proofs.«165878_j21122649162596_1_alg».proof.Proof.KNet
import proofs.«165878_j21122649162596_1_alg».proof.Proof.RefNet
import proofs.«165878_j21122649162596_1_alg».proof.Proof.LibBatchMoments
import proofs.«165878_j21122649162596_1_alg».proof.Proof.LibBatchLayouts
import proofs.«165878_j21122649162596_1_alg».proof.Proof.LibRowOps
import proofs.«165878_j21122649162596_1_alg».proof.Proof.LibIdealFinite
import proofs.«165878_j21122649162596_1_alg».proof.Proof.LibGatherScatterFinite
import proofs.«165878_j21122649162596_1_alg».proof.Proof.LibMatIdx

set_option maxRecDepth 16384

noncomputable section

namespace Cert.Bridge

open Idealize.ShloMosaic Idealize.ShloMosaic.ValueIdx LibERealMatrix LibIdealFinite
open Cert.ReferenceIdeal.Gen

/-! ## Constants -/

/-- The word of 20000.0 denotes the real 20000. -/
theorem ofBits_20000 : Ideal.ofBits .f32 0x469C4000#32 = ((20000 : ℝ) : EReal) := by
  simp [Ideal.ofBits, Ideal.ieee, -EReal.coe_mul]; norm_num

/-! ## Reading the layouts at an entry -/

theorem full256_apply (v : Cert.ReferenceIdeal.Net.Vec256) (r : Fin 20000) (q : Fin 256) : Cert.ReferenceIdeal.Net.full256 v (ix2 r q) = v (ix1 q) :=
  (LibBatchLayouts.bcast_1a_na_apply _ _ r q).trans (LibBatchLayouts.bcast_a_1a_apply _ _ (0 : Fin 1) q)

theorem row256_apply (v : Cert.KernelIdeal.Net.Vec256) (q : Fin 256) : Cert.KernelIdeal.Net.row256 v (ix2 (0 : Fin 1) q) = v (ix1 q) :=
  LibRowOps.shapeCast_row_apply v _ 0 q

/-- A column sum of the reference, from zero, over the 20000 rows. -/
theorem colsum_apply (h : Cert.ReferenceIdeal.Net.Nodes256) (q : Fin 256) :
    Host.reduceAdd (F := Ideal) h (constant (F := Ideal) Cert.ReferenceIdeal.S_ .f32 0x00000000#32) reducesTo_S20000x256_S256_d0 h_S_ (ix1 q)
      = 0 + ∑ k : Fin 20000, h (ix2 k q) := by
  have hred : Shape.Reduces Cert.ReferenceIdeal.S20000x256 [0] Cert.ReferenceIdeal.S256 := by decide
  refine (LibBatchMoments.reduceAdd_single_apply h _ _ hred _ (ix1 q)).trans ?_
  show _ + ∑ k : Fin 20000, h (hred.lift (ix1 q) k) = _
  refine congrArg₂ (· + ·) Ideal.ofBits_zero_f32 ?_
  exact Finset.sum_congr rfl fun k _ => congrArg h (funext fun a => Fin.ext (by
    match a with
    | ⟨0, _⟩ => rfl
    | ⟨1, _⟩ => rfl))

theorem muOf_apply (h : Cert.ReferenceIdeal.Net.Nodes256) (q : Fin 256) :
    Cert.ReferenceIdeal.Net.muOf h (ix1 q) = Ideal.div (0 + ∑ k : Fin 20000, h (ix2 k q)) (Ideal.ofBits .f32 0x469C4000#32) := by
  unfold Cert.ReferenceIdeal.Net.muOf
  show Ideal.div (Host.reduceAdd (F := Ideal) h _ _ _ (ix1 q)) _ = _
  rw [colsum_apply]
  rfl

theorem varRef_apply (h : Cert.ReferenceIdeal.Net.Nodes256) (q : Fin 256) :
    Cert.ReferenceIdeal.Net.varRef h (ix1 q) = Ideal.div (0 + ∑ k : Fin 20000, (h (ix2 k q) - Cert.ReferenceIdeal.Net.muOf h (ix1 q)) * (h (ix2 k q) - Cert.ReferenceIdeal.Net.muOf h (ix1 q)))
      (Ideal.ofBits .f32 0x469C4000#32) := by
  unfold Cert.ReferenceIdeal.Net.varRef
  show Ideal.div (Host.reduceAdd (F := Ideal) _ _ _ _ (ix1 q)) _ = _
  rw [colsum_apply]
  refine congrArg (fun s => Ideal.div (0 + s) (Ideal.ofBits .f32 0x469C4000#32)) ?_
  refine Finset.sum_congr rfl fun k _ => ?_
  show (h (ix2 k q) - Cert.ReferenceIdeal.Net.full256 (Cert.ReferenceIdeal.Net.muOf h) (ix2 k q)) * (h (ix2 k q) - Cert.ReferenceIdeal.Net.full256 (Cert.ReferenceIdeal.Net.muOf h) (ix2 k q)) = _
  rw [full256_apply]

/-- The reference's normalised and rectified value at an entry. -/
theorem normRef_apply (h : Cert.ReferenceIdeal.Net.Nodes256) (g be : Cert.ReferenceIdeal.Net.Vec256) (r : Fin 20000) (q : Fin 256) :
    Cert.ReferenceIdeal.Net.normRef h g be (ix2 r q)
      = max (g (ix1 q) * (h (ix2 r q) - Cert.ReferenceIdeal.Net.muOf h (ix1 q)) * Ideal.rsqrt (Cert.ReferenceIdeal.Net.varRef h (ix1 q) + GcnSpec.eps) + be (ix1 q))
          (Ideal.ofBits .f32 0x00000000#32) := by
  unfold Cert.ReferenceIdeal.Net.normRef
  show max ((Cert.ReferenceIdeal.Net.full256 g (ix2 r q) * (h (ix2 r q) - Cert.ReferenceIdeal.Net.full256 (Cert.ReferenceIdeal.Net.muOf h) (ix2 r q)))
      * Cert.ReferenceIdeal.Net.full256 (Host.rsqrt (F := Ideal) (addf (Cert.ReferenceIdeal.Net.varRef h) _)) (ix2 r q) + Cert.ReferenceIdeal.Net.full256 be (ix2 r q)) _ = _
  rw [full256_apply, full256_apply, full256_apply, full256_apply]
  rfl

/-- The kernel's normalised and rectified value at an entry. -/
theorem bnRelu_apply (z : GcnSpec.Mat 20000 256) (b g be mu var : GcnSpec.Mat 1 256) (r : Fin 20000) (q : Fin 256) :
    GcnSpec.bnRelu z b g be mu var (ix2 r q)
      = max (g (ix2 (0 : Fin 1) q) * ((z (ix2 r q) + b (ix2 (0 : Fin 1) q)) - mu (ix2 (0 : Fin 1) q))
          * Ideal.rsqrt (var (ix2 (0 : Fin 1) q) + GcnSpec.eps) + be (ix2 (0 : Fin 1) q)) (Ideal.ofBits .f32 0x00000000#32) := rfl

/-! ## The two variances -/

section Law
variable (z : Cert.ReferenceIdeal.Net.Nodes256) (b : Cert.ReferenceIdeal.Net.Vec256)

/-- The biased entries of a column are real when z and b are. -/
theorem fin_biased (hz : AllFin z) (hb : AllFin b) (q : Fin 256) (k : Fin 20000) : Fin' (z (ix2 k q) + b (ix1 q)) :=
  (hz _).add (hb _)

theorem biased_apply (r : Fin 20000) (q : Fin 256) : Cert.ReferenceIdeal.Net.biased z b (ix2 r q) = z (ix2 r q) + b (ix1 q) := by
  unfold Cert.ReferenceIdeal.Net.biased
  show z (ix2 r q) + Cert.ReferenceIdeal.Net.full256 b (ix2 r q) = _
  rw [full256_apply]

/-- The kernel's mean is the reference's mean. -/
theorem mean_eq (q : Fin 256) :
    Cert.KernelIdeal.Net.meanOf (GcnSpec.colSum z (Cert.KernelIdeal.Net.row256 b)) (ix2 (0 : Fin 1) q) = Cert.ReferenceIdeal.Net.muOf (Cert.ReferenceIdeal.Net.biased z b) (ix1 q) := by
  rw [muOf_apply, zero_add]
  show Ideal.div (GcnSpec.colSum z (Cert.KernelIdeal.Net.row256 b) (ix2 (0 : Fin 1) q)) (Ideal.ofBits .f32 0x469C4000#32) = _
  refine congrArg (fun s => Ideal.div s (Ideal.ofBits .f32 0x469C4000#32)) ?_
  show ∑ k : Fin 20000, (z (ix2 k q) + Cert.KernelIdeal.Net.row256 b (ix2 (0 : Fin 1) q)) = _
  refine Finset.sum_congr rfl fun k _ => ?_
  rw [biased_apply]
  exact congrArg (z (ix2 k q) + ·) (row256_apply b q)

/-- The kernel's variance is the reference's, for real entries. -/
theorem var_eq (hz : AllFin z) (hb : AllFin b) (q : Fin 256) :
    Cert.KernelIdeal.Net.varOf (GcnSpec.colSumSq z (Cert.KernelIdeal.Net.row256 b)) (Cert.KernelIdeal.Net.meanOf (GcnSpec.colSum z (Cert.KernelIdeal.Net.row256 b))) (ix2 (0 : Fin 1) q)
      = Cert.ReferenceIdeal.Net.varRef (Cert.ReferenceIdeal.Net.biased z b) (ix1 q) := by
  rw [varRef_apply, zero_add]
  have hlaw := LibBatchMoments.mean_sq_dev_eq (Finset.univ : Finset (Fin 20000)) (fun k => z (ix2 k q) + b (ix1 q))
    (fun k => fin_biased z b hz hb q k) ofBits_20000 (by norm_num : (0 : ℝ) < 20000)
    (by rw [Finset.card_univ, Fintype.card_fin]; norm_num) (μ := Cert.ReferenceIdeal.Net.muOf (Cert.ReferenceIdeal.Net.biased z b) (ix1 q))
    (by
      rw [muOf_apply, zero_add]
      exact congrArg (fun s => Ideal.div s (Ideal.ofBits .f32 0x469C4000#32)) (Finset.sum_congr rfl fun k _ => biased_apply z b k q))
  have hsum : ∑ k : Fin 20000, (Cert.ReferenceIdeal.Net.biased z b (ix2 k q) - Cert.ReferenceIdeal.Net.muOf (Cert.ReferenceIdeal.Net.biased z b) (ix1 q)) * (Cert.ReferenceIdeal.Net.biased z b (ix2 k q) - Cert.ReferenceIdeal.Net.muOf (Cert.ReferenceIdeal.Net.biased z b) (ix1 q))
      = ∑ k : Fin 20000, ((z (ix2 k q) + b (ix1 q)) - Cert.ReferenceIdeal.Net.muOf (Cert.ReferenceIdeal.Net.biased z b) (ix1 q)) * ((z (ix2 k q) + b (ix1 q)) - Cert.ReferenceIdeal.Net.muOf (Cert.ReferenceIdeal.Net.biased z b) (ix1 q)) :=
    Finset.sum_congr rfl fun k _ => by rw [biased_apply]
  rw [hsum, hlaw, ← mean_eq z b q]
  show Ideal.div (GcnSpec.colSumSq z (Cert.KernelIdeal.Net.row256 b) (ix2 (0 : Fin 1) q)) (Ideal.ofBits .f32 0x469C4000#32)
      - Cert.KernelIdeal.Net.meanOf (GcnSpec.colSum z (Cert.KernelIdeal.Net.row256 b)) (ix2 (0 : Fin 1) q)
        * Cert.KernelIdeal.Net.meanOf (GcnSpec.colSum z (Cert.KernelIdeal.Net.row256 b)) (ix2 (0 : Fin 1) q) = _
  refine congrArg (fun s => Ideal.div s (Ideal.ofBits .f32 0x469C4000#32)
      - Cert.KernelIdeal.Net.meanOf (GcnSpec.colSum z (Cert.KernelIdeal.Net.row256 b)) (ix2 (0 : Fin 1) q)
        * Cert.KernelIdeal.Net.meanOf (GcnSpec.colSum z (Cert.KernelIdeal.Net.row256 b)) (ix2 (0 : Fin 1) q)) ?_
  show ∑ k : Fin 20000, (z (ix2 k q) + Cert.KernelIdeal.Net.row256 b (ix2 (0 : Fin 1) q)) * (z (ix2 k q) + Cert.KernelIdeal.Net.row256 b (ix2 (0 : Fin 1) q))
      = ∑ k : Fin 20000, (z (ix2 k q) + b (ix1 q)) * (z (ix2 k q) + b (ix1 q))
  refine Finset.sum_congr rfl fun k _ => ?_
  rw [row256_apply]

end Law

/-- THE LAYER'S NORMALISATION, TWO WAYS: for real z and b the reference's and the kernel's values agree entry by entry. -/
theorem norm_eq (z : Cert.ReferenceIdeal.Net.Nodes256) (b g be : Cert.ReferenceIdeal.Net.Vec256) (hz : AllFin z) (hb : AllFin b) :
    Cert.ReferenceIdeal.Net.normRef (Cert.ReferenceIdeal.Net.biased z b) g be
      = GcnSpec.bnRelu z (Cert.KernelIdeal.Net.row256 b) (Cert.KernelIdeal.Net.row256 g) (Cert.KernelIdeal.Net.row256 be)
          (Cert.KernelIdeal.Net.meanOf (GcnSpec.colSum z (Cert.KernelIdeal.Net.row256 b)))
          (Cert.KernelIdeal.Net.varOf (GcnSpec.colSumSq z (Cert.KernelIdeal.Net.row256 b)) (Cert.KernelIdeal.Net.meanOf (GcnSpec.colSum z (Cert.KernelIdeal.Net.row256 b)))) := by
  funext i
  obtain ⟨r, q, rfl⟩ : ∃ (r : Fin 20000) (q : Fin 256), i = ix2 r q := ⟨i 0, i 1, eq_ix2 i⟩
  rw [normRef_apply, bnRelu_apply, mean_eq z b, var_eq z b hz hb, row256_apply, row256_apply, row256_apply, biased_apply]

end Cert.Bridge

end
-- ==== Proof.NetBridge.lean ====
/-
  The reference network and the kernel's network are one function of real argument arrays.

  The matrix products agree (both are the sum over the contracted axis). The aggregation over the edges is the same
  composition of the same operations on both sides, and it keeps entries real: a gather only moves entries, and an
  accumulating scatter adds finitely many real numbers onto zero. With real entries the two normalisations of a layer
  agree (the variance law), and a layer's output is real again because the variance is a non-negative real, the added
  constant a positive real, and so the reciprocal square root a positive real. The last stage needs no finiteness: both
  sides take, row by row, h − m − log Σ exp(h − m) with m the maximum of the row from −∞, over the same biased matrix h.
-/
import proofs.«165878_j21122649162596_1_alg».proof.Proof.BnBridge

set_option maxRecDepth 16384

noncomputable section

namespace Cert.Bridge

open Idealize.ShloMosaic Idealize.ShloMosaic.ValueIdx LibERealMatrix LibIdealFinite
open Cert.ReferenceIdeal.Gen

/-! ## The products and the aggregations -/

theorem dot256_eq (x : Cert.ReferenceIdeal.Net.Nodes256) (w : Cert.ReferenceIdeal.Net.W256) :
    Host.dotGeneral (F := Ideal) Cert.ReferenceIdeal.dot_S20000x256_S256x256_S20000x256_1_0_0_1_n_n none x w = GcnSpec.mm x w :=
  funext fun j => LibMatIdx.dot2_apply _ rfl rfl (fun _ _ => rfl) (fun _ _ => rfl) (fun _ _ => rfl) (fun _ _ => rfl) none x w j

theorem dot40_eq (x : Cert.ReferenceIdeal.Net.Nodes256) (w : Cert.ReferenceIdeal.Net.W40) :
    Host.dotGeneral (F := Ideal) Cert.ReferenceIdeal.dot_S20000x256_S256x40_S20000x40_1_0_0_1_n_n none x w = GcnSpec.mm x w :=
  funext fun j => LibMatIdx.dot2_apply _ rfl rfl (fun _ _ => rfl) (fun _ _ => rfl) (fun _ _ => rfl) (fun _ _ => rfl) none x w j

theorem spmm256_eq (y : Cert.ReferenceIdeal.Net.Nodes256) (ar ac : Cert.ReferenceIdeal.Net.EdgeIdx) (av : Cert.ReferenceIdeal.Net.EdgeVal) :
    Cert.ReferenceIdeal.Net.spmm256 y ar ac av = Cert.KernelIdeal.Net.spmm256 y ar ac av := rfl

theorem spmm40_eq (y : Cert.ReferenceIdeal.Net.Nodes40) (ar ac : Cert.ReferenceIdeal.Net.EdgeIdx) (av : Cert.ReferenceIdeal.Net.EdgeVal) :
    Cert.ReferenceIdeal.Net.spmm40 y ar ac av = Cert.KernelIdeal.Net.spmm40 y ar ac av := rfl

/-! ## Real entries -/

theorem fin_mm {M K N : ℕ} {x : GcnSpec.Mat M K} {w : GcnSpec.Mat K N} (hx : AllFin x) (hw : AllFin w) : AllFin (GcnSpec.mm x w) :=
  fun i => Fin'.sum _ _ fun k => (hx _).mul (hw _)

theorem fin_spmm256 {y : Cert.KernelIdeal.Net.Nodes256} (ar ac : Cert.KernelIdeal.Net.EdgeIdx) {av : Cert.KernelIdeal.Net.EdgeVal} (hy : AllFin y) (hav : AllFin av) :
    AllFin (Cert.KernelIdeal.Net.spmm256 y ar ac av) := by
  unfold Cert.KernelIdeal.Net.spmm256
  exact LibGatherScatterFinite.allFin_scatterAdd _ _ (allFin_bcast_constant _ _ ofBits_zero_coe)
    (allFin_mulf (allFin_broadcastInDim _ _ _ (allFin_broadcastInDim _ _ _ hav)) (LibGatherScatterFinite.allFin_gather _ _ hy))

/-- The entries of a layer's output are real when its inputs are. -/
theorem fin_bnRelu {z : GcnSpec.Mat 20000 256} {b g be : Cert.KernelIdeal.Net.Vec256} (hz : AllFin z) (hb : AllFin b) (hg : AllFin g) (hbe : AllFin be) :
    AllFin (GcnSpec.bnRelu z (Cert.KernelIdeal.Net.row256 b) (Cert.KernelIdeal.Net.row256 g) (Cert.KernelIdeal.Net.row256 be)
      (Cert.KernelIdeal.Net.meanOf (GcnSpec.colSum z (Cert.KernelIdeal.Net.row256 b)))
      (Cert.KernelIdeal.Net.varOf (GcnSpec.colSumSq z (Cert.KernelIdeal.Net.row256 b)) (Cert.KernelIdeal.Net.meanOf (GcnSpec.colSum z (Cert.KernelIdeal.Net.row256 b))))) := by
  intro i
  obtain ⟨r, q, rfl⟩ : ∃ (r : Fin 20000) (q : Fin 256), i = ix2 r q := ⟨i 0, i 1, eq_ix2 i⟩
  rw [bnRelu_apply, row256_apply, row256_apply, row256_apply]
  have hh : ∀ k : Fin 20000, Fin' (z (ix2 k q) + b (ix1 q)) := fun k => (hz _).add (hb _)
  have hμ : Cert.KernelIdeal.Net.meanOf (GcnSpec.colSum z (Cert.KernelIdeal.Net.row256 b)) (ix2 (0 : Fin 1) q)
      = Ideal.div (∑ k : Fin 20000, (z (ix2 k q) + b (ix1 q))) (Ideal.ofBits .f32 0x469C4000#32) := by
    show Ideal.div (GcnSpec.colSum z (Cert.KernelIdeal.Net.row256 b) (ix2 (0 : Fin 1) q)) (Ideal.ofBits .f32 0x469C4000#32) = _
    refine congrArg (fun s => Ideal.div s (Ideal.ofBits .f32 0x469C4000#32)) ?_
    show ∑ k : Fin 20000, (z (ix2 k q) + Cert.KernelIdeal.Net.row256 b (ix2 (0 : Fin 1) q)) = _
    exact Finset.sum_congr rfl fun k _ => congrArg (z (ix2 k q) + ·) (row256_apply b q)
  have hv : Cert.KernelIdeal.Net.varOf (GcnSpec.colSumSq z (Cert.KernelIdeal.Net.row256 b)) (Cert.KernelIdeal.Net.meanOf (GcnSpec.colSum z (Cert.KernelIdeal.Net.row256 b))) (ix2 (0 : Fin 1) q)
      = Ideal.div (∑ k : Fin 20000, (z (ix2 k q) + b (ix1 q)) * (z (ix2 k q) + b (ix1 q))) (Ideal.ofBits .f32 0x469C4000#32)
        - Cert.KernelIdeal.Net.meanOf (GcnSpec.colSum z (Cert.KernelIdeal.Net.row256 b)) (ix2 (0 : Fin 1) q) * Cert.KernelIdeal.Net.meanOf (GcnSpec.colSum z (Cert.KernelIdeal.Net.row256 b)) (ix2 (0 : Fin 1) q) := by
    show Ideal.div (GcnSpec.colSumSq z (Cert.KernelIdeal.Net.row256 b) (ix2 (0 : Fin 1) q)) (Ideal.ofBits .f32 0x469C4000#32)
        - Cert.KernelIdeal.Net.meanOf (GcnSpec.colSum z (Cert.KernelIdeal.Net.row256 b)) (ix2 (0 : Fin 1) q)
          * Cert.KernelIdeal.Net.meanOf (GcnSpec.colSum z (Cert.KernelIdeal.Net.row256 b)) (ix2 (0 : Fin 1) q) = _
    refine congrArg (fun s => Ideal.div s (Ideal.ofBits .f32 0x469C4000#32)
        - Cert.KernelIdeal.Net.meanOf (GcnSpec.colSum z (Cert.KernelIdeal.Net.row256 b)) (ix2 (0 : Fin 1) q)
          * Cert.KernelIdeal.Net.meanOf (GcnSpec.colSum z (Cert.KernelIdeal.Net.row256 b)) (ix2 (0 : Fin 1) q)) ?_
    show ∑ k : Fin 20000, (z (ix2 k q) + Cert.KernelIdeal.Net.row256 b (ix2 (0 : Fin 1) q)) * (z (ix2 k q) + Cert.KernelIdeal.Net.row256 b (ix2 (0 : Fin 1) q))
        = ∑ k : Fin 20000, (z (ix2 k q) + b (ix1 q)) * (z (ix2 k q) + b (ix1 q))
    exact Finset.sum_congr rfl fun k _ => by rw [row256_apply]
  have hmean : Fin' (Cert.KernelIdeal.Net.meanOf (GcnSpec.colSum z (Cert.KernelIdeal.Net.row256 b)) (ix2 (0 : Fin 1) q)) := by
    rw [hμ]; exact LibBatchMoments.fin_mean _ _ hh ofBits_20000 (by norm_num)
  obtain ⟨hvf, hv0⟩ := LibBatchMoments.mean_sq_sub_sq_mean_fin_nonneg (Finset.univ : Finset (Fin 20000))
    (fun k => z (ix2 k q) + b (ix1 q)) hh ofBits_20000 (by norm_num : (0 : ℝ) < 20000)
    (by rw [Finset.card_univ, Fintype.card_fin]; norm_num) hμ
  rw [← hv] at hvf hv0
  obtain ⟨e, he0, he⟩ := ofBits_1em5_pos
  have heF : Fin' GcnSpec.eps := by rw [show GcnSpec.eps = (e : EReal) from he]; exact Fin'.coe e
  have heP : (0 : EReal) < GcnSpec.eps := by rw [show GcnSpec.eps = (e : EReal) from he]; exact EReal.coe_pos.mpr he0
  have hr := (LibBatchMoments.fin_rsqrt_add hvf hv0 heF heP).1
  refine fin_max ((((hg _).mul (fin_sub ((hz _).add (hb _)) hmean)).mul hr).add (hbe _)) ?_
  rw [ofBits_zero]; exact fin_zero

/-! ## A layer, two ways -/

theorem layer_eq (x : Cert.ReferenceIdeal.Net.Nodes256) (w : Cert.ReferenceIdeal.Net.W256) (b g be : Cert.ReferenceIdeal.Net.Vec256) (ar ac : Cert.ReferenceIdeal.Net.EdgeIdx) (av : Cert.ReferenceIdeal.Net.EdgeVal)
    (hx : AllFin x) (hw : AllFin w) (hb : AllFin b) (hav : AllFin av) :
    Cert.ReferenceIdeal.Net.layerRef x w b g be ar ac av = Cert.KernelIdeal.Net.layer x w b g be ar ac av := by
  unfold Cert.ReferenceIdeal.Net.layerRef Cert.KernelIdeal.Net.layer
  rw [dot256_eq, spmm256_eq]
  exact norm_eq _ b g be (fin_spmm256 ar ac (fin_mm hx hw) hav) hb

theorem fin_layer (x : Cert.KernelIdeal.Net.Nodes256) (w : Cert.ReferenceIdeal.Net.W256) (b g be : Cert.KernelIdeal.Net.Vec256) (ar ac : Cert.KernelIdeal.Net.EdgeIdx) (av : Cert.KernelIdeal.Net.EdgeVal)
    (hx : AllFin x) (hw : AllFin w) (hb : AllFin b) (hg : AllFin g) (hbe : AllFin be) (hav : AllFin av) :
    AllFin (Cert.KernelIdeal.Net.layer x w b g be ar ac av) := by
  unfold Cert.KernelIdeal.Net.layer
  exact fin_bnRelu (fin_spmm256 ar ac (fin_mm hx hw) hav) hb hg hbe

/-! ## The last stage -/

theorem full40_apply (v : Cert.ReferenceIdeal.Net.Vec40) (r : Fin 20000) (q : Fin 40) : Cert.ReferenceIdeal.Net.full40 v (ix2 r q) = v (ix1 q) :=
  (LibBatchLayouts.bcast_1a_na_apply _ _ r q).trans (LibBatchLayouts.bcast_a_1a_apply _ _ (0 : Fin 1) q)

theorem row40_apply (v : Cert.KernelIdeal.Net.Vec40) (q : Fin 40) : Cert.KernelIdeal.Net.row40 v (ix2 (0 : Fin 1) q) = v (ix1 q) :=
  LibRowOps.shapeCast_row_apply v _ 0 q

/-- A vector of length 20000 as a column. -/
theorem col_apply (v : FVec Ideal Cert.ReferenceIdeal.S20000 .f32) (r : Fin 20000) :
    broadcastInDim Cert.ReferenceIdeal.S20000x1 ![0] bcast_S20000_S20000x1_0 v (ix2 r (0 : Fin 1)) = v (ix1 r) := by
  refine broadcastInDim_apply _ _ v (ix2 r (0 : Fin 1)) (ix1 r) fun ax => ?_
  match ax with
  | ⟨0, _⟩ => show r.val = if (20000 : ℕ) = 1 then 0 else r.val; rw [if_neg (by decide)]

/-- A column repeated along the 40 classes. -/
theorem colRep_apply (x : FVec Ideal Cert.ReferenceIdeal.S20000x1 .f32) (r : Fin 20000) (q : Fin 40) :
    broadcastInDim Cert.ReferenceIdeal.S20000x40 ![0, 1] bcast_S20000x1_S20000x40_0_1 x (ix2 r q) = x (ix2 r (0 : Fin 1)) := by
  refine broadcastInDim_apply _ _ x (ix2 r q) (ix2 r (0 : Fin 1)) fun ax => ?_
  match ax with
  | ⟨0, _⟩ => show r.val = if (20000 : ℕ) = 1 then 0 else r.val; rw [if_neg (by decide)]
  | ⟨1, _⟩ => show (0 : ℕ) = if (1 : ℕ) = 1 then 0 else q.val; rw [if_pos rfl]

/-- A row's maximum as the reference takes it: the maximum of −∞ and the fold of the maximum from −∞ over the row. -/
theorem rowMaxFull_apply (h : Cert.ReferenceIdeal.Net.Nodes40) (r : Fin 20000) (q : Fin 40) :
    Cert.ReferenceIdeal.Net.rowMaxFull h (ix2 r q) = GcnSpec.rowMax (fun k : Fin 40 => h (ix2 r k)) := by
  have hred : Shape.Reduces Cert.ReferenceIdeal.S20000x40 [1] Cert.ReferenceIdeal.S20000 := by decide
  unfold Cert.ReferenceIdeal.Net.rowMaxFull
  refine (colRep_apply _ r q).trans ?_
  refine (col_apply _ r).trans ?_
  refine (ValueIdx.maximumf_apply _ _ (ix1 r)).trans ?_
  refine (congrArg₂ max ofBits_neg_inf (Host.reduce_eq_fold_single FloatOps.maximumf h _ _ hred _ (ix1 r))).trans ?_
  refine (max_eq_right bot_le).trans ?_
  unfold GcnSpec.rowMax
  show Finset.fold max (Ideal.ofBits .f32 0xFF800000#32) (fun k : Fin 40 => h (hred.lift (ix1 r) k)) Finset.univ = _
  exact congrArg₂ (fun (b : EReal) (f : Fin 40 → EReal) => Finset.fold max b f (Finset.univ : Finset (Fin 40))) ofBits_neg_inf
    (funext fun k => congrArg h (funext fun a => Fin.ext (by
      match a with
      | ⟨0, _⟩ => rfl
      | ⟨1, _⟩ => rfl)))

/-- A row sum of the reference, from zero, over the 40 classes. -/
theorem rowsum_apply (x : Cert.ReferenceIdeal.Net.Nodes40) (r : Fin 20000) :
    Host.reduceAdd (F := Ideal) x (constant (F := Ideal) Cert.ReferenceIdeal.S_ .f32 0x00000000#32) reducesTo_S20000x40_S20000_d1 h_S_ (ix1 r)
      = 0 + ∑ k : Fin 40, x (ix2 r k) := by
  have hred : Shape.Reduces Cert.ReferenceIdeal.S20000x40 [1] Cert.ReferenceIdeal.S20000 := by decide
  refine (LibBatchMoments.reduceAdd_single_apply x _ _ hred _ (ix1 r)).trans ?_
  show _ + ∑ k : Fin 40, x (hred.lift (ix1 r) k) = _
  refine congrArg₂ (· + ·) Ideal.ofBits_zero_f32 ?_
  exact Finset.sum_congr rfl fun k _ => congrArg x (funext fun a => Fin.ext (by
    match a with
    | ⟨0, _⟩ => rfl
    | ⟨1, _⟩ => rfl))

/-- The host's logarithm and exponential act entry by entry. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The specification of the last stage at an entry, written through the row. -/
theorem logSoftmax_ix (z : GcnSpec.Mat 20000 40) (b : GcnSpec.Mat 1 40) (r : Fin 20000) (q : Fin 40) :
    GcnSpec.logSoftmax z b (ix2 r q)
      = (GcnSpec.biasedRow z b r q - GcnSpec.rowMax (GcnSpec.biasedRow z b r))
        - Ideal.log (∑ k : Fin 40, Ideal.exp (GcnSpec.biasedRow z b r k - GcnSpec.rowMax (GcnSpec.biasedRow z b r))) := rfl

theorem lsm_eq (z : Cert.ReferenceIdeal.Net.Nodes40) (b : Cert.ReferenceIdeal.Net.Vec40) :
    Cert.ReferenceIdeal.Net.logSoftmaxRef (addf z (Cert.ReferenceIdeal.Net.full40 b)) = GcnSpec.logSoftmax z (Cert.KernelIdeal.Net.row40 b) := by
  funext i
  obtain ⟨r, q, rfl⟩ : ∃ (r : Fin 20000) (q : Fin 40), i = ix2 r q := ⟨i 0, i 1, eq_ix2 i⟩
  have hent : ∀ k : Fin 40, (addf z (Cert.ReferenceIdeal.Net.full40 b) : Cert.ReferenceIdeal.Net.Nodes40) (ix2 r k) = GcnSpec.biasedRow z (Cert.KernelIdeal.Net.row40 b) r k :=
    fun k => by
      show z (ix2 r k) + Cert.ReferenceIdeal.Net.full40 b (ix2 r k) = z (ix2 r k) + Cert.KernelIdeal.Net.row40 b (ix2 (0 : Fin 1) k)
      rw [full40_apply, row40_apply]
  have hrow : (fun k : Fin 40 => (addf z (Cert.ReferenceIdeal.Net.full40 b) : Cert.ReferenceIdeal.Net.Nodes40) (ix2 r k)) = GcnSpec.biasedRow z (Cert.KernelIdeal.Net.row40 b) r :=
    funext hent
  have hmax : ∀ k : Fin 40, Cert.ReferenceIdeal.Net.rowMaxFull (addf z (Cert.ReferenceIdeal.Net.full40 b)) (ix2 r k) = GcnSpec.rowMax (GcnSpec.biasedRow z (Cert.KernelIdeal.Net.row40 b) r) :=
    fun k => (rowMaxFull_apply _ r k).trans (congrArg GcnSpec.rowMax hrow)
  refine Eq.trans ?_ (logSoftmax_ix z (Cert.KernelIdeal.Net.row40 b) r q).symm
  generalize addf z (Cert.ReferenceIdeal.Net.full40 b) = h at hent hrow hmax ⊢
  unfold Cert.ReferenceIdeal.Net.logSoftmaxRef
  refine (ValueIdx.subf_apply _ _ (ix2 r q)).trans ?_
  refine congrArg₂ (· - ·) ((ValueIdx.subf_apply _ _ (ix2 r q)).trans (congrArg₂ (· - ·) (hent q) (hmax q))) ?_
  refine (colRep_apply _ r q).trans ?_
  refine (hostLog_apply _ _).trans ?_
  refine congrArg Ideal.log ?_
  refine (col_apply _ r).trans ?_
  refine (rowsum_apply _ r).trans ?_
  refine (zero_add _).trans ?_
  refine Finset.sum_congr rfl fun k _ => ?_
  refine (hostExp_apply _ _).trans ?_
  exact congrArg Ideal.exp ((ValueIdx.subf_apply _ _ (ix2 r k)).trans (congrArg₂ (· - ·) (hent k) (hmax k)))

theorem out_eq (x : Cert.ReferenceIdeal.Net.Nodes256) (w : Cert.ReferenceIdeal.Net.W40) (b : Cert.ReferenceIdeal.Net.Vec40) (ar ac : Cert.ReferenceIdeal.Net.EdgeIdx) (av : Cert.ReferenceIdeal.Net.EdgeVal) :
    Cert.ReferenceIdeal.Net.outRef x w b ar ac av = GcnSpec.logSoftmax (Cert.KernelIdeal.Net.spmm40 (GcnSpec.mm x w) ar ac av) (Cert.KernelIdeal.Net.row40 b) := by
  unfold Cert.ReferenceIdeal.Net.outRef
  rw [dot40_eq, spmm40_eq]
  exact lsm_eq _ b

/-! ## The networks -/

/-- The reference's three stages composed are the kernel's network, for real float arguments. -/
theorem net_eq (x : Cert.ReferenceIdeal.Net.Nodes256) (ar ac : Cert.ReferenceIdeal.Net.EdgeIdx) (av : Cert.ReferenceIdeal.Net.EdgeVal) (w1 : Cert.ReferenceIdeal.Net.W256) (b1 g1 be1 : Cert.ReferenceIdeal.Net.Vec256)
    (w2 : Cert.ReferenceIdeal.Net.W256) (b2 g2 be2 : Cert.ReferenceIdeal.Net.Vec256) (w3 : Cert.ReferenceIdeal.Net.W40) (b3 : Cert.ReferenceIdeal.Net.Vec40)
    (hx : AllFin x) (hav : AllFin av) (hw1 : AllFin w1) (hb1 : AllFin b1) (hg1 : AllFin g1) (hbe1 : AllFin be1)
    (hw2 : AllFin w2) (hb2 : AllFin b2) :
    Cert.ReferenceIdeal.Net.outRef (Cert.ReferenceIdeal.Net.layerRef (Cert.ReferenceIdeal.Net.layerRef x w1 b1 g1 be1 ar ac av) w2 b2 g2 be2 ar ac av) w3 b3 ar ac av
      = Cert.KernelIdeal.Net.net x ar ac av w1 b1 g1 be1 w2 b2 g2 be2 w3 b3 := by
  rw [layer_eq x w1 b1 g1 be1 ar ac av hx hw1 hb1 hav,
    layer_eq _ w2 b2 g2 be2 ar ac av (fin_layer x w1 b1 g1 be1 ar ac av hx hw1 hb1 hg1 hbe1 hav) hw2 hb2 hav, out_eq]
  rfl

end Cert.Bridge

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.PreFinite.lean ====
/-
  From the precondition to "every float argument array has real entries".

  The precondition states that a conjunction is 1: for each of the twelve float argument arrays, the conjunction over
  all of its entries x of |x| < +∞, and then the conjunction of these twelve results, nested to the left. A conjunction
  of two one-bit words is 1 exactly when both are, so each array's own conjunction is 1; and the absolute value of an
  extended real is below +∞ exactly when it is neither infinity. So every entry of every float argument array is
  neither +∞ nor −∞.
-/
import proofs.«165878_j21122649162596_1_alg».proof.Defs
import proofs.«165878_j21122649162596_1_alg».proof.Proof.Gen.Pre_finite_inputs
import proofs.«165878_j21122649162596_1_alg».proof.Proof.Gen.KernelIdeal
import proofs.«165878_j21122649162596_1_alg».proof.Proof.LibFiniteEntries
import proofs.«165878_j21122649162596_1_alg».proof.Proof.LibIdealFinite
import Idealize.ShloMosaic.Lib.ReduceAll
import Idealize.ShloMosaic.Lib.Affine
import Idealize.ShloMosaic.Lib.ValueIdx

set_option maxRecDepth 16384

noncomputable section

namespace Cert.Proof.PreFinite

open Idealize.ShloMosaic Idealize.ShloMosaic.TcCoe Idealize.SL.Sem LibIdealFinite LibERealMatrix

/-- A conjunction of two one-bit arrays that reads 1 at an index: both read 1 there. -/
theorem andi_ix {s : Shape} (a b : IVec s 1) (i : s.Idx) (h : andi a b i = 1#1) : a i = 1#1 ∧ b i = 1#1 :=
  IntOp.andi_eq_one.mp h

/-- If the conjunction over all entries of "|x_i| < bound_i" is 1, the bound reading +∞ everywhere, then no entry of x
    is infinite. -/
theorem allFin_of_all {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) : AllFin x := by
  intro i
  have hx := congrFun (LibFiniteEntries.real_of_all_abs_lt x bound hb init h hu j e) i
  rw [hx]
  exact Fin'.coe _

/-- Under the precondition every float argument array has real entries, on every device. -/
theorem inputs_finite (m : (ℓ : Loc Cert.KernelIdeal.nD Cert.KernelIdeal.τ Cert.KernelIdeal.sig) → Buf (Elt Ideal) ℓ) (hpre : Cert.Pre_KernelIdeal m) (c : Dev Cert.KernelIdeal.nD) :
    AllFin (m ((c.tc : Thread Cert.KernelIdeal.nD Cert.KernelIdeal.τ).loc Cert.KernelIdeal.main_arg0))
      ∧ AllFin (m ((c.tc : Thread Cert.KernelIdeal.nD Cert.KernelIdeal.τ).loc Cert.KernelIdeal.main_arg3))
      ∧ AllFin (m ((c.tc : Thread Cert.KernelIdeal.nD Cert.KernelIdeal.τ).loc Cert.KernelIdeal.main_arg4))
      ∧ AllFin (m ((c.tc : Thread Cert.KernelIdeal.nD Cert.KernelIdeal.τ).loc Cert.KernelIdeal.main_arg5))
      ∧ AllFin (m ((c.tc : Thread Cert.KernelIdeal.nD Cert.KernelIdeal.τ).loc Cert.KernelIdeal.main_arg6))
      ∧ AllFin (m ((c.tc : Thread Cert.KernelIdeal.nD Cert.KernelIdeal.τ).loc Cert.KernelIdeal.main_arg7))
      ∧ AllFin (m ((c.tc : Thread Cert.KernelIdeal.nD Cert.KernelIdeal.τ).loc Cert.KernelIdeal.main_arg8))
      ∧ AllFin (m ((c.tc : Thread Cert.KernelIdeal.nD Cert.KernelIdeal.τ).loc Cert.KernelIdeal.main_arg9))
      ∧ AllFin (m ((c.tc : Thread Cert.KernelIdeal.nD Cert.KernelIdeal.τ).loc Cert.KernelIdeal.main_arg10))
      ∧ AllFin (m ((c.tc : Thread Cert.KernelIdeal.nD Cert.KernelIdeal.τ).loc Cert.KernelIdeal.main_arg11))
      ∧ AllFin (m ((c.tc : Thread Cert.KernelIdeal.nD Cert.KernelIdeal.τ).loc Cert.KernelIdeal.main_arg12))
      ∧ AllFin (m ((c.tc : Thread Cert.KernelIdeal.nD Cert.KernelIdeal.τ).loc Cert.KernelIdeal.main_arg13)) := by
  have h := congrFun (hpre c) ValueIdx.ix0
  unfold Cert.Pre_finite_inputs.fn Cert.Pre_finite_inputs.fn_part1 Cert.Pre_finite_inputs.fn_part2 Cert.Pre_finite_inputs.fn_part3 at h
  dsimp only at h
  obtain ⟨h, e13⟩ := andi_ix _ _ _ h
  obtain ⟨h, e12⟩ := andi_ix _ _ _ h
  obtain ⟨h, e11⟩ := andi_ix _ _ _ h
  obtain ⟨h, e10⟩ := andi_ix _ _ _ h
  obtain ⟨h, e9⟩ := andi_ix _ _ _ h
  obtain ⟨h, e8⟩ := andi_ix _ _ _ h
  obtain ⟨h, e7⟩ := andi_ix _ _ _ h
  obtain ⟨h, e6⟩ := andi_ix _ _ _ h
  obtain ⟨h, e5⟩ := andi_ix _ _ _ h
  obtain ⟨h, e4⟩ := andi_ix _ _ _ h
  obtain ⟨e0, e3⟩ := andi_ix _ _ _ h
  exact ⟨allFin_of_all _ _ (fun _ => rfl) _ _ _ _ e0,
    allFin_of_all _ _ (fun _ => rfl) _ _ _ _ e3,
    allFin_of_all _ _ (fun _ => rfl) _ _ _ _ e4,
    allFin_of_all _ _ (fun _ => rfl) _ _ _ _ e5,
    allFin_of_all _ _ (fun _ => rfl) _ _ _ _ e6,
    allFin_of_all _ _ (fun _ => rfl) _ _ _ _ e7,
    allFin_of_all _ _ (fun _ => rfl) _ _ _ _ e8,
    allFin_of_all _ _ (fun _ => rfl) _ _ _ _ e9,
    allFin_of_all _ _ (fun _ => rfl) _ _ _ _ e10,
    allFin_of_all _ _ (fun _ => rfl) _ _ _ _ e11,
    allFin_of_all _ _ (fun _ => rfl) _ _ _ _ e12,
    allFin_of_all _ _ (fun _ => rfl) _ _ _ _ e13⟩

end Cert.Proof.PreFinite

end
-- ==== Proof.lean ====
/-
  The certificate: a three-layer graph-convolution network computed by eight tiled kernels, against its plain reference.

  The three frame claims are the generated frame certificates of the two kernel programs and the reference's run (no
  operation writes an argument array). The idealisation rewrote nothing, so the preservation claim is trivial. For the
  value claim both programs are read as functions of the argument arrays. The kernel's result is the network
  `Cert.KernelIdeal.Net.net`: each region's result array is the region's function of the arrays it is entered with, each
  stretch of host operations in between is the composition of its operations. The reference's result is its three stages
  composed. The two are the same function when every float argument is a real number, which the precondition says:
  the matrix products and the aggregations over the edges agree as they stand, the normalisation statistics agree by
  (Σ (h − μ)²) / n = (Σ h²) / n − μ² for real h (the only place finiteness is used, and it is carried from layer to layer
  because a layer's output is real again), and the final row-wise logarithm of the softmax is one formula on both sides.
-/
import proofs.«165878_j21122649162596_1_alg».proof.Defs
import proofs.«165878_j21122649162596_1_alg».proof.Proof.Gen.Kernel
import proofs.«165878_j21122649162596_1_alg».proof.Proof.Gen.Kernel.Skeleton
import proofs.«165878_j21122649162596_1_alg».proof.Proof.Gen.Kernel.Launch
import proofs.«165878_j21122649162596_1_alg».proof.Proof.Gen.Kernel.Points
import proofs.«165878_j21122649162596_1_alg».proof.Proof.Gen.Kernel.Frame
import proofs.«165878_j21122649162596_1_alg».proof.Proof.Gen.KernelIdeal
import proofs.«165878_j21122649162596_1_alg».proof.Proof.Gen.KernelIdeal.Skeleton
import proofs.«165878_j21122649162596_1_alg».proof.Proof.Gen.KernelIdeal.Launch
import proofs.«165878_j21122649162596_1_alg».proof.Proof.Gen.KernelIdeal.Points
import proofs.«165878_j21122649162596_1_alg».proof.Proof.Gen.KernelIdeal.Frame
import proofs.«165878_j21122649162596_1_alg».proof.Proof.Gen.ReferenceIdeal
import proofs.«165878_j21122649162596_1_alg».proof.Proof.Gen.Pre_finite_inputs
import proofs.«165878_j21122649162596_1_alg».proof.Proof.KernelRun
import proofs.«165878_j21122649162596_1_alg».proof.Proof.Chain
import proofs.«165878_j21122649162596_1_alg».proof.Proof.RefChain
import proofs.«165878_j21122649162596_1_alg».proof.Proof.NetBridge
import proofs.«165878_j21122649162596_1_alg».proof.Proof.PreFinite
import Idealize.ShloMosaic.Adequacy
import Idealize.ShloMosaic.Init

set_option maxRecDepth 16384

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument array. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Net.ops_keep_arg0 _),
      (h c Cert.ReferenceIdeal.main_arg1).trans (Cert.ReferenceIdeal.Net.ops_keep_arg1 _),
      (h c Cert.ReferenceIdeal.main_arg2).trans (Cert.ReferenceIdeal.Net.ops_keep_arg2 _),
      (h c Cert.ReferenceIdeal.main_arg3).trans (Cert.ReferenceIdeal.Net.ops_keep_arg3 _),
      (h c Cert.ReferenceIdeal.main_arg4).trans (Cert.ReferenceIdeal.Net.ops_keep_arg4 _),
      (h c Cert.ReferenceIdeal.main_arg5).trans (Cert.ReferenceIdeal.Net.ops_keep_arg5 _),
      (h c Cert.ReferenceIdeal.main_arg6).trans (Cert.ReferenceIdeal.Net.ops_keep_arg6 _),
      (h c Cert.ReferenceIdeal.main_arg7).trans (Cert.ReferenceIdeal.Net.ops_keep_arg7 _),
      (h c Cert.ReferenceIdeal.main_arg8).trans (Cert.ReferenceIdeal.Net.ops_keep_arg8 _),
      (h c Cert.ReferenceIdeal.main_arg9).trans (Cert.ReferenceIdeal.Net.ops_keep_arg9 _),
      (h c Cert.ReferenceIdeal.main_arg10).trans (Cert.ReferenceIdeal.Net.ops_keep_arg10 _),
      (h c Cert.ReferenceIdeal.main_arg11).trans (Cert.ReferenceIdeal.Net.ops_keep_arg11 _),
      (h c Cert.ReferenceIdeal.main_arg12).trans (Cert.ReferenceIdeal.Net.ops_keep_arg12 _),
      (h c Cert.ReferenceIdeal.main_arg13).trans (Cert.ReferenceIdeal.Net.ops_keep_arg13 _)⟩)
    (Cert.ReferenceIdeal.ValueP.run_fold (F := Ideal) m ρ)

theorem preserves : Cert.preserves_Kernel_KernelIdeal := trivial

/-- Both idealized programs end with the network of the argument arrays in their result arrays. -/
theorem algebraic : Cert.algebraic_KernelIdeal_ReferenceIdeal := by
  intro m ρ m' ρ' hpre hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Chain.result_eq m ρ c), (h c).2⟩)
      (Cert.KernelIdeal.Value.run_result m ρ)
  · refine (θ_run Cert.ReferenceIdeal.defs _ _).mono (fun r h c => ?_) (Cert.ReferenceIdeal.ValueP.run_fold (F := Ideal) m' ρ')
    obtain ⟨f0, f3, f4, f5, f6, f7, f8, f9, f10, f11, f12, f13⟩ := Cert.Proof.PreFinite.inputs_finite m hpre c
    obtain ⟨a0, a1, a2, a3, a4, a5, a6, a7, a8, a9, a10, a11, a12, a13⟩ := hagree c
    refine ⟨?_,
      (h c Cert.ReferenceIdeal.main_arg0).trans (Cert.ReferenceIdeal.Net.ops_keep_arg0 _),
      (h c Cert.ReferenceIdeal.main_arg1).trans (Cert.ReferenceIdeal.Net.ops_keep_arg1 _),
      (h c Cert.ReferenceIdeal.main_arg2).trans (Cert.ReferenceIdeal.Net.ops_keep_arg2 _),
      (h c Cert.ReferenceIdeal.main_arg3).trans (Cert.ReferenceIdeal.Net.ops_keep_arg3 _),
      (h c Cert.ReferenceIdeal.main_arg4).trans (Cert.ReferenceIdeal.Net.ops_keep_arg4 _),
      (h c Cert.ReferenceIdeal.main_arg5).trans (Cert.ReferenceIdeal.Net.ops_keep_arg5 _),
      (h c Cert.ReferenceIdeal.main_arg6).trans (Cert.ReferenceIdeal.Net.ops_keep_arg6 _),
      (h c Cert.ReferenceIdeal.main_arg7).trans (Cert.ReferenceIdeal.Net.ops_keep_arg7 _),
      (h c Cert.ReferenceIdeal.main_arg8).trans (Cert.ReferenceIdeal.Net.ops_keep_arg8 _),
      (h c Cert.ReferenceIdeal.main_arg9).trans (Cert.ReferenceIdeal.Net.ops_keep_arg9 _),
      (h c Cert.ReferenceIdeal.main_arg10).trans (Cert.ReferenceIdeal.Net.ops_keep_arg10 _),
      (h c Cert.ReferenceIdeal.main_arg11).trans (Cert.ReferenceIdeal.Net.ops_keep_arg11 _),
      (h c Cert.ReferenceIdeal.main_arg12).trans (Cert.ReferenceIdeal.Net.ops_keep_arg12 _),
      (h c Cert.ReferenceIdeal.main_arg13).trans (Cert.ReferenceIdeal.Net.ops_keep_arg13 _)⟩
    refine (h c Cert.ReferenceIdeal.main_v103).trans ((Cert.ReferenceIdeal.Net.ops_result _).trans ?_)
    show Cert.ReferenceIdeal.Net.outRef (Cert.ReferenceIdeal.Net.layerRef (Cert.ReferenceIdeal.Net.layerRef (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
        (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [a0, a1, a2, a3, a4, a5, a6, a7, a8, a9, a10, a11, a12, a13]
    exact Cert.Bridge.net_eq _ _ _ _ _ _ _ _ _ _ _ _ _ _ f0 f3 f4 f5 f6 f7 f8 f9

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
